-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S1x512x1024 : Shape := ⟨3, ![1, 512, 1024]⟩
abbrev S512x1 : Shape := ⟨2, ![512, 1]⟩
abbrev S512x512 : Shape := ⟨2, ![512, 512]⟩
abbrev S512 : Shape := ⟨1, ![512]⟩

abbrev nBuf : Space → Nat
  | .hbm => 19
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8192x1024, .bf16⟩
  | .hbm, ⟨15, _⟩ => ⟨S8192x1024, .bf16⟩
  | .hbm, ⟨16, _⟩ => ⟨S4x2048x1024, .bf16⟩
  | .hbm, ⟨17, _⟩ => ⟨S4x2048x1024, .bf16⟩
  | .hbm, ⟨18, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x512x1024, .f32⟩
  | .local _ .vmem, ⟨11, _⟩ => ⟨S1x512x1024, .f32⟩
  | .local _ .vmem, ⟨12, _⟩ => ⟨S1024x1024, .bf16⟩
  | .local _ .vmem, ⟨13, _⟩ => ⟨S1x1024, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .f32⟩
  | .local _ .vmem, ⟨19, _⟩ => ⟨S1x512x1024, .f32⟩
  | .local _ .vmem, ⟨20, _⟩ => ⟨S512x1024, .bf16⟩
  | .local _ .vmem, ⟨21, _⟩ => ⟨S512x1, .f32⟩
  | .local _ .vmem, ⟨22, _⟩ => ⟨S512x1, .f32⟩
  | .local _ .vmem, ⟨23, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v39 : BitVec 1 := Scalar.cmpi .eq arg2 c3_i32
  let v40 : BitVec 32 := Scalar.extui v39
  let c0_i32_25 : BitVec 32 := 0#32
  let v41 : BitVec 1 := Scalar.cmpi .ne v40 c0_i32_25
  v41

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, true]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S4x2048x1024_S8192x1024 : S4x2048x1024.ShapeCasts S8192x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .bf16 = 32 ∨ (Rect.block (s := S8192x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .f32 = 32 ∨ (Rect.block (s := S4x2048x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .bf16 = 32 ∨ (Rect.block (s := S4x2048x1024) S1x512x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x2048x1024.size a
  hwx1_4 : ∀ i : grid1.Coords, EltTy.bits .bf16 = 32 ∨ (Rect.block (s := S4x2048x1024) S1x512x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S4x2048x1024.size a
  hwx1_5 : ∀ i : grid1.Coords, EltTy.bits .f32 = 32 ∨ (Rect.block (s := S4x2048x1024) S1x512x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x512x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.IdealFrame.R0.lean ====
/-
  The first kernel region: the key and value projections.

  At grid point t (of 16) the body reads the 512 rows t of the flattened input, both weight matrices and both
  bias rows whole, and stores the two products-plus-bias into the two output windows' staging buffers; nothing is
  carried from one point to the next. This module states, for contents V of the buffers when the region is entered:
  each window's block at a point, what the body leaves in the two output buffers as a function of the input
  blocks, the body's triple, the region's proof data and its body obligation at every point.
-/
import proofs.«147183_j52690658788033_2_alg».proof.Proof.Gen.KernelIdeal.Launch
import proofs.«147183_j52690658788033_2_alg».proof.Proof.Gen.KernelIdeal.Skeleton
import proofs.«147183_j52690658788033_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether fetched there or carried over. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether fetched there or carried over. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether fetched there or carried over. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether fetched there or carried over. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether fetched there or carried over. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0

/-- The key window's staging buffer after the body: its one store, of the first projection of the loads. -/
def out0_5 (x0 : Vec F S512x1024 .f32) (x1 : Vec F S1024x1024 .bf16) (x2 : Vec F S1x1024 .f32) : Vec F S512x1024 .bf16 :=
  View.canon [⟨rX0, k0_pay2 (View.ld x0 rX0) (View.ld x1 rW0) (View.ld x2 rB0)⟩]

/-- The value window's staging buffer after the body: its one store, of the second projection of the loads. -/
def out0_6 (x0 : Vec F S512x1024 .f32) (x3 : Vec F S1024x1024 .bf16) (x4 : Vec F S1x1024 .f32) : Vec F S512x1024 .bf16 :=
  View.canon [⟨rX0, k0_pay3 (View.ld x0 rX0) (View.ld x3 rW0) (View.ld x4 rB0)⟩]

/-- A whole-buffer store covers the buffer. -/
theorem cover0_out (p0 : Vec F S512x1024 .bf16) (y : S512x1024.Idx) :
    ∃ pc ∈ ([⟨rX0, p0⟩] : List (View.Piece (Elt F) S512x1024 .bf16)), y ∈ pc.1.set :=
  View.cover_of_tiled [⟨rX0, p0⟩] S512x1024.size (by rfl) y

/-! ## The body's triple -/

set_option maxHeartbeats 2000000 in
/-- On whole staging memrefs, the inputs' at contents x0..x4 and the outputs' at anything, the body runs to the
    continuation holding the inputs' as they were and the outputs' at out0_5, out0_6 of the inputs'. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S512x1024 .bf16) (harg6 : arg6.IsWhole)
    (arg7 : Memref sig .tc .vmem S512x1024 .bf16) (harg7 : arg7.IsWhole)
    (x0 : Vec F S512x1024 .f32) (x1 : Vec F S1024x1024 .bf16) (x2 : Vec F S1x1024 .f32) (x3 : Vec F S1024x1024 .bf16) (x4 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x3 x4)) -∗ K ⟨⟩))
      ⊢ wp frame (wpE (defs₀ (F := F)) Variants.none c none) E (cc0__kv_kernel i arg1 harg1 arg2 harg2 arg3 harg3 arg4 harg4 arg5 harg5 arg6 harg6 arg7 harg7) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_out _)
  iexists _; isplitr
  swap; · iexact H6
  ipureintro
  exact View.read_writes_eq_canon _ _ _ (cover0_out _)

/-! ## The region's proof data -/

/-- The arrays as the region finds them; after the body at point t each input's buffer at its block and the two
    outputs' at out0_5, out0_6 of the input blocks; the invariant only the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.IdealFrame.R1Base.lean ====
/-
  The second kernel region (the tiled attention), what its three control cases share.

  The grid is 4 × 4 × 4: batch, query tile, key tile; point t has key tile t mod 4. The body initialises its four
  scratch buffers (the scaled query projection, the running maximum, the normaliser, the accumulator) when the key
  tile is 0, updates three of them at every point, and stores the output block when the key tile is 3; the output
  window is idle and not written back at the other points. This module states the two branch conditions in closed
  form over the grid, where the output window is idle, the memrefs the body is called with, and the region's
  plain invariant with the four scratch buffers singled out.
-/
import proofs.«147183_j52690658788033_2_alg».proof.Proof.Gen.KernelIdeal.Launch
import proofs.«147183_j52690658788033_2_alg».proof.Proof.Gen.KernelIdeal.Skeleton
import proofs.«147183_j52690658788033_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether fetched there or carried over. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether fetched there or carried over. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether fetched there or carried over. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether fetched there or carried over. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether fetched there or carried over. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- "The key tile is the first": the body's first conditional, from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "The key tile is the last": the body's second conditional. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Unless the key tile is the last, the output window is idle and its block is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last key tile the output window is live. -/
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x1024 .f32 := win1_5.stage (cfg1.slots t 5)
abbrev hs1_5 (t : Fin cfg1.N) : (ms1_5 t).IsWhole := hstage1_5 ((cfg1.slots t 5).cast nbuf1_5)

/-- The four scratch operands: whole scoped buffers of the kernel's own. -/
abbrev scM1_0 : Memref sig .tc .vmem S512x1024 .bf16 := Memref.whole cc1_scratch0
abbrev scM1_1 : Memref sig .tc .vmem S512x1 .f32 := Memref.whole cc1_scratch1
abbrev scM1_2 : Memref sig .tc .vmem S512x1 .f32 := Memref.whole cc1_scratch2
abbrev scM1_3 : Memref sig .tc .vmem S512x1024 .f32 := Memref.whole cc1_scratch3
/-- The same as views, through which their contents are stated. -/
abbrev VS1_0 : View sig .tc .vmem S512x1024 .bf16 := scM1_0.view
abbrev VS1_1 : View sig .tc .vmem S512x1 .f32 := scM1_1.view
abbrev VS1_2 : View sig .tc .vmem S512x1 .f32 := scM1_2.view
abbrev VS1_3 : View sig .tc .vmem S512x1024 .f32 := scM1_3.view
/-- One staging buffer of the output window, through which its contents are stated. -/
abbrev VO1_5 : View sig .tc .vmem S1x512x1024 .f32 := (Memref.whole cc1_stg5_0 : Memref sig .tc .vmem S1x512x1024 .f32).view

/-- The scoped buffers of the core that this region neither stages nor uses as scratch (the first region's staging
    buffers), each whole at some contents: they ride through the region untouched. -/
def otherRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The same buffers in front of a further resource, as one right-nested chain. -/
def withOther (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P)

/-- Reassociation: the chain in front of `P` is the bundle beside `P`. -/
theorem withOther_eq (c : Dev nD) (P : sProp 𝕄) : withOther (F := F) c P = iprop(otherRest (F := F) c ∗ P) := by
  unfold withOther otherRest
  refine BI.Entails.antisymm ?_ ?_
  · show iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P) ⊢ iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)) ∗ P)
    iintro ⟨A0, A1, A2, A3, A4, A5, A6, A7, A8, A9, HP⟩
    isplitl [A0 A1 A2 A3 A4 A5 A6 A7 A8 A9]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact A9
    · iexact HP
  · show iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)) ∗ P) ⊢ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P)
    iintro ⟨⟨A0, A1, A2, A3, A4, A5, A6, A7, A8, A9⟩, HP⟩
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact HP

/-- The region's plain invariant with the scratch operands as memrefs owned at some contents: what the body
    obligation hands the run at the first point and what the region gives back at the end. -/
theorem PhiA1_eq (c : Dev nD) :
    (Pipeline.ΦA spec1 c : sProp 𝕄)
      = iprop(iprop(otherRest (F := F) c ∗ (∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]
  exact congrArg (fun X : sProp 𝕄 => iprop(X ∗ (∃ r, prngReg c r))) (withOther_eq (F := F) c _)

end Cert.KernelIdeal.Fr

end
-- ==== Proof.IdealFrame.R1RunA.lean ====
/-
  The tiled-attention body run whole at a point whose key tile is the first and not the last: it stores all four
  scratch buffers (initial values, the scaled query projection) before reading them, leaves the output window
  untouched, and ends with the pieces it stored in each scratch buffer.
-/
import proofs.«147183_j52690658788033_2_alg».proof.Proof.IdealFrame.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A (first key tile). The pieces the body's stores leave in the four scratch buffers, last first, WITH the
    proof that on whole memrefs — the inputs' at their contents, the idle output's at contents handed back
    untouched, the scratch at anything — the body runs to the continuation holding the inputs' and the output's as
    they were and each scratch buffer with its pieces written. -/
noncomputable def kernelRun1_A (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond1_0 i) (hc1 : ¬cond1_1 i)
    (x0 : Vec F S1x512x1024 .f32) (x1 : Vec F S1024x1024 .bf16) (x2 : Vec F S1x1024 .f32) (x3 : Vec F S1x512x1024 .bf16) (x4 : Vec F S1x512x1024 .bf16) :
    Σ' (LS0 : List (View.Piece (Elt F) S512x1024 .bf16)) (LS1 : List (View.Piece (Elt F) S512x1 .f32)) (LS2 : List (View.Piece (Elt F) S512x1 .f32)), { LS3 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11 arg12 harg12) K } := by
  refine ⟨?_, ?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; iexact HS3

end Cert.KernelIdeal.Fr

end
-- ==== Proof.IdealFrame.R1RunB.lean ====
/-
  The tiled-attention body run whole at a point whose key tile is neither the first nor the last: it reads the four
  scratch buffers as the point before left them, updates the running maximum, the normaliser and the accumulator,
  and leaves the scaled query projection and the output window untouched.
-/
import proofs.«147183_j52690658788033_2_alg».proof.Proof.IdealFrame.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (a middle key tile). The pieces the body's stores leave in the three scratch buffers it updates, last
    first, WITH the proof that on whole memrefs — the inputs' at their contents, the idle output's at contents
    handed back untouched, the scratch at the contents the point before left — the body runs to the continuation
    holding the inputs', the output's and the query scratch as they were and the other three scratch buffers with
    their pieces written. -/
noncomputable def kernelRun1_B (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond1_0 i) (hc1 : ¬cond1_1 i)
    (x0 : Vec F S1x512x1024 .f32) (x1 : Vec F S1024x1024 .bf16) (x2 : Vec F S1x1024 .f32) (x3 : Vec F S1x512x1024 .bf16) (x4 : Vec F S1x512x1024 .bf16) (xs0 : Vec F S512x1024 .bf16) (xs1 : Vec F S512x1 .f32) (xs2 : Vec F S512x1 .f32) (xs3 : Vec F S512x1024 .f32) :
    Σ' (LS1 : List (View.Piece (Elt F) S512x1 .f32)) (LS2 : List (View.Piece (Elt F) S512x1 .f32)), { LS3 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
                ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11 arg12 harg12) K } := by
  refine ⟨?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    isplitl [HS1]; · iexists _; iexact HS1
    isplitl [HS2]; · iexists _; iexact HS2
    iexists _; iexact HS3

end Cert.KernelIdeal.Fr

end
-- ==== Proof.IdealFrame.R1RunC.lean ====
/-
  The tiled-attention body run whole at a point whose key tile is the last: as at a middle tile, and then it divides
  the accumulator by the normaliser and stores the quotient as the output block.
-/
import proofs.«147183_j52690658788033_2_alg».proof.Proof.IdealFrame.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C (last key tile). The pieces the body's stores leave in the output's staging buffer and in the three
    scratch buffers it updates, last first, WITH the proof that on whole memrefs — the inputs' at their contents,
    the output's at anything, the scratch at the contents the point before left — the body runs to the continuation
    holding the inputs' and the query scratch as they were and the output's and the other three scratch buffers with
    their pieces written. -/
noncomputable def kernelRun1_C (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond1_0 i) (hc1 : cond1_1 i)
    (x0 : Vec F S1x512x1024 .f32) (x1 : Vec F S1024x1024 .bf16) (x2 : Vec F S1x1024 .f32) (x3 : Vec F S1x512x1024 .bf16) (x4 : Vec F S1x512x1024 .bf16) (xs0 : Vec F S512x1024 .bf16) (xs1 : Vec F S512x1 .f32) (xs2 : Vec F S512x1 .f32) (xs3 : Vec F S512x1024 .f32) :
    Σ' (L5 : List (View.Piece (Elt F) S1x512x1024 .f32)) (LS1 : List (View.Piece (Elt F) S512x1 .f32)) (LS2 : List (View.Piece (Elt F) S512x1 .f32)), { LS3 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)
                ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    isplitl [HS1]; · iexists _; iexact HS1
    isplitl [HS2]; · iexists _; iexact HS2
    iexists _; iexact HS3

end Cert.KernelIdeal.Fr

end
-- ==== Proof.IdealFrame.R1.lean ====
/-
  The second kernel region (the tiled attention): what each control case leaves in the output window's staging
  buffer and in the four scratch buffers, the accumulation of those point by point, the region's invariant (the
  scratch buffers carried from each point to the next at named contents), its proof data and the body obligation
  at every point.
-/
import proofs.«147183_j52690658788033_2_alg».proof.Proof.IdealFrame.R1RunA
import proofs.«147183_j52690658788033_2_alg».proof.Proof.IdealFrame.R1RunB
import proofs.«147183_j52690658788033_2_alg».proof.Proof.IdealFrame.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's run at a point of the first key tile, on the point's memrefs and input blocks. -/
def runA (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)
/-- The body's run at a point of a middle key tile, over what the point before left in the scratch buffers. -/
def runB (c : Dev nD) (t : Fin cfg1.N) (h0 : ¬t.val % 4 = 0) (h1 : ¬t.val % 4 = 3) (p : Vec F S512x1024 .bf16 × Vec F S512x1 .f32 × Vec F S512x1 .f32 × Vec F S512x1024 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.1 p.2.1 p.2.2.1 p.2.2.2
/-- The body's run at a point of the last key tile, over what the point before left in the scratch buffers. -/
def runC (c : Dev nD) (t : Fin cfg1.N) (h0 : ¬t.val % 4 = 0) (h1 : t.val % 4 = 3) (p : Vec F S512x1024 .bf16 × Vec F S512x1 .f32 × Vec F S512x1 .f32 × Vec F S512x1024 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.1 p.2.1 p.2.2.1 p.2.2.2

/-- Case A's pieces for the scaled query projection cover its buffer. -/
theorem scover1_A_0 (c : Dev nD) (t : Fin cfg1.N) (h0 : t.val % 4 = 0) (h1 : ¬t.val % 4 = 3) (y : S512x1024.Idx) :
    ∃ pc ∈ (runA V c t h0 h1).1, y ∈ pc.1.set :=
  View.cover_of_tiledL (runA V c t h0 h1).1 S512x1024.size (by unfold runA; sl_kernel_rfl) y
/-- What case A leaves in the scaled query projection. -/
def sout1_A_0 (c : Dev nD) (t : Fin cfg1.N) (h0 : t.val % 4 = 0) (h1 : ¬t.val % 4 = 3) : Vec F S512x1024 .bf16 :=
  VS1_0.read (Elt F) (VS1_0.writes (Elt F) VS1_0.junk (runA V c t h0 h1).1)

/-- Case A's pieces for the running maximum cover its buffer. -/
theorem scover1_A_1 (c : Dev nD) (t : Fin cfg1.N) (h0 : t.val % 4 = 0) (h1 : ¬t.val % 4 = 3) (y : S512x1.Idx) :
    ∃ pc ∈ (runA V c t h0 h1).2.1, y ∈ pc.1.set :=
  View.cover_of_tiledL (runA V c t h0 h1).2.1 S512x1.size (by unfold runA; sl_kernel_rfl) y
/-- What case A leaves in the running maximum. -/
def sout1_A_1 (c : Dev nD) (t : Fin cfg1.N) (h0 : t.val % 4 = 0) (h1 : ¬t.val % 4 = 3) : Vec F S512x1 .f32 :=
  VS1_1.read (Elt F) (VS1_1.writes (Elt F) VS1_1.junk (runA V c t h0 h1).2.1)

/-- Case A's pieces for the normaliser cover its buffer. -/
theorem scover1_A_2 (c : Dev nD) (t : Fin cfg1.N) (h0 : t.val % 4 = 0) (h1 : ¬t.val % 4 = 3) (y : S512x1.Idx) :
    ∃ pc ∈ (runA V c t h0 h1).2.2.1, y ∈ pc.1.set :=
  View.cover_of_tiledL (runA V c t h0 h1).2.2.1 S512x1.size (by unfold runA; sl_kernel_rfl) y
/-- What case A leaves in the normaliser. -/
def sout1_A_2 (c : Dev nD) (t : Fin cfg1.N) (h0 : t.val % 4 = 0) (h1 : ¬t.val % 4 = 3) : Vec F S512x1 .f32 :=
  VS1_2.read (Elt F) (VS1_2.writes (Elt F) VS1_2.junk (runA V c t h0 h1).2.2.1)

/-- Case A's pieces for the accumulator cover its buffer. -/
theorem scover1_A_3 (c : Dev nD) (t : Fin cfg1.N) (h0 : t.val % 4 = 0) (h1 : ¬t.val % 4 = 3) (y : S512x1024.Idx) :
    ∃ pc ∈ (runA V c t h0 h1).2.2.2.1, y ∈ pc.1.set :=
  View.cover_of_tiledL (runA V c t h0 h1).2.2.2.1 S512x1024.size (by unfold runA; sl_kernel_rfl) y
/-- What case A leaves in the accumulator. -/
def sout1_A_3 (c : Dev nD) (t : Fin cfg1.N) (h0 : t.val % 4 = 0) (h1 : ¬t.val % 4 = 3) : Vec F S512x1024 .f32 :=
  VS1_3.read (Elt F) (VS1_3.writes (Elt F) VS1_3.junk (runA V c t h0 h1).2.2.2.1)

/-- Case B's pieces for the running maximum cover its buffer. -/
theorem scover1_B_1 (c : Dev nD) (t : Fin cfg1.N) (h0 : ¬t.val % 4 = 0) (h1 : ¬t.val % 4 = 3) (p : Vec F S512x1024 .bf16 × Vec F S512x1 .f32 × Vec F S512x1 .f32 × Vec F S512x1024 .f32) (y : S512x1.Idx) :
    ∃ pc ∈ (runB V c t h0 h1 p).1, y ∈ pc.1.set :=
  View.cover_of_tiledL (runB V c t h0 h1 p).1 S512x1.size (by unfold runB; sl_kernel_rfl) y
/-- What case B leaves in the running maximum. -/
def sout1_B_1 (c : Dev nD) (t : Fin cfg1.N) (h0 : ¬t.val % 4 = 0) (h1 : ¬t.val % 4 = 3) (p : Vec F S512x1024 .bf16 × Vec F S512x1 .f32 × Vec F S512x1 .f32 × Vec F S512x1024 .f32) : Vec F S512x1 .f32 :=
  VS1_1.read (Elt F) (VS1_1.writes (Elt F) VS1_1.junk (runB V c t h0 h1 p).1)

/-- Case B's pieces for the normaliser cover its buffer. -/
theorem scover1_B_2 (c : Dev nD) (t : Fin cfg1.N) (h0 : ¬t.val % 4 = 0) (h1 : ¬t.val % 4 = 3) (p : Vec F S512x1024 .bf16 × Vec F S512x1 .f32 × Vec F S512x1 .f32 × Vec F S512x1024 .f32) (y : S512x1.Idx) :
    ∃ pc ∈ (runB V c t h0 h1 p).2.1, y ∈ pc.1.set :=
  View.cover_of_tiledL (runB V c t h0 h1 p).2.1 S512x1.size (by unfold runB; sl_kernel_rfl) y
/-- What case B leaves in the normaliser. -/
def sout1_B_2 (c : Dev nD) (t : Fin cfg1.N) (h0 : ¬t.val % 4 = 0) (h1 : ¬t.val % 4 = 3) (p : Vec F S512x1024 .bf16 × Vec F S512x1 .f32 × Vec F S512x1 .f32 × Vec F S512x1024 .f32) : Vec F S512x1 .f32 :=
  VS1_2.read (Elt F) (VS1_2.writes (Elt F) VS1_2.junk (runB V c t h0 h1 p).2.1)

/-- Case B's pieces for the accumulator cover its buffer. -/
theorem scover1_B_3 (c : Dev nD) (t : Fin cfg1.N) (h0 : ¬t.val % 4 = 0) (h1 : ¬t.val % 4 = 3) (p : Vec F S512x1024 .bf16 × Vec F S512x1 .f32 × Vec F S512x1 .f32 × Vec F S512x1024 .f32) (y : S512x1024.Idx) :
    ∃ pc ∈ (runB V c t h0 h1 p).2.2.1, y ∈ pc.1.set :=
  View.cover_of_tiledL (runB V c t h0 h1 p).2.2.1 S512x1024.size (by unfold runB; sl_kernel_rfl) y
/-- What case B leaves in the accumulator. -/
def sout1_B_3 (c : Dev nD) (t : Fin cfg1.N) (h0 : ¬t.val % 4 = 0) (h1 : ¬t.val % 4 = 3) (p : Vec F S512x1024 .bf16 × Vec F S512x1 .f32 × Vec F S512x1 .f32 × Vec F S512x1024 .f32) : Vec F S512x1024 .f32 :=
  VS1_3.read (Elt F) (VS1_3.writes (Elt F) VS1_3.junk (runB V c t h0 h1 p).2.2.1)

/-- Case C's pieces for the running maximum cover its buffer. -/
theorem scover1_C_1 (c : Dev nD) (t : Fin cfg1.N) (h0 : ¬t.val % 4 = 0) (h1 : t.val % 4 = 3) (p : Vec F S512x1024 .bf16 × Vec F S512x1 .f32 × Vec F S512x1 .f32 × Vec F S512x1024 .f32) (y : S512x1.Idx) :
    ∃ pc ∈ (runC V c t h0 h1 p).2.1, y ∈ pc.1.set :=
  View.cover_of_tiledL (runC V c t h0 h1 p).2.1 S512x1.size (by unfold runC; sl_kernel_rfl) y
/-- What case C leaves in the running maximum. -/
def sout1_C_1 (c : Dev nD) (t : Fin cfg1.N) (h0 : ¬t.val % 4 = 0) (h1 : t.val % 4 = 3) (p : Vec F S512x1024 .bf16 × Vec F S512x1 .f32 × Vec F S512x1 .f32 × Vec F S512x1024 .f32) : Vec F S512x1 .f32 :=
  VS1_1.read (Elt F) (VS1_1.writes (Elt F) VS1_1.junk (runC V c t h0 h1 p).2.1)

/-- Case C's pieces for the normaliser cover its buffer. -/
theorem scover1_C_2 (c : Dev nD) (t : Fin cfg1.N) (h0 : ¬t.val % 4 = 0) (h1 : t.val % 4 = 3) (p : Vec F S512x1024 .bf16 × Vec F S512x1 .f32 × Vec F S512x1 .f32 × Vec F S512x1024 .f32) (y : S512x1.Idx) :
    ∃ pc ∈ (runC V c t h0 h1 p).2.2.1, y ∈ pc.1.set :=
  View.cover_of_tiledL (runC V c t h0 h1 p).2.2.1 S512x1.size (by unfold runC; sl_kernel_rfl) y
/-- What case C leaves in the normaliser. -/
def sout1_C_2 (c : Dev nD) (t : Fin cfg1.N) (h0 : ¬t.val % 4 = 0) (h1 : t.val % 4 = 3) (p : Vec F S512x1024 .bf16 × Vec F S512x1 .f32 × Vec F S512x1 .f32 × Vec F S512x1024 .f32) : Vec F S512x1 .f32 :=
  VS1_2.read (Elt F) (VS1_2.writes (Elt F) VS1_2.junk (runC V c t h0 h1 p).2.2.1)

/-- Case C's pieces for the accumulator cover its buffer. -/
theorem scover1_C_3 (c : Dev nD) (t : Fin cfg1.N) (h0 : ¬t.val % 4 = 0) (h1 : t.val % 4 = 3) (p : Vec F S512x1024 .bf16 × Vec F S512x1 .f32 × Vec F S512x1 .f32 × Vec F S512x1024 .f32) (y : S512x1024.Idx) :
    ∃ pc ∈ (runC V c t h0 h1 p).2.2.2.1, y ∈ pc.1.set :=
  View.cover_of_tiledL (runC V c t h0 h1 p).2.2.2.1 S512x1024.size (by unfold runC; sl_kernel_rfl) y
/-- What case C leaves in the accumulator. -/
def sout1_C_3 (c : Dev nD) (t : Fin cfg1.N) (h0 : ¬t.val % 4 = 0) (h1 : t.val % 4 = 3) (p : Vec F S512x1024 .bf16 × Vec F S512x1 .f32 × Vec F S512x1 .f32 × Vec F S512x1024 .f32) : Vec F S512x1024 .f32 :=
  VS1_3.read (Elt F) (VS1_3.writes (Elt F) VS1_3.junk (runC V c t h0 h1 p).2.2.2.1)

/-- Case C's pieces for the output block cover its buffer. -/
theorem cover1_C_5 (c : Dev nD) (t : Fin cfg1.N) (h0 : ¬t.val % 4 = 0) (h1 : t.val % 4 = 3) (p : Vec F S512x1024 .bf16 × Vec F S512x1 .f32 × Vec F S512x1 .f32 × Vec F S512x1024 .f32) (y : S1x512x1024.Idx) :
    ∃ pc ∈ (runC V c t h0 h1 p).1, y ∈ pc.1.set :=
  View.cover_of_tiledL (runC V c t h0 h1 p).1 S1x512x1024.size (by unfold runC; sl_kernel_rfl) y
/-- What case C leaves in the output window's staging buffer. -/
def out1_C_5 (c : Dev nD) (t : Fin cfg1.N) (h0 : ¬t.val % 4 = 0) (h1 : t.val % 4 = 3) (p : Vec F S512x1024 .bf16 × Vec F S512x1 .f32 × Vec F S512x1 .f32 × Vec F S512x1024 .f32) : Vec F S1x512x1024 .f32 :=
  VO1_5.read (Elt F) (VO1_5.writes (Elt F) VO1_5.junk (runC V c t h0 h1 p).1)

/-- A placeholder for the output window where it is idle: nothing consults it (the window is neither written back
    there nor read at the next point). -/
def outIdle : Vec F S1x512x1024 .f32 := VO1_5.read (Elt F) (VO1_5.writes (Elt F) VO1_5.junk [])

/-- The five buffers after a point of each case: the output window's, then the four scratch buffers. -/
def stA (c : Dev nD) (t : Fin cfg1.N) (h0 : t.val % 4 = 0) (h1 : ¬t.val % 4 = 3) : Vec F S1x512x1024 .f32 × Vec F S512x1024 .bf16 × Vec F S512x1 .f32 × Vec F S512x1 .f32 × Vec F S512x1024 .f32 :=
  (outIdle, sout1_A_0 V c t h0 h1, sout1_A_1 V c t h0 h1, sout1_A_2 V c t h0 h1, sout1_A_3 V c t h0 h1)
def stB (c : Dev nD) (t : Fin cfg1.N) (h0 : ¬t.val % 4 = 0) (h1 : ¬t.val % 4 = 3) (p : Vec F S512x1024 .bf16 × Vec F S512x1 .f32 × Vec F S512x1 .f32 × Vec F S512x1024 .f32) : Vec F S1x512x1024 .f32 × Vec F S512x1024 .bf16 × Vec F S512x1 .f32 × Vec F S512x1 .f32 × Vec F S512x1024 .f32 :=
  (outIdle, p.1, sout1_B_1 V c t h0 h1 p, sout1_B_2 V c t h0 h1 p, sout1_B_3 V c t h0 h1 p)
def stC (c : Dev nD) (t : Fin cfg1.N) (h0 : ¬t.val % 4 = 0) (h1 : t.val % 4 = 3) (p : Vec F S512x1024 .bf16 × Vec F S512x1 .f32 × Vec F S512x1 .f32 × Vec F S512x1024 .f32) : Vec F S1x512x1024 .f32 × Vec F S512x1024 .bf16 × Vec F S512x1 .f32 × Vec F S512x1 .f32 × Vec F S512x1024 .f32 :=
  (out1_C_5 V c t h0 h1 p, p.1, sout1_C_1 V c t h0 h1 p, sout1_C_2 V c t h0 h1 p, sout1_C_3 V c t h0 h1 p)

/-! ## What the buffers hold after each point -/

/-- THE ACCUMULATION: the output window's staging buffer and the four scratch buffers after the body at position n —
    the case the key tile selects, run at the point's memrefs and input blocks, over what position n − 1 left in
    the scratch buffers. -/
def outsAt1 (c : Dev nD) : (n : ℕ) → n < cfg1.N → Vec F S1x512x1024 .f32 × Vec F S512x1024 .bf16 × Vec F S512x1 .f32 × Vec F S512x1 .f32 × Vec F S512x1024 .f32
  | 0, hn => stA V c ⟨0, hn⟩ (Nat.zero_mod _) (by show ¬(0 % 4 = 3); decide)
  | n + 1, hn =>
    if h0 : (n + 1) % 4 = 0 then
      if h1 : (n + 1) % 4 = 3 then False.elim (by omega)
      else stA V c ⟨n + 1, hn⟩ h0 h1
    else
      if h1 : (n + 1) % 4 = 3 then stC V c ⟨n + 1, hn⟩ h0 h1 (outsAt1 c n (Nat.lt_of_succ_lt hn)).2
      else stB V c ⟨n + 1, hn⟩ h0 h1 (outsAt1 c n (Nat.lt_of_succ_lt hn)).2

theorem outsAt1_A (c : Dev nD) (t : Fin cfg1.N) (h0 : t.val % 4 = 0) (h1 : ¬t.val % 4 = 3) : outsAt1 V c t.val t.isLt = stA V c t h0 h1 := by
  obtain ⟨n, hn⟩ := t
  cases n with
  | zero => rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = stB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = stC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The region invariant -/

/-- The four scratch buffers owned at given contents, beside the scoped buffers the region does not use. -/
def scratchAt (c : Dev nD) (p : Vec F S512x1024 .bf16 × Vec F S512x1 .f32 × Vec F S512x1 .f32 × Vec F S512x1024 .f32) : sProp 𝕄 :=
  iprop(otherRest (F := F) c ∗ owns (c : Thread nD τ) scM1_0 fullShare p.1 ∗ owns (c : Thread nD τ) scM1_1 fullShare p.2.1
    ∗ owns (c : Thread nD τ) scM1_2 fullShare p.2.2.1 ∗ owns (c : Thread nD τ) scM1_3 fullShare p.2.2.2)

/-- Before the first point the plain invariant (every scratch buffer at anything); afterwards the scratch buffers at
    what the point before left in them, and the generator register at some state. -/
def PhiS (c : Dev nD) : (n : ℕ) → n ≤ cfg1.N → sProp 𝕄
  | 0, _ => Pipeline.ΦA spec1 c
  | n + 1, hn => iprop(scratchAt c (outsAt1 V c n hn).2 ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scratchAt c (outsAt1 V c n hn).2 ∗ (∃ r, prngReg c r)) := rfl
theorem PhiS_pos (c : Dev nD) (n : ℕ) (h : n ≤ cfg1.N) (hz : n ≠ 0) :
    PhiS V c n h = iprop(scratchAt c (outsAt1 V c (n - 1) (by omega)).2 ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 16000000 in
/-- The body at any point: the inputs' memrefs hold their blocks; the point's key tile says which case it is in; the
    invariant hands the body the scratch buffers at what the point before left (at anything at the very first
    point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · have h1 : ¬t.val % 4 = 3 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold stA scratchAt sout1_A_0 sout1_A_1 sout1_A_2 sout1_A_3; (try dsimp only)
    by_cases hz : t.val = 0
    · rw [PhiS_castSucc V c t, PhiS_zero V c _ _ hz, PhiA1_eq]
      iintro ⟨⟨⟨Hrest, HS0, HS1, HS2, HS3⟩, Hg⟩, Ho, ⟨%d0, H0⟩, ⟨%d1, H1⟩, ⟨%d2, H2⟩, ⟨%d3, H3⟩, ⟨%d4, H4⟩, ⟨%d5, H5⟩⟩
      iapply ((runA V c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, ⟨%es3, HS3⟩⟩
      isplitl [Hrest HS0 HS1 HS2 HS3 Hg]
      · isplitl [Hrest HS0 HS1 HS2 HS3]
        · isplitl [Hrest]; · iexact Hrest
          isplitl [HS0]
          · unfold owns; iexists _; isplitr
            swap; · iexact HS0
            ipureintro; exact View.read_writes_of_cover _ _ _ _ _ (scover1_A_0 V c t h0 h1)
          isplitl [HS1]
          · unfold owns; iexists _; isplitr
            swap; · iexact HS1
            ipureintro; exact View.read_writes_of_cover _ _ _ _ _ (scover1_A_1 V c t h0 h1)
          isplitl [HS2]
          · unfold owns; iexists _; isplitr
            swap; · iexact HS2
            ipureintro; exact View.read_writes_of_cover _ _ _ _ _ (scover1_A_2 V c t h0 h1)
          unfold owns; iexists _; isplitr
          swap; · iexact HS3
          ipureintro; exact View.read_writes_of_cover _ _ _ _ _ (scover1_A_3 V c t h0 h1)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]; unfold scratchAt
      iintro ⟨⟨⟨Hrest, HS0, HS1, HS2, HS3⟩, Hg⟩, Ho, ⟨%d0, H0⟩, ⟨%d1, H1⟩, ⟨%d2, H2⟩, ⟨%d3, H3⟩, ⟨%d4, H4⟩, ⟨%d5, H5⟩⟩
      iapply ((runA V c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      iintro ⟨H0, H1, H2, H3, H4, H5, ⟨%es0, HS0⟩, ⟨%es1, HS1⟩, ⟨%es2, HS2⟩, ⟨%es3, HS3⟩⟩
      isplitl [Hrest HS0 HS1 HS2 HS3 Hg]
      · isplitl [Hrest HS0 HS1 HS2 HS3]
        · isplitl [Hrest]; · iexact Hrest
          isplitl [HS0]
          · unfold owns; iexists _; isplitr
            swap; · iexact HS0
            ipureintro; exact View.read_writes_of_cover _ _ _ _ _ (scover1_A_0 V c t h0 h1)
          isplitl [HS1]
          · unfold owns; iexists _; isplitr
            swap; · iexact HS1
            ipureintro; exact View.read_writes_of_cover _ _ _ _ _ (scover1_A_1 V c t h0 h1)
          isplitl [HS2]
          · unfold owns; iexists _; isplitr
            swap; · iexact HS2
            ipureintro; exact View.read_writes_of_cover _ _ _ _ _ (scover1_A_2 V c t h0 h1)
          unfold owns; iexists _; isplitr
          swap; · iexact HS3
          ipureintro; exact View.read_writes_of_cover _ _ _ _ _ (scover1_A_3 V c t h0 h1)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold stC scratchAt out1_C_5 sout1_C_1 sout1_C_2 sout1_C_3; (try dsimp only)
      rw [PhiS_castSucc V c t, PhiS_pos V c _ _ hz]; unfold scratchAt
      iintro ⟨⟨⟨Hrest, HS0, HS1, HS2, HS3⟩, Hg⟩, Ho, ⟨%d0, H0⟩, ⟨%d1, H1⟩, ⟨%d2, H2⟩, ⟨%d3, H3⟩, ⟨%d4, H4⟩, ⟨%d5, H5⟩⟩
      iapply ((runC V c t h0 h1 _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, HS0, ⟨%es1, HS1⟩, ⟨%es2, HS2⟩, ⟨%es3, HS3⟩⟩
      isplitl [Hrest HS0 HS1 HS2 HS3 Hg]
      · isplitl [Hrest HS0 HS1 HS2 HS3]
        · isplitl [Hrest]; · iexact Hrest
          isplitl [HS0]; · iexact HS0
          isplitl [HS1]
          · unfold owns; iexists _; isplitr
            swap; · iexact HS1
            ipureintro; exact View.read_writes_of_cover _ _ _ _ _ (scover1_C_1 V c t h0 h1 _)
          isplitl [HS2]
          · unfold owns; iexists _; isplitr
            swap; · iexact HS2
            ipureintro; exact View.read_writes_of_cover _ _ _ _ _ (scover1_C_2 V c t h0 h1 _)
          unfold owns; iexists _; isplitr
          swap; · iexact HS3
          ipureintro; exact View.read_writes_of_cover _ _ _ _ _ (scover1_C_3 V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 V c t h0 h1 _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold stB scratchAt sout1_B_1 sout1_B_2 sout1_B_3; (try dsimp only)
      rw [PhiS_castSucc V c t, PhiS_pos V c _ _ hz]; unfold scratchAt
      iintro ⟨⟨⟨Hrest, HS0, HS1, HS2, HS3⟩, Hg⟩, Ho, ⟨%d0, H0⟩, ⟨%d1, H1⟩, ⟨%d2, H2⟩, ⟨%d3, H3⟩, ⟨%d4, H4⟩, ⟨%d5, H5⟩⟩
      iapply ((runB V c t h0 h1 _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, ⟨%es1, HS1⟩, ⟨%es2, HS2⟩, ⟨%es3, HS3⟩⟩
      isplitl [Hrest HS0 HS1 HS2 HS3 Hg]
      · isplitl [Hrest HS0 HS1 HS2 HS3]
        · isplitl [Hrest]; · iexact Hrest
          isplitl [HS0]; · iexact HS0
          isplitl [HS1]
          · unfold owns; iexists _; isplitr
            swap; · iexact HS1
            ipureintro; exact View.read_writes_of_cover _ _ _ _ _ (scover1_B_1 V c t h0 h1 _)
          isplitl [HS2]
          · unfold owns; iexists _; isplitr
            swap; · iexact HS2
            ipureintro; exact View.read_writes_of_cover _ _ _ _ _ (scover1_B_2 V c t h0 h1 _)
          unfold owns; iexists _; isplitr
          swap; · iexact HS3
          ipureintro; exact View.read_writes_of_cover _ _ _ _ _ (scover1_B_3 V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the plain one back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]; unfold scratchAt
  iintro ⟨⟨Hrest, HS0, HS1, HS2, HS3⟩, Hg⟩
  isplitl [Hrest HS0 HS1 HS2 HS3]
  · isplitl [Hrest]; · iexact Hrest
    isplitl [HS0]; · iexists _; iexact HS0
    isplitl [HS1]; · iexists _; iexact HS1
    isplitl [HS2]; · iexists _; iexact HS2
    iexists _; iexact HS3
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Fr

end
-- ==== Proof.IdealFrame.Run.lean ====
/-
  The whole program as a run: the buffer contents at each boundary between @main's four items (a host stretch, the
  projection region, a host stretch of two reshapes, the attention region) as a fold from the launch memory; each
  region entered from and left at those contents; and the conclusion that every weakly fair execution terminates with
  every unscoped buffer at the last fold — from which the argument arrays are read back unchanged and the result
  array is what the attention region's write-backs leave.
-/
import proofs.«147183_j52690658788033_2_alg».proof.Proof.IdealFrame.R0
import proofs.«147183_j52690658788033_2_alg».proof.Proof.IdealFrame.R1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the two reshapes (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-- After the last point the attention region's invariant gives back the generator register and the scoped rest:
    the scratch buffers' named contents are forgotten. -/
theorem hout1' (c : Dev nD) : (dat1 (V3 m ρ) c).Φ (Fin.last cfg1.N)
    ⊢ (iprop((∃ r, prngReg c r) ∗ BI.emp ∗ Pipeline.scopedRest spec1 c) : sProp 𝕄) := by
  refine BI.Entails.trans (hout1 (V3 m ρ) c) ?_
  show (iprop(Pipeline.scopedRest spec1 c ∗ ∃ r, prngReg c r) : sProp 𝕄) ⊢ iprop((∃ r, prngReg c r) ∗ BI.emp ∗ Pipeline.scopedRest spec1 c)
  iintro ⟨Hr, Hp⟩
  isplitl [Hp]; · iexact Hp
  isplitr; · iempintro
  iexact Hr

/-! ## The regions as segments -/

set_option backward.isDefEq.respectTransparency.types false in
/-- Region 0 over the thread state "every unscoped buffer at the boundary's contents, the generator register at
    some state, nothing owed": its arrays are split out of the unscoped buffers at entry and put back at what the
    write-backs leave at exit; the generator register and the scoped rest go into the region's invariant and come back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at
    some state, nothing owed": its arrays are split out of the unscoped buffers at entry and put back at what the
    write-backs leave at exit; the generator register and the scoped rest go into the region's invariant and come back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact hout1' m ρ c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    with the result array at what the attention region's write-backs leave and the seven arguments as launched. -/
theorem run : θ_run defs (onTc (τ := τ) (main (F := F))) ⟨m, fun _ => 0, ρ⟩ (fun r => ∀ c : Dev nD,
      r.2.mem ((c.tc : Thread nD τ).loc main_v10) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v10 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

/-- The frame claim's post: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run m ρ)

end Cert.KernelIdeal.Fr

end
-- ==== Proof.WordFrame.R0.lean ====
/-
  The first kernel region: the key and value projections.

  At grid point t (of 16) the body reads the 512 rows t of the flattened input, both weight matrices and both
  bias rows whole, and stores the two products-plus-bias into the two output windows' staging buffers; nothing is
  carried from one point to the next. This module states, for contents V of the buffers when the region is entered:
  each window's block at a point, what the body leaves in the two output buffers as a function of the input
  blocks, the body's triple, the region's proof data and its body obligation at every point.
-/
import proofs.«147183_j52690658788033_2_alg».proof.Proof.Gen.Kernel.Launch
import proofs.«147183_j52690658788033_2_alg».proof.Proof.Gen.Kernel.Skeleton
import proofs.«147183_j52690658788033_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether fetched there or carried over. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether fetched there or carried over. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether fetched there or carried over. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether fetched there or carried over. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether fetched there or carried over. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0

/-- The key window's staging buffer after the body: its one store, of the first projection of the loads. -/
def out0_5 (x0 : Vec F S512x1024 .f32) (x1 : Vec F S1024x1024 .bf16) (x2 : Vec F S1x1024 .f32) : Vec F S512x1024 .bf16 :=
  View.canon [⟨rX0, k0_pay2 (View.ld x0 rX0) (View.ld x1 rW0) (View.ld x2 rB0)⟩]

/-- The value window's staging buffer after the body: its one store, of the second projection of the loads. -/
def out0_6 (x0 : Vec F S512x1024 .f32) (x3 : Vec F S1024x1024 .bf16) (x4 : Vec F S1x1024 .f32) : Vec F S512x1024 .bf16 :=
  View.canon [⟨rX0, k0_pay3 (View.ld x0 rX0) (View.ld x3 rW0) (View.ld x4 rB0)⟩]

/-- A whole-buffer store covers the buffer. -/
theorem cover0_out (p0 : Vec F S512x1024 .bf16) (y : S512x1024.Idx) :
    ∃ pc ∈ ([⟨rX0, p0⟩] : List (View.Piece (Elt F) S512x1024 .bf16)), y ∈ pc.1.set :=
  View.cover_of_tiled [⟨rX0, p0⟩] S512x1024.size (by rfl) y

/-! ## The body's triple -/

set_option maxHeartbeats 2000000 in
/-- On whole staging memrefs, the inputs' at contents x0..x4 and the outputs' at anything, the body runs to the
    continuation holding the inputs' as they were and the outputs' at out0_5, out0_6 of the inputs'. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S512x1024 .bf16) (harg6 : arg6.IsWhole)
    (arg7 : Memref sig .tc .vmem S512x1024 .bf16) (harg7 : arg7.IsWhole)
    (x0 : Vec F S512x1024 .f32) (x1 : Vec F S1024x1024 .bf16) (x2 : Vec F S1x1024 .f32) (x3 : Vec F S1024x1024 .bf16) (x4 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x3 x4)) -∗ K ⟨⟩))
      ⊢ wp frame (wpE (defs₀ (F := F)) Variants.none c none) E (cc0__kv_kernel i arg1 harg1 arg2 harg2 arg3 harg3 arg4 harg4 arg5 harg5 arg6 harg6 arg7 harg7) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_out _)
  iexists _; isplitr
  swap; · iexact H6
  ipureintro
  exact View.read_writes_eq_canon _ _ _ (cover0_out _)

/-! ## The region's proof data -/

/-- The arrays as the region finds them; after the body at point t each input's buffer at its block and the two
    outputs' at out0_5, out0_6 of the input blocks; the invariant only the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.WordFrame.R1Base.lean ====
/-
  The second kernel region (the tiled attention), what its three control cases share.

  The grid is 4 × 4 × 4: batch, query tile, key tile; point t has key tile t mod 4. The body initialises its four
  scratch buffers (the scaled query projection, the running maximum, the normaliser, the accumulator) when the key
  tile is 0, updates three of them at every point, and stores the output block when the key tile is 3; the output
  window is idle and not written back at the other points. This module states the two branch conditions in closed
  form over the grid, where the output window is idle, the memrefs the body is called with, and the region's
  plain invariant with the four scratch buffers singled out.
-/
import proofs.«147183_j52690658788033_2_alg».proof.Proof.Gen.Kernel.Launch
import proofs.«147183_j52690658788033_2_alg».proof.Proof.Gen.Kernel.Skeleton
import proofs.«147183_j52690658788033_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether fetched there or carried over. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether fetched there or carried over. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether fetched there or carried over. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether fetched there or carried over. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether fetched there or carried over. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- "The key tile is the first": the body's first conditional, from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "The key tile is the last": the body's second conditional. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Unless the key tile is the last, the output window is idle and its block is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last key tile the output window is live. -/
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x1024 .f32 := win1_5.stage (cfg1.slots t 5)
abbrev hs1_5 (t : Fin cfg1.N) : (ms1_5 t).IsWhole := hstage1_5 ((cfg1.slots t 5).cast nbuf1_5)

/-- The four scratch operands: whole scoped buffers of the kernel's own. -/
abbrev scM1_0 : Memref sig .tc .vmem S512x1024 .bf16 := Memref.whole cc1_scratch0
abbrev scM1_1 : Memref sig .tc .vmem S512x1 .f32 := Memref.whole cc1_scratch1
abbrev scM1_2 : Memref sig .tc .vmem S512x1 .f32 := Memref.whole cc1_scratch2
abbrev scM1_3 : Memref sig .tc .vmem S512x1024 .f32 := Memref.whole cc1_scratch3
/-- The same as views, through which their contents are stated. -/
abbrev VS1_0 : View sig .tc .vmem S512x1024 .bf16 := scM1_0.view
abbrev VS1_1 : View sig .tc .vmem S512x1 .f32 := scM1_1.view
abbrev VS1_2 : View sig .tc .vmem S512x1 .f32 := scM1_2.view
abbrev VS1_3 : View sig .tc .vmem S512x1024 .f32 := scM1_3.view
/-- One staging buffer of the output window, through which its contents are stated. -/
abbrev VO1_5 : View sig .tc .vmem S1x512x1024 .f32 := (Memref.whole cc1_stg5_0 : Memref sig .tc .vmem S1x512x1024 .f32).view

/-- The scoped buffers of the core that this region neither stages nor uses as scratch (the first region's staging
    buffers), each whole at some contents: they ride through the region untouched. -/
def otherRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The same buffers in front of a further resource, as one right-nested chain. -/
def withOther (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P)

/-- Reassociation: the chain in front of `P` is the bundle beside `P`. -/
theorem withOther_eq (c : Dev nD) (P : sProp 𝕄) : withOther (F := F) c P = iprop(otherRest (F := F) c ∗ P) := by
  unfold withOther otherRest
  refine BI.Entails.antisymm ?_ ?_
  · show iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P) ⊢ iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)) ∗ P)
    iintro ⟨A0, A1, A2, A3, A4, A5, A6, A7, A8, A9, HP⟩
    isplitl [A0 A1 A2 A3 A4 A5 A6 A7 A8 A9]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact A9
    · iexact HP
  · show iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)) ∗ P) ⊢ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P)
    iintro ⟨⟨A0, A1, A2, A3, A4, A5, A6, A7, A8, A9⟩, HP⟩
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact HP

/-- The region's plain invariant with the scratch operands as memrefs owned at some contents: what the body
    obligation hands the run at the first point and what the region gives back at the end. -/
theorem PhiA1_eq (c : Dev nD) :
    (Pipeline.ΦA spec1 c : sProp 𝕄)
      = iprop(iprop(otherRest (F := F) c ∗ (∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]
  exact congrArg (fun X : sProp 𝕄 => iprop(X ∗ (∃ r, prngReg c r))) (withOther_eq (F := F) c _)

end Cert.Kernel.Fr

end
-- ==== Proof.WordFrame.R1RunA.lean ====
/-
  The tiled-attention body run whole at a point whose key tile is the first and not the last: it stores all four
  scratch buffers (initial values, the scaled query projection) before reading them, leaves the output window
  untouched, and ends with the pieces it stored in each scratch buffer.
-/
import proofs.«147183_j52690658788033_2_alg».proof.Proof.WordFrame.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A (first key tile). The pieces the body's stores leave in the four scratch buffers, last first, WITH the
    proof that on whole memrefs — the inputs' at their contents, the idle output's at contents handed back
    untouched, the scratch at anything — the body runs to the continuation holding the inputs' and the output's as
    they were and each scratch buffer with its pieces written. -/
noncomputable def kernelRun1_A (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond1_0 i) (hc1 : ¬cond1_1 i)
    (x0 : Vec F S1x512x1024 .f32) (x1 : Vec F S1024x1024 .bf16) (x2 : Vec F S1x1024 .f32) (x3 : Vec F S1x512x1024 .bf16) (x4 : Vec F S1x512x1024 .bf16) :
    Σ' (LS0 : List (View.Piece (Elt F) S512x1024 .bf16)) (LS1 : List (View.Piece (Elt F) S512x1 .f32)) (LS2 : List (View.Piece (Elt F) S512x1 .f32)), { LS3 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11 arg12 harg12) K } := by
  refine ⟨?_, ?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; iexact HS3

end Cert.Kernel.Fr

end
-- ==== Proof.WordFrame.R1RunB.lean ====
/-
  The tiled-attention body run whole at a point whose key tile is neither the first nor the last: it reads the four
  scratch buffers as the point before left them, updates the running maximum, the normaliser and the accumulator,
  and leaves the scaled query projection and the output window untouched.
-/
import proofs.«147183_j52690658788033_2_alg».proof.Proof.WordFrame.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (a middle key tile). The pieces the body's stores leave in the three scratch buffers it updates, last
    first, WITH the proof that on whole memrefs — the inputs' at their contents, the idle output's at contents
    handed back untouched, the scratch at the contents the point before left — the body runs to the continuation
    holding the inputs', the output's and the query scratch as they were and the other three scratch buffers with
    their pieces written. -/
noncomputable def kernelRun1_B (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond1_0 i) (hc1 : ¬cond1_1 i)
    (x0 : Vec F S1x512x1024 .f32) (x1 : Vec F S1024x1024 .bf16) (x2 : Vec F S1x1024 .f32) (x3 : Vec F S1x512x1024 .bf16) (x4 : Vec F S1x512x1024 .bf16) (xs0 : Vec F S512x1024 .bf16) (xs1 : Vec F S512x1 .f32) (xs2 : Vec F S512x1 .f32) (xs3 : Vec F S512x1024 .f32) :
    Σ' (LS1 : List (View.Piece (Elt F) S512x1 .f32)) (LS2 : List (View.Piece (Elt F) S512x1 .f32)), { LS3 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
                ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11 arg12 harg12) K } := by
  refine ⟨?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    isplitl [HS1]; · iexists _; iexact HS1
    isplitl [HS2]; · iexists _; iexact HS2
    iexists _; iexact HS3

end Cert.Kernel.Fr

end
-- ==== Proof.WordFrame.R1RunC.lean ====
/-
  The tiled-attention body run whole at a point whose key tile is the last: as at a middle tile, and then it divides
  the accumulator by the normaliser and stores the quotient as the output block.
-/
import proofs.«147183_j52690658788033_2_alg».proof.Proof.WordFrame.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C (last key tile). The pieces the body's stores leave in the output's staging buffer and in the three
    scratch buffers it updates, last first, WITH the proof that on whole memrefs — the inputs' at their contents,
    the output's at anything, the scratch at the contents the point before left — the body runs to the continuation
    holding the inputs' and the query scratch as they were and the output's and the other three scratch buffers with
    their pieces written. -/
noncomputable def kernelRun1_C (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond1_0 i) (hc1 : cond1_1 i)
    (x0 : Vec F S1x512x1024 .f32) (x1 : Vec F S1024x1024 .bf16) (x2 : Vec F S1x1024 .f32) (x3 : Vec F S1x512x1024 .bf16) (x4 : Vec F S1x512x1024 .bf16) (xs0 : Vec F S512x1024 .bf16) (xs1 : Vec F S512x1 .f32) (xs2 : Vec F S512x1 .f32) (xs3 : Vec F S512x1024 .f32) :
    Σ' (L5 : List (View.Piece (Elt F) S1x512x1024 .f32)) (LS1 : List (View.Piece (Elt F) S512x1 .f32)) (LS2 : List (View.Piece (Elt F) S512x1 .f32)), { LS3 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)
                ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    isplitl [HS1]; · iexists _; iexact HS1
    isplitl [HS2]; · iexists _; iexact HS2
    iexists _; iexact HS3

end Cert.Kernel.Fr

end
-- ==== Proof.WordFrame.R1.lean ====
/-
  The second kernel region (the tiled attention): what each control case leaves in the output window's staging
  buffer and in the four scratch buffers, the accumulation of those point by point, the region's invariant (the
  scratch buffers carried from each point to the next at named contents), its proof data and the body obligation
  at every point.
-/
import proofs.«147183_j52690658788033_2_alg».proof.Proof.WordFrame.R1RunA
import proofs.«147183_j52690658788033_2_alg».proof.Proof.WordFrame.R1RunB
import proofs.«147183_j52690658788033_2_alg».proof.Proof.WordFrame.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's run at a point of the first key tile, on the point's memrefs and input blocks. -/
def runA (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)
/-- The body's run at a point of a middle key tile, over what the point before left in the scratch buffers. -/
def runB (c : Dev nD) (t : Fin cfg1.N) (h0 : ¬t.val % 4 = 0) (h1 : ¬t.val % 4 = 3) (p : Vec F S512x1024 .bf16 × Vec F S512x1 .f32 × Vec F S512x1 .f32 × Vec F S512x1024 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.1 p.2.1 p.2.2.1 p.2.2.2
/-- The body's run at a point of the last key tile, over what the point before left in the scratch buffers. -/
def runC (c : Dev nD) (t : Fin cfg1.N) (h0 : ¬t.val % 4 = 0) (h1 : t.val % 4 = 3) (p : Vec F S512x1024 .bf16 × Vec F S512x1 .f32 × Vec F S512x1 .f32 × Vec F S512x1024 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.1 p.2.1 p.2.2.1 p.2.2.2

/-- Case A's pieces for the scaled query projection cover its buffer. -/
theorem scover1_A_0 (c : Dev nD) (t : Fin cfg1.N) (h0 : t.val % 4 = 0) (h1 : ¬t.val % 4 = 3) (y : S512x1024.Idx) :
    ∃ pc ∈ (runA V c t h0 h1).1, y ∈ pc.1.set :=
  View.cover_of_tiledL (runA V c t h0 h1).1 S512x1024.size (by unfold runA; sl_kernel_rfl) y
/-- What case A leaves in the scaled query projection. -/
def sout1_A_0 (c : Dev nD) (t : Fin cfg1.N) (h0 : t.val % 4 = 0) (h1 : ¬t.val % 4 = 3) : Vec F S512x1024 .bf16 :=
  VS1_0.read (Elt F) (VS1_0.writes (Elt F) VS1_0.junk (runA V c t h0 h1).1)

/-- Case A's pieces for the running maximum cover its buffer. -/
theorem scover1_A_1 (c : Dev nD) (t : Fin cfg1.N) (h0 : t.val % 4 = 0) (h1 : ¬t.val % 4 = 3) (y : S512x1.Idx) :
    ∃ pc ∈ (runA V c t h0 h1).2.1, y ∈ pc.1.set :=
  View.cover_of_tiledL (runA V c t h0 h1).2.1 S512x1.size (by unfold runA; sl_kernel_rfl) y
/-- What case A leaves in the running maximum. -/
def sout1_A_1 (c : Dev nD) (t : Fin cfg1.N) (h0 : t.val % 4 = 0) (h1 : ¬t.val % 4 = 3) : Vec F S512x1 .f32 :=
  VS1_1.read (Elt F) (VS1_1.writes (Elt F) VS1_1.junk (runA V c t h0 h1).2.1)

/-- Case A's pieces for the normaliser cover its buffer. -/
theorem scover1_A_2 (c : Dev nD) (t : Fin cfg1.N) (h0 : t.val % 4 = 0) (h1 : ¬t.val % 4 = 3) (y : S512x1.Idx) :
    ∃ pc ∈ (runA V c t h0 h1).2.2.1, y ∈ pc.1.set :=
  View.cover_of_tiledL (runA V c t h0 h1).2.2.1 S512x1.size (by unfold runA; sl_kernel_rfl) y
/-- What case A leaves in the normaliser. -/
def sout1_A_2 (c : Dev nD) (t : Fin cfg1.N) (h0 : t.val % 4 = 0) (h1 : ¬t.val % 4 = 3) : Vec F S512x1 .f32 :=
  VS1_2.read (Elt F) (VS1_2.writes (Elt F) VS1_2.junk (runA V c t h0 h1).2.2.1)

/-- Case A's pieces for the accumulator cover its buffer. -/
theorem scover1_A_3 (c : Dev nD) (t : Fin cfg1.N) (h0 : t.val % 4 = 0) (h1 : ¬t.val % 4 = 3) (y : S512x1024.Idx) :
    ∃ pc ∈ (runA V c t h0 h1).2.2.2.1, y ∈ pc.1.set :=
  View.cover_of_tiledL (runA V c t h0 h1).2.2.2.1 S512x1024.size (by unfold runA; sl_kernel_rfl) y
/-- What case A leaves in the accumulator. -/
def sout1_A_3 (c : Dev nD) (t : Fin cfg1.N) (h0 : t.val % 4 = 0) (h1 : ¬t.val % 4 = 3) : Vec F S512x1024 .f32 :=
  VS1_3.read (Elt F) (VS1_3.writes (Elt F) VS1_3.junk (runA V c t h0 h1).2.2.2.1)

/-- Case B's pieces for the running maximum cover its buffer. -/
theorem scover1_B_1 (c : Dev nD) (t : Fin cfg1.N) (h0 : ¬t.val % 4 = 0) (h1 : ¬t.val % 4 = 3) (p : Vec F S512x1024 .bf16 × Vec F S512x1 .f32 × Vec F S512x1 .f32 × Vec F S512x1024 .f32) (y : S512x1.Idx) :
    ∃ pc ∈ (runB V c t h0 h1 p).1, y ∈ pc.1.set :=
  View.cover_of_tiledL (runB V c t h0 h1 p).1 S512x1.size (by unfold runB; sl_kernel_rfl) y
/-- What case B leaves in the running maximum. -/
def sout1_B_1 (c : Dev nD) (t : Fin cfg1.N) (h0 : ¬t.val % 4 = 0) (h1 : ¬t.val % 4 = 3) (p : Vec F S512x1024 .bf16 × Vec F S512x1 .f32 × Vec F S512x1 .f32 × Vec F S512x1024 .f32) : Vec F S512x1 .f32 :=
  VS1_1.read (Elt F) (VS1_1.writes (Elt F) VS1_1.junk (runB V c t h0 h1 p).1)

/-- Case B's pieces for the normaliser cover its buffer. -/
theorem scover1_B_2 (c : Dev nD) (t : Fin cfg1.N) (h0 : ¬t.val % 4 = 0) (h1 : ¬t.val % 4 = 3) (p : Vec F S512x1024 .bf16 × Vec F S512x1 .f32 × Vec F S512x1 .f32 × Vec F S512x1024 .f32) (y : S512x1.Idx) :
    ∃ pc ∈ (runB V c t h0 h1 p).2.1, y ∈ pc.1.set :=
  View.cover_of_tiledL (runB V c t h0 h1 p).2.1 S512x1.size (by unfold runB; sl_kernel_rfl) y
/-- What case B leaves in the normaliser. -/
def sout1_B_2 (c : Dev nD) (t : Fin cfg1.N) (h0 : ¬t.val % 4 = 0) (h1 : ¬t.val % 4 = 3) (p : Vec F S512x1024 .bf16 × Vec F S512x1 .f32 × Vec F S512x1 .f32 × Vec F S512x1024 .f32) : Vec F S512x1 .f32 :=
  VS1_2.read (Elt F) (VS1_2.writes (Elt F) VS1_2.junk (runB V c t h0 h1 p).2.1)

/-- Case B's pieces for the accumulator cover its buffer. -/
theorem scover1_B_3 (c : Dev nD) (t : Fin cfg1.N) (h0 : ¬t.val % 4 = 0) (h1 : ¬t.val % 4 = 3) (p : Vec F S512x1024 .bf16 × Vec F S512x1 .f32 × Vec F S512x1 .f32 × Vec F S512x1024 .f32) (y : S512x1024.Idx) :
    ∃ pc ∈ (runB V c t h0 h1 p).2.2.1, y ∈ pc.1.set :=
  View.cover_of_tiledL (runB V c t h0 h1 p).2.2.1 S512x1024.size (by unfold runB; sl_kernel_rfl) y
/-- What case B leaves in the accumulator. -/
def sout1_B_3 (c : Dev nD) (t : Fin cfg1.N) (h0 : ¬t.val % 4 = 0) (h1 : ¬t.val % 4 = 3) (p : Vec F S512x1024 .bf16 × Vec F S512x1 .f32 × Vec F S512x1 .f32 × Vec F S512x1024 .f32) : Vec F S512x1024 .f32 :=
  VS1_3.read (Elt F) (VS1_3.writes (Elt F) VS1_3.junk (runB V c t h0 h1 p).2.2.1)

/-- Case C's pieces for the running maximum cover its buffer. -/
theorem scover1_C_1 (c : Dev nD) (t : Fin cfg1.N) (h0 : ¬t.val % 4 = 0) (h1 : t.val % 4 = 3) (p : Vec F S512x1024 .bf16 × Vec F S512x1 .f32 × Vec F S512x1 .f32 × Vec F S512x1024 .f32) (y : S512x1.Idx) :
    ∃ pc ∈ (runC V c t h0 h1 p).2.1, y ∈ pc.1.set :=
  View.cover_of_tiledL (runC V c t h0 h1 p).2.1 S512x1.size (by unfold runC; sl_kernel_rfl) y
/-- What case C leaves in the running maximum. -/
def sout1_C_1 (c : Dev nD) (t : Fin cfg1.N) (h0 : ¬t.val % 4 = 0) (h1 : t.val % 4 = 3) (p : Vec F S512x1024 .bf16 × Vec F S512x1 .f32 × Vec F S512x1 .f32 × Vec F S512x1024 .f32) : Vec F S512x1 .f32 :=
  VS1_1.read (Elt F) (VS1_1.writes (Elt F) VS1_1.junk (runC V c t h0 h1 p).2.1)

/-- Case C's pieces for the normaliser cover its buffer. -/
theorem scover1_C_2 (c : Dev nD) (t : Fin cfg1.N) (h0 : ¬t.val % 4 = 0) (h1 : t.val % 4 = 3) (p : Vec F S512x1024 .bf16 × Vec F S512x1 .f32 × Vec F S512x1 .f32 × Vec F S512x1024 .f32) (y : S512x1.Idx) :
    ∃ pc ∈ (runC V c t h0 h1 p).2.2.1, y ∈ pc.1.set :=
  View.cover_of_tiledL (runC V c t h0 h1 p).2.2.1 S512x1.size (by unfold runC; sl_kernel_rfl) y
/-- What case C leaves in the normaliser. -/
def sout1_C_2 (c : Dev nD) (t : Fin cfg1.N) (h0 : ¬t.val % 4 = 0) (h1 : t.val % 4 = 3) (p : Vec F S512x1024 .bf16 × Vec F S512x1 .f32 × Vec F S512x1 .f32 × Vec F S512x1024 .f32) : Vec F S512x1 .f32 :=
  VS1_2.read (Elt F) (VS1_2.writes (Elt F) VS1_2.junk (runC V c t h0 h1 p).2.2.1)

/-- Case C's pieces for the accumulator cover its buffer. -/
theorem scover1_C_3 (c : Dev nD) (t : Fin cfg1.N) (h0 : ¬t.val % 4 = 0) (h1 : t.val % 4 = 3) (p : Vec F S512x1024 .bf16 × Vec F S512x1 .f32 × Vec F S512x1 .f32 × Vec F S512x1024 .f32) (y : S512x1024.Idx) :
    ∃ pc ∈ (runC V c t h0 h1 p).2.2.2.1, y ∈ pc.1.set :=
  View.cover_of_tiledL (runC V c t h0 h1 p).2.2.2.1 S512x1024.size (by unfold runC; sl_kernel_rfl) y
/-- What case C leaves in the accumulator. -/
def sout1_C_3 (c : Dev nD) (t : Fin cfg1.N) (h0 : ¬t.val % 4 = 0) (h1 : t.val % 4 = 3) (p : Vec F S512x1024 .bf16 × Vec F S512x1 .f32 × Vec F S512x1 .f32 × Vec F S512x1024 .f32) : Vec F S512x1024 .f32 :=
  VS1_3.read (Elt F) (VS1_3.writes (Elt F) VS1_3.junk (runC V c t h0 h1 p).2.2.2.1)

/-- Case C's pieces for the output block cover its buffer. -/
theorem cover1_C_5 (c : Dev nD) (t : Fin cfg1.N) (h0 : ¬t.val % 4 = 0) (h1 : t.val % 4 = 3) (p : Vec F S512x1024 .bf16 × Vec F S512x1 .f32 × Vec F S512x1 .f32 × Vec F S512x1024 .f32) (y : S1x512x1024.Idx) :
    ∃ pc ∈ (runC V c t h0 h1 p).1, y ∈ pc.1.set :=
  View.cover_of_tiledL (runC V c t h0 h1 p).1 S1x512x1024.size (by unfold runC; sl_kernel_rfl) y
/-- What case C leaves in the output window's staging buffer. -/
def out1_C_5 (c : Dev nD) (t : Fin cfg1.N) (h0 : ¬t.val % 4 = 0) (h1 : t.val % 4 = 3) (p : Vec F S512x1024 .bf16 × Vec F S512x1 .f32 × Vec F S512x1 .f32 × Vec F S512x1024 .f32) : Vec F S1x512x1024 .f32 :=
  VO1_5.read (Elt F) (VO1_5.writes (Elt F) VO1_5.junk (runC V c t h0 h1 p).1)

/-- A placeholder for the output window where it is idle: nothing consults it (the window is neither written back
    there nor read at the next point). -/
def outIdle : Vec F S1x512x1024 .f32 := VO1_5.read (Elt F) (VO1_5.writes (Elt F) VO1_5.junk [])

/-- The five buffers after a point of each case: the output window's, then the four scratch buffers. -/
def stA (c : Dev nD) (t : Fin cfg1.N) (h0 : t.val % 4 = 0) (h1 : ¬t.val % 4 = 3) : Vec F S1x512x1024 .f32 × Vec F S512x1024 .bf16 × Vec F S512x1 .f32 × Vec F S512x1 .f32 × Vec F S512x1024 .f32 :=
  (outIdle, sout1_A_0 V c t h0 h1, sout1_A_1 V c t h0 h1, sout1_A_2 V c t h0 h1, sout1_A_3 V c t h0 h1)
def stB (c : Dev nD) (t : Fin cfg1.N) (h0 : ¬t.val % 4 = 0) (h1 : ¬t.val % 4 = 3) (p : Vec F S512x1024 .bf16 × Vec F S512x1 .f32 × Vec F S512x1 .f32 × Vec F S512x1024 .f32) : Vec F S1x512x1024 .f32 × Vec F S512x1024 .bf16 × Vec F S512x1 .f32 × Vec F S512x1 .f32 × Vec F S512x1024 .f32 :=
  (outIdle, p.1, sout1_B_1 V c t h0 h1 p, sout1_B_2 V c t h0 h1 p, sout1_B_3 V c t h0 h1 p)
def stC (c : Dev nD) (t : Fin cfg1.N) (h0 : ¬t.val % 4 = 0) (h1 : t.val % 4 = 3) (p : Vec F S512x1024 .bf16 × Vec F S512x1 .f32 × Vec F S512x1 .f32 × Vec F S512x1024 .f32) : Vec F S1x512x1024 .f32 × Vec F S512x1024 .bf16 × Vec F S512x1 .f32 × Vec F S512x1 .f32 × Vec F S512x1024 .f32 :=
  (out1_C_5 V c t h0 h1 p, p.1, sout1_C_1 V c t h0 h1 p, sout1_C_2 V c t h0 h1 p, sout1_C_3 V c t h0 h1 p)

/-! ## What the buffers hold after each point -/

/-- THE ACCUMULATION: the output window's staging buffer and the four scratch buffers after the body at position n —
    the case the key tile selects, run at the point's memrefs and input blocks, over what position n − 1 left in
    the scratch buffers. -/
def outsAt1 (c : Dev nD) : (n : ℕ) → n < cfg1.N → Vec F S1x512x1024 .f32 × Vec F S512x1024 .bf16 × Vec F S512x1 .f32 × Vec F S512x1 .f32 × Vec F S512x1024 .f32
  | 0, hn => stA V c ⟨0, hn⟩ (Nat.zero_mod _) (by show ¬(0 % 4 = 3); decide)
  | n + 1, hn =>
    if h0 : (n + 1) % 4 = 0 then
      if h1 : (n + 1) % 4 = 3 then False.elim (by omega)
      else stA V c ⟨n + 1, hn⟩ h0 h1
    else
      if h1 : (n + 1) % 4 = 3 then stC V c ⟨n + 1, hn⟩ h0 h1 (outsAt1 c n (Nat.lt_of_succ_lt hn)).2
      else stB V c ⟨n + 1, hn⟩ h0 h1 (outsAt1 c n (Nat.lt_of_succ_lt hn)).2

theorem outsAt1_A (c : Dev nD) (t : Fin cfg1.N) (h0 : t.val % 4 = 0) (h1 : ¬t.val % 4 = 3) : outsAt1 V c t.val t.isLt = stA V c t h0 h1 := by
  obtain ⟨n, hn⟩ := t
  cases n with
  | zero => rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = stB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = stC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The region invariant -/

/-- The four scratch buffers owned at given contents, beside the scoped buffers the region does not use. -/
def scratchAt (c : Dev nD) (p : Vec F S512x1024 .bf16 × Vec F S512x1 .f32 × Vec F S512x1 .f32 × Vec F S512x1024 .f32) : sProp 𝕄 :=
  iprop(otherRest (F := F) c ∗ owns (c : Thread nD τ) scM1_0 fullShare p.1 ∗ owns (c : Thread nD τ) scM1_1 fullShare p.2.1
    ∗ owns (c : Thread nD τ) scM1_2 fullShare p.2.2.1 ∗ owns (c : Thread nD τ) scM1_3 fullShare p.2.2.2)

/-- Before the first point the plain invariant (every scratch buffer at anything); afterwards the scratch buffers at
    what the point before left in them, and the generator register at some state. -/
def PhiS (c : Dev nD) : (n : ℕ) → n ≤ cfg1.N → sProp 𝕄
  | 0, _ => Pipeline.ΦA spec1 c
  | n + 1, hn => iprop(scratchAt c (outsAt1 V c n hn).2 ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scratchAt c (outsAt1 V c n hn).2 ∗ (∃ r, prngReg c r)) := rfl
theorem PhiS_pos (c : Dev nD) (n : ℕ) (h : n ≤ cfg1.N) (hz : n ≠ 0) :
    PhiS V c n h = iprop(scratchAt c (outsAt1 V c (n - 1) (by omega)).2 ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 16000000 in
/-- The body at any point: the inputs' memrefs hold their blocks; the point's key tile says which case it is in; the
    invariant hands the body the scratch buffers at what the point before left (at anything at the very first
    point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · have h1 : ¬t.val % 4 = 3 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold stA scratchAt sout1_A_0 sout1_A_1 sout1_A_2 sout1_A_3; (try dsimp only)
    by_cases hz : t.val = 0
    · rw [PhiS_castSucc V c t, PhiS_zero V c _ _ hz, PhiA1_eq]
      iintro ⟨⟨⟨Hrest, HS0, HS1, HS2, HS3⟩, Hg⟩, Ho, ⟨%d0, H0⟩, ⟨%d1, H1⟩, ⟨%d2, H2⟩, ⟨%d3, H3⟩, ⟨%d4, H4⟩, ⟨%d5, H5⟩⟩
      iapply ((runA V c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, ⟨%es3, HS3⟩⟩
      isplitl [Hrest HS0 HS1 HS2 HS3 Hg]
      · isplitl [Hrest HS0 HS1 HS2 HS3]
        · isplitl [Hrest]; · iexact Hrest
          isplitl [HS0]
          · unfold owns; iexists _; isplitr
            swap; · iexact HS0
            ipureintro; exact View.read_writes_of_cover _ _ _ _ _ (scover1_A_0 V c t h0 h1)
          isplitl [HS1]
          · unfold owns; iexists _; isplitr
            swap; · iexact HS1
            ipureintro; exact View.read_writes_of_cover _ _ _ _ _ (scover1_A_1 V c t h0 h1)
          isplitl [HS2]
          · unfold owns; iexists _; isplitr
            swap; · iexact HS2
            ipureintro; exact View.read_writes_of_cover _ _ _ _ _ (scover1_A_2 V c t h0 h1)
          unfold owns; iexists _; isplitr
          swap; · iexact HS3
          ipureintro; exact View.read_writes_of_cover _ _ _ _ _ (scover1_A_3 V c t h0 h1)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]; unfold scratchAt
      iintro ⟨⟨⟨Hrest, HS0, HS1, HS2, HS3⟩, Hg⟩, Ho, ⟨%d0, H0⟩, ⟨%d1, H1⟩, ⟨%d2, H2⟩, ⟨%d3, H3⟩, ⟨%d4, H4⟩, ⟨%d5, H5⟩⟩
      iapply ((runA V c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      iintro ⟨H0, H1, H2, H3, H4, H5, ⟨%es0, HS0⟩, ⟨%es1, HS1⟩, ⟨%es2, HS2⟩, ⟨%es3, HS3⟩⟩
      isplitl [Hrest HS0 HS1 HS2 HS3 Hg]
      · isplitl [Hrest HS0 HS1 HS2 HS3]
        · isplitl [Hrest]; · iexact Hrest
          isplitl [HS0]
          · unfold owns; iexists _; isplitr
            swap; · iexact HS0
            ipureintro; exact View.read_writes_of_cover _ _ _ _ _ (scover1_A_0 V c t h0 h1)
          isplitl [HS1]
          · unfold owns; iexists _; isplitr
            swap; · iexact HS1
            ipureintro; exact View.read_writes_of_cover _ _ _ _ _ (scover1_A_1 V c t h0 h1)
          isplitl [HS2]
          · unfold owns; iexists _; isplitr
            swap; · iexact HS2
            ipureintro; exact View.read_writes_of_cover _ _ _ _ _ (scover1_A_2 V c t h0 h1)
          unfold owns; iexists _; isplitr
          swap; · iexact HS3
          ipureintro; exact View.read_writes_of_cover _ _ _ _ _ (scover1_A_3 V c t h0 h1)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold stC scratchAt out1_C_5 sout1_C_1 sout1_C_2 sout1_C_3; (try dsimp only)
      rw [PhiS_castSucc V c t, PhiS_pos V c _ _ hz]; unfold scratchAt
      iintro ⟨⟨⟨Hrest, HS0, HS1, HS2, HS3⟩, Hg⟩, Ho, ⟨%d0, H0⟩, ⟨%d1, H1⟩, ⟨%d2, H2⟩, ⟨%d3, H3⟩, ⟨%d4, H4⟩, ⟨%d5, H5⟩⟩
      iapply ((runC V c t h0 h1 _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, HS0, ⟨%es1, HS1⟩, ⟨%es2, HS2⟩, ⟨%es3, HS3⟩⟩
      isplitl [Hrest HS0 HS1 HS2 HS3 Hg]
      · isplitl [Hrest HS0 HS1 HS2 HS3]
        · isplitl [Hrest]; · iexact Hrest
          isplitl [HS0]; · iexact HS0
          isplitl [HS1]
          · unfold owns; iexists _; isplitr
            swap; · iexact HS1
            ipureintro; exact View.read_writes_of_cover _ _ _ _ _ (scover1_C_1 V c t h0 h1 _)
          isplitl [HS2]
          · unfold owns; iexists _; isplitr
            swap; · iexact HS2
            ipureintro; exact View.read_writes_of_cover _ _ _ _ _ (scover1_C_2 V c t h0 h1 _)
          unfold owns; iexists _; isplitr
          swap; · iexact HS3
          ipureintro; exact View.read_writes_of_cover _ _ _ _ _ (scover1_C_3 V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 V c t h0 h1 _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold stB scratchAt sout1_B_1 sout1_B_2 sout1_B_3; (try dsimp only)
      rw [PhiS_castSucc V c t, PhiS_pos V c _ _ hz]; unfold scratchAt
      iintro ⟨⟨⟨Hrest, HS0, HS1, HS2, HS3⟩, Hg⟩, Ho, ⟨%d0, H0⟩, ⟨%d1, H1⟩, ⟨%d2, H2⟩, ⟨%d3, H3⟩, ⟨%d4, H4⟩, ⟨%d5, H5⟩⟩
      iapply ((runB V c t h0 h1 _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, ⟨%es1, HS1⟩, ⟨%es2, HS2⟩, ⟨%es3, HS3⟩⟩
      isplitl [Hrest HS0 HS1 HS2 HS3 Hg]
      · isplitl [Hrest HS0 HS1 HS2 HS3]
        · isplitl [Hrest]; · iexact Hrest
          isplitl [HS0]; · iexact HS0
          isplitl [HS1]
          · unfold owns; iexists _; isplitr
            swap; · iexact HS1
            ipureintro; exact View.read_writes_of_cover _ _ _ _ _ (scover1_B_1 V c t h0 h1 _)
          isplitl [HS2]
          · unfold owns; iexists _; isplitr
            swap; · iexact HS2
            ipureintro; exact View.read_writes_of_cover _ _ _ _ _ (scover1_B_2 V c t h0 h1 _)
          unfold owns; iexists _; isplitr
          swap; · iexact HS3
          ipureintro; exact View.read_writes_of_cover _ _ _ _ _ (scover1_B_3 V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the plain one back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]; unfold scratchAt
  iintro ⟨⟨Hrest, HS0, HS1, HS2, HS3⟩, Hg⟩
  isplitl [Hrest HS0 HS1 HS2 HS3]
  · isplitl [Hrest]; · iexact Hrest
    isplitl [HS0]; · iexists _; iexact HS0
    isplitl [HS1]; · iexists _; iexact HS1
    isplitl [HS2]; · iexists _; iexact HS2
    iexists _; iexact HS3
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Fr

end
-- ==== Proof.WordFrame.Run.lean ====
/-
  The whole program as a run: the buffer contents at each boundary between @main's four items (a host stretch, the
  projection region, a host stretch of two reshapes, the attention region) as a fold from the launch memory; each
  region entered from and left at those contents; and the conclusion that every weakly fair execution terminates with
  every unscoped buffer at the last fold — from which the argument arrays are read back unchanged and the result
  array is what the attention region's write-backs leave.
-/
import proofs.«147183_j52690658788033_2_alg».proof.Proof.WordFrame.R0
import proofs.«147183_j52690658788033_2_alg».proof.Proof.WordFrame.R1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the two reshapes (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-- After the last point the attention region's invariant gives back the generator register and the scoped rest:
    the scratch buffers' named contents are forgotten. -/
theorem hout1' (c : Dev nD) : (dat1 (V3 m ρ) c).Φ (Fin.last cfg1.N)
    ⊢ (iprop((∃ r, prngReg c r) ∗ BI.emp ∗ Pipeline.scopedRest spec1 c) : sProp 𝕄) := by
  refine BI.Entails.trans (hout1 (V3 m ρ) c) ?_
  show (iprop(Pipeline.scopedRest spec1 c ∗ ∃ r, prngReg c r) : sProp 𝕄) ⊢ iprop((∃ r, prngReg c r) ∗ BI.emp ∗ Pipeline.scopedRest spec1 c)
  iintro ⟨Hr, Hp⟩
  isplitl [Hp]; · iexact Hp
  isplitr; · iempintro
  iexact Hr

/-! ## The regions as segments -/

set_option backward.isDefEq.respectTransparency.types false in
/-- Region 0 over the thread state "every unscoped buffer at the boundary's contents, the generator register at
    some state, nothing owed": its arrays are split out of the unscoped buffers at entry and put back at what the
    write-backs leave at exit; the generator register and the scoped rest go into the region's invariant and come back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at
    some state, nothing owed": its arrays are split out of the unscoped buffers at entry and put back at what the
    write-backs leave at exit; the generator register and the scoped rest go into the region's invariant and come back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact hout1' m ρ c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    with the result array at what the attention region's write-backs leave and the seven arguments as launched. -/
theorem run : θ_run defs (onTc (τ := τ) (main (F := F))) ⟨m, fun _ => 0, ρ⟩ (fun r => ∀ c : Dev nD,
      r.2.mem ((c.tc : Thread nD τ).loc main_v10) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v10 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

/-- The frame claim's post: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run m ρ)

end Cert.Kernel.Fr

end
-- ==== Proof.Spec.lean ====
/-
  The function both programs compute, over the reals.

  For a batch `p`, a query row `s` and an output column `e`:
  the three projections are `x·W + b`; the score of query row `s` against key row `t` is the inner
  product of the projected rows times `1/32` (the square root of the feature width 1024 is 32); the result is
  the average of the projected value rows weighted by the exponentials of the scores,
  `(∑ t, exp (score s t) · v t e) / (∑ t, exp (score s t))`.
  A softmax that first subtracts any real number `M` from every score of a row is this same quotient, since
  `exp (a - M) = exp a · exp (-M)` and `exp (-M)` is a nonzero real: that is how both the reference (which
  subtracts the row's maximum) and the tiled kernel (which subtracts a running maximum) meet here.
-/
import Idealize.ShloMosaic.PureOps.Ideal

noncomputable section

namespace Cert.Attn

/-- A batch of 4 matrices of 2048 rows and 1024 columns. -/
abbrev Arr3 : Type := Fin 4 → Fin 2048 → Fin 1024 → ℝ
/-- A 1024 × 1024 weight matrix. -/
abbrev Mat : Type := Fin 1024 → Fin 1024 → ℝ
/-- A bias vector. -/
abbrev Vec1 : Type := Fin 1024 → ℝ

/-- The affine projection `x·W + b`, entry `(p, s, e)`. -/
def proj (x : Arr3) (W : Mat) (b : Vec1) : Arr3 :=
  fun p s e => (∑ d : Fin 1024, x p s d * W d e) + b e

/-- The scaled score of query row `s` against key row `t` of batch `p`. -/
def score (q k : Arr3) (p : Fin 4) (s t : Fin 2048) : ℝ :=
  (∑ e : Fin 1024, q p s e * k p t e) * (1 / 32)

/-- The exponentially weighted average of the value rows. -/
def wavg (sc : Fin 4 → Fin 2048 → Fin 2048 → ℝ) (v : Arr3) : Arr3 :=
  fun p s e => (∑ t : Fin 2048, Real.exp (sc p s t) * v p t e) / (∑ t : Fin 2048, Real.exp (sc p s t))

/-- Softmax attention of `x` against itself through the three projections. -/
def out (x : Arr3) (Wq : Mat) (bq : Vec1) (Wk : Mat) (bk : Vec1) (Wv : Mat) (bv : Vec1) : Arr3 :=
  wavg (score (proj x Wq bq) (proj x Wk bk)) (proj x Wv bv)

/-! ## Real arrays read as buffers of extended reals -/

open Idealize.ShloMosaic

/-- The shapes of the seven arguments. -/
abbrev SX : Shape := ⟨3, ![4, 2048, 1024]⟩
abbrev SW : Shape := ⟨2, ![1024, 1024]⟩
abbrev SB : Shape := ⟨1, ![1024]⟩

/-- A real batch of matrices as a buffer whose entries are those reals. -/
def up3 (x : Arr3) : SX.Idx → EReal := fun i => ((x (i 0) (i 1) (i 2) : ℝ) : EReal)
/-- A real matrix as such a buffer. -/
def up2 (W : Mat) : SW.Idx → EReal := fun i => ((W (i 0) (i 1) : ℝ) : EReal)
/-- A real vector as such a buffer. -/
def up1 (b : Vec1) : SB.Idx → EReal := fun i => ((b (i 0) : ℝ) : EReal)

theorem up3_apply (x : Arr3) (i : SX.Idx) : up3 x i = ((x (i 0) (i 1) (i 2) : ℝ) : EReal) := rfl
theorem up2_apply (W : Mat) (i : SW.Idx) : up2 W i = ((W (i 0) (i 1) : ℝ) : EReal) := rfl
theorem up1_apply (b : Vec1) (i : SB.Idx) : up1 b i = ((b (i 0) : ℝ) : EReal) := rfl

end Cert.Attn

end
-- ==== Proof.LibRealEntry.lean ====
/-
  An extended real whose absolute value is below +∞ is a real number.

  The test "|x| < +∞" on the extended reals, with the absolute value taken as `max x (−x)` and +∞ spelt as the
  single-precision pattern with all exponent bits set and no fraction bits, holds exactly of the real numbers: at `⊤`
  and at `⊥` the absolute value is `⊤`, which is not below itself.
-/
import Idealize.ShloMosaic.PureOps.Ideal

noncomputable section

namespace Cert.LibRealEntry

open Idealize.ShloMosaic

/-- The single-precision pattern with all exponent bits set and no fraction denotes +∞. -/
theorem ofBits_inf : Ideal.ofBits .f32 0x7F800000#32 = ⊤ := by
  simp [Ideal.ofBits, Ideal.ieee]

/-- An extended real whose absolute value compares below that pattern is a real number. -/
theorem real_of_abs_lt : ∀ x : EReal, Ideal.cmp .olt (max x (-x)) (Ideal.ofBits .f32 0x7F800000#32) = 1#1 →
    ∃ r : ℝ, x = (r : EReal) := by
  intro x
  rw [ofBits_inf]
  induction x using EReal.rec
  · intro h; simp [Ideal.cmp] at h
  · intro _; exact ⟨_, rfl⟩
  · intro h; simp [Ideal.cmp] at h

end Cert.LibRealEntry

end
-- ==== Proof.Finite.lean ====
/-
  Every entry of the seven input arrays is a real number.

  The precondition is the conjunction of seven tests, one per array, each of the form "all entries satisfy
  |a| < +∞": the absolute value of every entry is compared with the pattern denoting +∞, and the one-bit
  answers are folded by `and` over all axes. The conjunction being 1, each fold is 1, so each answer is 1, and
  an extended real whose absolute value is below +∞ is neither `⊤` nor `⊥`: it is a real. Choosing that real at
  every index gives real arrays of which the given buffers are the images.
-/
import Idealize.ShloMosaic.Lib.ReduceAll
import Idealize.ShloMosaic.Lib.ValueIdx
import proofs.«147183_j52690658788033_2_alg».proof.Pre_finite_inputs
import proofs.«147183_j52690658788033_2_alg».proof.Proof.Spec
import proofs.«147183_j52690658788033_2_alg».proof.Proof.LibRealEntry

noncomputable section

namespace Cert.Attn.Finite

open Idealize.ShloMosaic Cert.Attn Cert.Pre_finite_inputs

/-- The scalar shape has one index. -/
instance : Subsingleton S_.Idx := ⟨fun a b => funext fun d => d.elim0⟩

/-- One test "all entries of `a` have absolute value below +∞" being 1 makes every entry of `a` a real. -/
theorem entry_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
          (cmpf .olt (Host.absf a) (broadcastInDim s ![] hb (constant (F := Ideal) S_ .f32 0x7F800000#32)))
          (constantI S_ 1 1#1) hr hu ValueIdx.ix0 = 1#1)
    (i : s.Idx) : ∃ r : ℝ, a i = (r : EReal) :=
  Cert.LibRealEntry.real_of_abs_lt (a i) (Host.reduce_andi_all _ _ hr hu _ h i)

/-- A conjunction of two one-bit scalars that is 1 has both conjuncts 1. -/
theorem and_scalar (x y : IVec S_ 1) (h : andi x y ValueIdx.ix0 = 1#1) :
    x ValueIdx.ix0 = 1#1 ∧ y ValueIdx.ix0 = 1#1 :=
  IntOp.andi_eq_one.1 h

/-- A rank-3 buffer all of whose entries are reals is the image of a real array. -/
theorem eq_up3 (a : FVec Ideal S4x2048x1024 .f32) (ha : ∀ i, ∃ r : ℝ, a i = (r : EReal)) :
    ∃ x : Arr3, a = up3 x := by
  choose r hr using ha
  refine ⟨fun p s e => r (ValueIdx.ix3 p s e), funext fun i => ?_⟩
  exact (hr i).trans (congrArg (fun j => ((r j : ℝ) : EReal)) (ValueIdx.eq_ix3 i))

/-- A rank-2 buffer all of whose entries are reals is the image of a real matrix. -/
theorem eq_up2 (a : FVec Ideal S1024x1024 .f32) (ha : ∀ i, ∃ r : ℝ, a i = (r : EReal)) :
    ∃ W : Mat, a = up2 W := by
  choose r hr using ha
  refine ⟨fun p q => r (ValueIdx.ix2 p q), funext fun i => ?_⟩
  exact (hr i).trans (congrArg (fun j => ((r j : ℝ) : EReal)) (ValueIdx.eq_ix2 i))

/-- A rank-1 buffer all of whose entries are reals is the image of a real vector. -/
theorem eq_up1 (a : FVec Ideal S1024 .f32) (ha : ∀ i, ∃ r : ℝ, a i = (r : EReal)) :
    ∃ b : Vec1, a = up1 b := by
  choose r hr using ha
  refine ⟨fun p => r (ValueIdx.ix1 p), funext fun i => ?_⟩
  exact (hr i).trans (congrArg (fun j => ((r j : ℝ) : EReal)) (ValueIdx.eq_ix1 i))

variable [Facts]

/-- Under the precondition the seven input buffers are the images of real arrays. -/
theorem reals_of_pre (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32)
    (h : Cert.Pre_finite_inputs.fn (F := Ideal) a0 a1 a2 a3 a4 a5 a6 = (fun _ => 1#1)) :
    ∃ (x : Arr3) (Wq : Mat) (bq : Vec1) (Wk : Mat) (bk : Vec1) (Wv : Mat) (bv : Vec1),
      a0 = up3 x ∧ a1 = up2 Wq ∧ a2 = up1 bq ∧ a3 = up2 Wk ∧ a4 = up1 bk ∧ a5 = up2 Wv ∧ a6 = up1 bv := by
  have h0 := congrFun h ValueIdx.ix0
  dsimp only [fn, fn_part1] at h0
  -- the conjunction, outermost test last
  obtain ⟨h0, t6⟩ := and_scalar _ _ h0
  obtain ⟨h0, t5⟩ := and_scalar _ _ h0
  obtain ⟨h0, t4⟩ := and_scalar _ _ h0
  obtain ⟨h0, t3⟩ := and_scalar _ _ h0
  obtain ⟨h0, t2⟩ := and_scalar _ _ h0
  obtain ⟨t0, t1⟩ := and_scalar _ _ h0
  obtain ⟨x, hx⟩ := eq_up3 a0 (entry_real a0 _ _ _ t0)
  obtain ⟨Wq, hWq⟩ := eq_up2 a1 (entry_real a1 _ _ _ t1)
  obtain ⟨bq, hbq⟩ := eq_up1 a2 (entry_real a2 _ _ _ t2)
  obtain ⟨Wk, hWk⟩ := eq_up2 a3 (entry_real a3 _ _ _ t3)
  obtain ⟨bk, hbk⟩ := eq_up1 a4 (entry_real a4 _ _ _ t4)
  obtain ⟨Wv, hWv⟩ := eq_up2 a5 (entry_real a5 _ _ _ t5)
  obtain ⟨bv, hbv⟩ := eq_up1 a6 (entry_real a6 _ _ _ t6)
  exact ⟨x, Wq, bq, Wk, bk, Wv, bv, hx, hWq, hbq, hWk, hbk, hWv, hbv⟩

end Cert.Attn.Finite

end
-- ==== Proof.LibVariance.lean ====
/-
  The variance of finitely many real numbers, computed two ways on the extended reals.

  With `S = Σ x`, `N` the number of entries and `μ = S / N`, the mean of the squared deviations `(Σ (x − μ)²) / N` is the mean of
  the squares less the squared mean, `(Σ x²) / N − μ²`: expanding the square, `Σ (x − μ)² = Σ x² − 2 μ S + N μ² = Σ x² − N μ²`
  because `μ N = S`. Both sides are stated with the extended reals' arithmetic and their division `Ideal.div`, as a program read
  at exact arithmetic computes them; every entry is real, so every partial result is real and the identity is the real one
  (a finite sum of reals read as extended reals is the real sum; a division by a nonzero real is the product with its reciprocal).
-/
import Idealize.ShloMosaic.PureOps.Ideal

open scoped BigOperators

noncomputable section

namespace Cert.LibVariance

open Idealize.ShloMosaic

/-- A finite sum of real numbers read as extended reals is the real sum read as an extended real. -/
theorem coe_sum {ι : Type} (s : Finset ι) (f : ι → ℝ) : (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-- The sum of squared deviations from a number `μ` with `μ N = Σ x`, over `N` entries, is the sum of squares less `N μ²`. -/
theorem sum_dev_sq {ι : Type} [Fintype ι] (x : ι → ℝ) (N μ : ℝ) (hcard : (Fintype.card ι : ℝ) = N) (hμ : μ * N = ∑ j, x j) :
    (∑ i, (x i - μ) * (x i - μ)) = (∑ i, x i * x i) - N * (μ * μ) := by
  have e : ∀ i, (x i - μ) * (x i - μ) = x i * x i - 2 * μ * x i + μ * μ := fun i => by ring
  simp only [e, Finset.sum_add_distrib, Finset.sum_sub_distrib, ← Finset.mul_sum, Finset.sum_const, Finset.card_univ,
    nsmul_eq_mul, hcard, ← hμ]
  ring

/-- The real identity: the mean of squared deviations from the mean is the mean of squares less the squared mean. -/
theorem real_var {ι : Type} [Fintype ι] (x : ι → ℝ) (N : ℝ) (hN : N ≠ 0) (hcard : (Fintype.card ι : ℝ) = N) :
    (∑ i, (x i - (∑ j, x j) * (1 / N)) * (x i - (∑ j, x j) * (1 / N))) * (1 / N)
      = (∑ i, x i * x i) * (1 / N) - (∑ j, x j) * (1 / N) * ((∑ j, x j) * (1 / N)) := by
  rw [sum_dev_sq x N ((∑ j, x j) * (1 / N)) hcard (by field_simp)]
  field_simp

/-- THE IDENTITY ON THE EXTENDED REALS, with the programs' division: for real entries `x` over an index type of `N` elements, the
    two-pass variance (deviations from the mean, squared, averaged) is the one-pass one (the mean of squares less the squared mean). -/
theorem var_two_ways {ι : Type} [Fintype ι] (x : ι → ℝ) (N : ℝ) (hN : N ≠ 0) (hcard : (Fintype.card ι : ℝ) = N) :
    Ideal.div (∑ i, (((x i : ℝ) : EReal) - Ideal.div (∑ j, ((x j : ℝ) : EReal)) (N : EReal))
        * (((x i : ℝ) : EReal) - Ideal.div (∑ j, ((x j : ℝ) : EReal)) (N : EReal))) (N : EReal)
      = Ideal.div (∑ i, ((x i : ℝ) : EReal) * ((x i : ℝ) : EReal)) (N : EReal)
        - Ideal.div (∑ j, ((x j : ℝ) : EReal)) (N : EReal) * Ideal.div (∑ j, ((x j : ℝ) : EReal)) (N : EReal) := by
  rw [Ideal.div_coe hN, Ideal.div_coe hN, Ideal.div_coe hN, coe_sum]
  simp only [← EReal.coe_mul, ← EReal.coe_sub, coe_sum]
  exact congrArg _ (real_var x N hN hcard)

end Cert.LibVariance

end
-- ==== Proof.RefSpec.lean ====
/-
  The reference program computes the specification.

  Read at exact arithmetic on the extended reals, with every input entry a real number, the reference's result is the
  real array `Cert.Attn.out` read as extended reals. Stage by stage:

  * each projection `x·W + b` has real entries: a finite sum of products of reals plus a real is that real number;
  * the scale `1 / √1024` is `1/32`, because `1024 = 32²`;
  * so every score is the real number `(∑ e, q s e · k t e) · (1/32)`;
  * the row maximum, a fold of `max` from `-∞` over the 2048 real scores of a row, is SOME real number `M`
    (a nonempty finite family of reals has a real maximum); which real it is does not matter below;
  * the exponentials `exp (score − M)`, their sum `0 + ∑ …` (positive, so nonzero), the quotients and the final
    contraction with the value rows are real, and over the reals
    `∑ t, exp (s t − M) · (1 / (0 + ∑ t', exp (s t' − M))) · v t = (∑ t, exp (s t) · v t) / (∑ t, exp (s t))`,
    since `exp (a − M) = exp a · exp (−M)` and `exp (−M) ≠ 0` cancels.
-/
import proofs.«147183_j52690658788033_2_alg».proof.Proof.Gen.ReferenceIdeal.Read
import proofs.«147183_j52690658788033_2_alg».proof.Proof.Spec
import proofs.«147183_j52690658788033_2_alg».proof.Proof.LibRealEntry
import proofs.«147183_j52690658788033_2_alg».proof.Proof.LibVariance

open scoped BigOperators

noncomputable section

namespace Cert.Attn.Ref

open Cert.Attn Idealize.ShloMosaic Idealize.ShloMosaic.ValueIdx
open Cert.ReferenceIdeal Cert.ReferenceIdeal.Gen Cert.ReferenceIdeal.Read

/-! ## The real-number identities -/

/-- The maximum, from the bottom element, of a nonempty finite family of reals is a real. -/
theorem fold_max_real {ι : Type} (s : Finset ι) (hs : s.Nonempty) (f : ι → ℝ) :
    ∃ M : ℝ, s.fold max (⊥ : EReal) (fun k => ((f k : ℝ) : EReal)) = (M : EReal) := by
  classical
  induction hs using Finset.Nonempty.cons_induction with
  | singleton a => exact ⟨f a, by rw [Finset.fold_singleton]; exact max_eq_left bot_le⟩
  | cons a s ha hs ih =>
    obtain ⟨M, hM⟩ := ih
    exact ⟨max (f a) M, by rw [Finset.fold_cons, hM]; exact (EReal.coe_strictMono.monotone.map_max).symm⟩

/-- A softmax-weighted average that first subtracts a real number from every score is the plain one. -/
theorem softmax_shift {ι : Type} [Fintype ι] [Nonempty ι] (s v : ι → ℝ) (M : ℝ) :
    (∑ t, Real.exp (s t - M) * (1 / (0 + ∑ t', Real.exp (s t' - M))) * v t)
      = (∑ t, Real.exp (s t) * v t) / (∑ t, Real.exp (s t)) := by
  have hpos : 0 < ∑ t, Real.exp (s t) := Finset.sum_pos (fun _ _ => Real.exp_pos _) Finset.univ_nonempty
  have hM : Real.exp (-M) ≠ 0 := (Real.exp_pos _).ne'
  have e1 : ∀ t, Real.exp (s t - M) = Real.exp (s t) * Real.exp (-M) := fun t => by
    rw [sub_eq_add_neg, Real.exp_add]
  simp only [e1, zero_add, ← Finset.sum_mul]
  rw [Finset.sum_div]
  refine Finset.sum_congr rfl fun t _ => ?_
  field_simp

/-! ## The constants of the program -/

theorem ofBits_1024 : Ideal.ofBits .f32 0x44800000#32 = ((1024 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem ofBits_zero : Ideal.ofBits .f32 0x00000000#32 = ((0 : ℝ) : EReal) := by
  simp [Ideal.ofBits, Ideal.ieee]

/-- The scale: one over the square root of 1024 is 1/32. -/
theorem scale_eq (i : S4x2048x2048.Idx) : val_main_v15 (F := Ideal) i = ((1 / 32 : ℝ) : EReal) := by
  rw [val_main_v15_apply, val_main_v13_apply, val_main_v12_apply, val_main_cst_apply, val_main_cst_0_apply]
  rw [Ideal.hostDivf_def, Ideal.hostUnary_sqrt_def, Ideal.ofBits_def, Ideal.ofBits_def, ofBits_1024, ofBits_one,
    Ideal.sqrt_coe, if_neg (by norm_num)]
  have h32 : Real.sqrt 1024 = 32 := by
    rw [show (1024 : ℝ) = 32 ^ 2 by norm_num]; exact Real.sqrt_sq (by norm_num)
  rw [h32, Ideal.div_coe (by norm_num), ← EReal.coe_mul, one_mul]

/-! ## The three projections -/

/-- An entry of a projection, computed on the extended reals from real entries, is the real entry. -/
theorem proj_coe (x : Arr3) (W : Mat) (b : Vec1) (p : Fin 4) (s : Fin 2048) (e : Fin 1024) :
    (∑ k : Fin 1024, ((x p s k : ℝ) : EReal) * ((W k e : ℝ) : EReal)) + ((b e : ℝ) : EReal)
      = ((proj x W b p s e : ℝ) : EReal) := by
  simp only [← EReal.coe_mul, Cert.LibVariance.coe_sum, ← EReal.coe_add]
  rfl

theorem v3_eq (x : Arr3) (W : Mat) (b : Vec1) :
    val_main_v3 (F := Ideal) (up3 x) (up2 W) (up1 b) = up3 (proj x W b) := by
  funext i
  obtain ⟨p, s, e, rfl⟩ : ∃ p s e, i = ix3 p s e := ⟨_, _, _, eq_ix3 i⟩
  rw [val_main_v3_apply, val_main_v0_apply, val_main_v2_apply, val_main_v1_apply]
  exact proj_coe x W b p s e

theorem v7_eq (x : Arr3) (W : Mat) (b : Vec1) :
    val_main_v7 (F := Ideal) (up3 x) (up2 W) (up1 b) = up3 (proj x W b) := by
  funext i
  obtain ⟨p, s, e, rfl⟩ : ∃ p s e, i = ix3 p s e := ⟨_, _, _, eq_ix3 i⟩
  rw [val_main_v7_apply, val_main_v4_apply, val_main_v6_apply, val_main_v5_apply]
  exact proj_coe x W b p s e

theorem v11_eq (x : Arr3) (W : Mat) (b : Vec1) :
    val_main_v11 (F := Ideal) (up3 x) (up2 W) (up1 b) = up3 (proj x W b) := by
  funext i
  obtain ⟨p, s, e, rfl⟩ : ∃ p s e, i = ix3 p s e := ⟨_, _, _, eq_ix3 i⟩
  rw [val_main_v11_apply, val_main_v8_apply, val_main_v10_apply, val_main_v9_apply]
  exact proj_coe x W b p s e

/-! ## The scores -/

/-- A real array of scores read as a buffer of extended reals. -/
def upS (sc : Fin 4 → Fin 2048 → Fin 2048 → ℝ) : S4x2048x2048.Idx → EReal :=
  fun i => ((sc (i 0) (i 1) (i 2) : ℝ) : EReal)

theorem v16_eq (x : Arr3) (Wq : Mat) (bq : Vec1) (Wk : Mat) (bk : Vec1) :
    val_main_v16 (F := Ideal) (up3 x) (up2 Wq) (up1 bq) (up2 Wk) (up1 bk)
      = upS (score (proj x Wq bq) (proj x Wk bk)) := by
  funext i
  obtain ⟨p, s, t, rfl⟩ : ∃ p s t, i = ix3 p s t := ⟨_, _, _, eq_ix3 i⟩
  rw [val_main_v16_apply, val_main_v14_apply, v3_eq, v7_eq, scale_eq]
  generalize proj x Wq bq = q
  generalize proj x Wk bk = kk
  show (∑ k : Fin 1024, ((q p s k : ℝ) : EReal) * ((kk p t k : ℝ) : EReal)) * ((1 / 32 : ℝ) : EReal)
    = ((score q kk p s t : ℝ) : EReal)
  simp only [← EReal.coe_mul, Cert.LibVariance.coe_sum]
  rfl

/-! ## The row maximum is some real number -/

theorem lift_ix (h : S4x2048x2048.Reduces [2] S4x2048) (p : Fin 4) (s : Fin 2048) (k : Fin (S4x2048x2048.size 2)) :
    h.lift (ix2 p s) k = ix3 p s (⟨k.val, k.isLt⟩ : Fin 2048) := by
  funext c; apply Fin.ext
  fin_cases c <;> rfl

theorem v19_real (x : Arr3) (Wq : Mat) (bq : Vec1) (Wk : Mat) (bk : Vec1) (p : Fin 4) (s : Fin 2048) :
    ∃ M : ℝ, val_main_v19 (F := Ideal) (up3 x) (up2 Wq) (up1 bq) (up2 Wk) (up1 bk) (ix2 p s) = (M : EReal) := by
  rw [val_main_v19_apply, val_main_v18_apply, val_main_cst_2_apply]
  unfold val_main_v17
  rw [v16_eq]
  generalize score (proj x Wq bq) (proj x Wk bk) = sc
  have hred : S4x2048x2048.Reduces [2] S4x2048 := by decide
  rw [Host.reduce_eq_fold_single FloatOps.maximumf _ _ reducesTo_S4x2048x2048_S4x2048_d2 hred h_S_,
    val_main_cst_1_apply, Ideal.ofBits_def, ofBits_neg_inf]
  have hf : (upS sc ∘ hred.lift (ix2 p s)) = fun k : Fin (S4x2048x2048.size 2) => ((sc p s ⟨k.val, k.isLt⟩ : ℝ) : EReal) :=
    funext fun k => by
      show upS sc (hred.lift (ix2 p s) k) = _
      rw [lift_ix hred p s k]; rfl
  rw [hf]
  obtain ⟨M, hM⟩ := fold_max_real (Finset.univ : Finset (Fin (S4x2048x2048.size 2))) ⟨⟨0, by decide⟩, Finset.mem_univ _⟩
    (fun k => sc p s ⟨k.val, k.isLt⟩)
  refine ⟨M, ?_⟩
  show max (⊥ : EReal) (Finset.fold max (⊥ : EReal) _ _) = _
  rw [hM]; exact max_eq_right bot_le

/-! ## Exponentials, their sum, the weights, the weighted average -/

theorem idx20_21 (p : Fin 4) (s t : Fin 2048) : idx_main_v20 (idx_main_v21 (ix3 p s t)) = ix2 p s := by
  funext a; match a with | ⟨0, _⟩ => rfl | ⟨1, _⟩ => rfl

theorem idx25_26 (p : Fin 4) (s t : Fin 2048) : idx_main_v25 (idx_main_v26 (ix3 p s t)) = ix2 p s := by
  funext a; match a with | ⟨0, _⟩ => rfl | ⟨1, _⟩ => rfl

theorem idx24 (p : Fin 4) (s k : Fin 2048) : idx_main_v24 (ix2 p s) k = ix3 p s k := by
  funext a; match a with | ⟨0, _⟩ => rfl | ⟨1, _⟩ => rfl | ⟨2, _⟩ => rfl

theorem lidx28 (p : Fin 4) (s : Fin 2048) (e : Fin 1024) (t : Fin 2048) :
    lidx_main_v28 (ix3 p s e) t = ix3 p s t := by
  funext a; match a with | ⟨0, _⟩ => rfl | ⟨1, _⟩ => rfl | ⟨2, _⟩ => rfl

theorem ridx28 (p : Fin 4) (s : Fin 2048) (e : Fin 1024) (t : Fin 2048) :
    ridx_main_v28 (ix3 p s e) t = ix3 p t e := by
  funext a; match a with | ⟨0, _⟩ => rfl | ⟨1, _⟩ => rfl | ⟨2, _⟩ => rfl

section Row

variable (x : Arr3) (Wq : Mat) (bq : Vec1) (Wk : Mat) (bk : Vec1) (p : Fin 4) (s : Fin 2048) (M : ℝ)
  (hM : val_main_v19 (F := Ideal) (up3 x) (up2 Wq) (up1 bq) (up2 Wk) (up1 bk) (ix2 p s) = (M : EReal))

include hM

/-- The exponential of a score less the row's maximum. -/
theorem v23_at (t : Fin 2048) :
    val_main_v23 (F := Ideal) (up3 x) (up2 Wq) (up1 bq) (up2 Wk) (up1 bk) (ix3 p s t)
      = ((Real.exp (score (proj x Wq bq) (proj x Wk bk) p s t - M) : ℝ) : EReal) := by
  rw [val_main_v23_apply, val_main_v22_apply, val_main_v21_apply, val_main_v20_apply, idx20_21, hM, v16_eq]
  show Ideal.exp (((score (proj x Wq bq) (proj x Wk bk) p s t : ℝ) : EReal) - (M : EReal)) = _
  rw [← EReal.coe_sub, Ideal.exp_coe]

/-- The row's sum of exponentials. -/
theorem v24_at :
    val_main_v24 (F := Ideal) (up3 x) (up2 Wq) (up1 bq) (up2 Wk) (up1 bk) (ix2 p s)
      = ((0 + ∑ t : Fin 2048, Real.exp (score (proj x Wq bq) (proj x Wk bk) p s t - M) : ℝ) : EReal) := by
  rw [val_main_v24_apply, val_main_cst_3_apply, Ideal.ofBits_def, ofBits_zero]
  simp only [idx24, v23_at x Wq bq Wk bk p s M hM]
  rw [Cert.LibVariance.coe_sum, ← EReal.coe_add]

/-- A softmax weight. -/
theorem v27_at (t : Fin 2048) :
    val_main_v27 (F := Ideal) (up3 x) (up2 Wq) (up1 bq) (up2 Wk) (up1 bk) (ix3 p s t)
      = ((Real.exp (score (proj x Wq bq) (proj x Wk bk) p s t - M)
          * (1 / (0 + ∑ t' : Fin 2048, Real.exp (score (proj x Wq bq) (proj x Wk bk) p s t' - M))) : ℝ) : EReal) := by
  have hpos : (0 : ℝ) < 0 + ∑ t' : Fin 2048, Real.exp (score (proj x Wq bq) (proj x Wk bk) p s t' - M) := by
    rw [zero_add]; exact Finset.sum_pos (fun _ _ => Real.exp_pos _) Finset.univ_nonempty
  rw [val_main_v27_apply, val_main_v26_apply, val_main_v25_apply, idx25_26, v24_at x Wq bq Wk bk p s M hM,
    v23_at x Wq bq Wk bk p s M hM, Ideal.hostDivf_def, Ideal.div_coe hpos.ne', ← EReal.coe_mul]

end Row

/-! ## The reference computes the specification -/

theorem reference_eq (x : Arr3) (Wq : Mat) (bq : Vec1) (Wk : Mat) (bk : Vec1) (Wv : Mat) (bv : Vec1) :
    Cert.ReferenceIdeal.Read.val_main_v28 (F := Ideal) (up3 x) (up2 Wq) (up1 bq) (up2 Wk) (up1 bk) (up2 Wv) (up1 bv)
      = up3 (out x Wq bq Wk bk Wv bv) := by
  funext i
  obtain ⟨p, s, e, rfl⟩ : ∃ p s e, i = ix3 p s e := ⟨_, _, _, eq_ix3 i⟩
  obtain ⟨M, hM⟩ := v19_real x Wq bq Wk bk p s
  rw [val_main_v28_apply, v11_eq]
  simp only [lidx28, ridx28, v27_at x Wq bq Wk bk p s M hM]
  show (∑ t : Fin 2048, ((Real.exp (score (proj x Wq bq) (proj x Wk bk) p s t - M)
          * (1 / (0 + ∑ t' : Fin 2048, Real.exp (score (proj x Wq bq) (proj x Wk bk) p s t' - M))) : ℝ) : EReal)
        * ((proj x Wv bv p t e : ℝ) : EReal))
      = ((out x Wq bq Wk bk Wv bv p s e : ℝ) : EReal)
  simp only [← EReal.coe_mul, Cert.LibVariance.coe_sum]
  exact congrArg _ (softmax_shift (fun t => score (proj x Wq bq) (proj x Wk bk) p s t) (fun t => proj x Wv bv p t e) M)

end Cert.Attn.Ref

end
-- ==== Proof.HostFolds.lean ====
import proofs.«147183_j52690658788033_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

noncomputable section

namespace Cert.Attn.HostFolds

open Idealize.ShloMosaic Idealize.ShloMosaic.ValueIdx Idealize.SL.Sem Cert.KernelIdeal Cert.KernelIdeal.Gen

variable (W : Valuation τ sig (Elt Ideal))

/-! ## The first host stretch, as terms

Each buffer the first stretch writes is one operation of an argument: a reshape, or a narrowing to a shorter float
format, which on the extended reals changes nothing. -/

theorem after0_v0 : (StableHlo.after (hostOps0 (F := Ideal)) W (Proc.devRef .tc main_v0) : S8192x1024.Idx → EReal)
    = shapeCast S8192x1024 (W (Proc.devRef .tc main_arg0) : S4x2048x1024.Idx → EReal)
        shapeCasts_S4x2048x1024_S8192x1024 := by
  dsimp only [hostOps0]
  after_results
  rfl

theorem after0_v1 : (StableHlo.after (hostOps0 (F := Ideal)) W (Proc.devRef .tc main_v1) : S1024x1024.Idx → EReal)
    = (W (Proc.devRef .tc main_arg1) : S1024x1024.Idx → EReal) := by
  dsimp only [hostOps0]
  after_results
  rfl

theorem after0_v2 : (StableHlo.after (hostOps0 (F := Ideal)) W (Proc.devRef .tc main_v2) : S1024x1024.Idx → EReal)
    = (W (Proc.devRef .tc main_arg3) : S1024x1024.Idx → EReal) := by
  dsimp only [hostOps0]
  after_results
  rfl

theorem after0_v3 : (StableHlo.after (hostOps0 (F := Ideal)) W (Proc.devRef .tc main_v3) : S1024x1024.Idx → EReal)
    = (W (Proc.devRef .tc main_arg5) : S1024x1024.Idx → EReal) := by
  dsimp only [hostOps0]
  after_results
  rfl

theorem after0_v4 : (StableHlo.after (hostOps0 (F := Ideal)) W (Proc.devRef .tc main_v4) : S1x1024.Idx → EReal)
    = shapeCast S1x1024 (W (Proc.devRef .tc main_arg2) : S1024.Idx → EReal) shapeCasts_S1024_S1x1024 := by
  dsimp only [hostOps0]
  after_results
  rfl

theorem after0_v5 : (StableHlo.after (hostOps0 (F := Ideal)) W (Proc.devRef .tc main_v5) : S1x1024.Idx → EReal)
    = shapeCast S1x1024 (W (Proc.devRef .tc main_arg4) : S1024.Idx → EReal) shapeCasts_S1024_S1x1024 := by
  dsimp only [hostOps0]
  after_results
  rfl

theorem after0_v6 : (StableHlo.after (hostOps0 (F := Ideal)) W (Proc.devRef .tc main_v6) : S1x1024.Idx → EReal)
    = shapeCast S1x1024 (W (Proc.devRef .tc main_arg6) : S1024.Idx → EReal) shapeCasts_S1024_S1x1024 := by
  dsimp only [hostOps0]
  after_results
  rfl

/-! ## The first host stretch, read at an index -/

/-- Row `R` of the flattened input is row `R % 2048` of batch `R / 2048`. -/
theorem h0_v0 (R : Fin 8192) (d : Fin 1024) :
    (StableHlo.after (hostOps0 (F := Ideal)) W (Proc.devRef .tc main_v0) : S8192x1024.Idx → EReal) (ix2 R d)
      = (W (Proc.devRef .tc main_arg0) : S4x2048x1024.Idx → EReal)
          (ix3 (⟨R.val / 2048, by have := R.isLt; omega⟩ : Fin 4) (⟨R.val % 2048, by omega⟩ : Fin 2048) d) :=
  (congrFun (after0_v0 W) (ix2 R d)).trans
    (shapeCast_apply _ shapeCasts_S4x2048x1024_S8192x1024 (ix2 R d) _ (by
      rw [Shape.rowMajor_val_three, Shape.rowMajor_val_two]
      show (R.val / 2048 * 2048 + R.val % 2048) * 1024 + d.val = R.val * 1024 + d.val
      omega))

theorem h0_v1 (d e : Fin 1024) :
    (StableHlo.after (hostOps0 (F := Ideal)) W (Proc.devRef .tc main_v1) : S1024x1024.Idx → EReal) (ix2 d e)
      = (W (Proc.devRef .tc main_arg1) : S1024x1024.Idx → EReal) (ix2 d e) :=
  congrFun (after0_v1 W) (ix2 d e)

theorem h0_v2 (d e : Fin 1024) :
    (StableHlo.after (hostOps0 (F := Ideal)) W (Proc.devRef .tc main_v2) : S1024x1024.Idx → EReal) (ix2 d e)
      = (W (Proc.devRef .tc main_arg3) : S1024x1024.Idx → EReal) (ix2 d e) :=
  congrFun (after0_v2 W) (ix2 d e)

theorem h0_v3 (d e : Fin 1024) :
    (StableHlo.after (hostOps0 (F := Ideal)) W (Proc.devRef .tc main_v3) : S1024x1024.Idx → EReal) (ix2 d e)
      = (W (Proc.devRef .tc main_arg5) : S1024x1024.Idx → EReal) (ix2 d e) :=
  congrFun (after0_v3 W) (ix2 d e)

theorem h0_v4 (e : Fin 1024) :
    (StableHlo.after (hostOps0 (F := Ideal)) W (Proc.devRef .tc main_v4) : S1x1024.Idx → EReal) (ix2 (0 : Fin 1) e)
      = (W (Proc.devRef .tc main_arg2) : S1024.Idx → EReal) (ix1 e) :=
  (congrFun (after0_v4 W) (ix2 (0 : Fin 1) e)).trans (shapeCast_a_1a_apply _ shapeCasts_S1024_S1x1024 0 e)

theorem h0_v5 (e : Fin 1024) :
    (StableHlo.after (hostOps0 (F := Ideal)) W (Proc.devRef .tc main_v5) : S1x1024.Idx → EReal) (ix2 (0 : Fin 1) e)
      = (W (Proc.devRef .tc main_arg4) : S1024.Idx → EReal) (ix1 e) :=
  (congrFun (after0_v5 W) (ix2 (0 : Fin 1) e)).trans (shapeCast_a_1a_apply _ shapeCasts_S1024_S1x1024 0 e)

theorem h0_v6 (e : Fin 1024) :
    (StableHlo.after (hostOps0 (F := Ideal)) W (Proc.devRef .tc main_v6) : S1x1024.Idx → EReal) (ix2 (0 : Fin 1) e)
      = (W (Proc.devRef .tc main_arg6) : S1024.Idx → EReal) (ix1 e) :=
  (congrFun (after0_v6 W) (ix2 (0 : Fin 1) e)).trans (shapeCast_a_1a_apply _ shapeCasts_S1024_S1x1024 0 e)

/-! ## The first host stretch writes no argument -/

theorem h0_arg0 : StableHlo.after (hostOps0 (F := Ideal)) W (Proc.devRef .tc main_arg0) = W (Proc.devRef .tc main_arg0) := by
  dsimp only [hostOps0]
  after_results

theorem h0_arg1 : StableHlo.after (hostOps0 (F := Ideal)) W (Proc.devRef .tc main_arg1) = W (Proc.devRef .tc main_arg1) := by
  dsimp only [hostOps0]
  after_results

theorem h0_arg2 : StableHlo.after (hostOps0 (F := Ideal)) W (Proc.devRef .tc main_arg2) = W (Proc.devRef .tc main_arg2) := by
  dsimp only [hostOps0]
  after_results

theorem h0_arg3 : StableHlo.after (hostOps0 (F := Ideal)) W (Proc.devRef .tc main_arg3) = W (Proc.devRef .tc main_arg3) := by
  dsimp only [hostOps0]
  after_results

theorem h0_arg4 : StableHlo.after (hostOps0 (F := Ideal)) W (Proc.devRef .tc main_arg4) = W (Proc.devRef .tc main_arg4) := by
  dsimp only [hostOps0]
  after_results

theorem h0_arg5 : StableHlo.after (hostOps0 (F := Ideal)) W (Proc.devRef .tc main_arg5) = W (Proc.devRef .tc main_arg5) := by
  dsimp only [hostOps0]
  after_results

theorem h0_arg6 : StableHlo.after (hostOps0 (F := Ideal)) W (Proc.devRef .tc main_arg6) = W (Proc.devRef .tc main_arg6) := by
  dsimp only [hostOps0]
  after_results

/-! ## The second host stretch

It views each of the two flat projections as one slab per batch entry: entry `(p, s, e)` of the view is entry
`(2048 p + s, e)` of the flat array. -/

theorem after1_v8 : (StableHlo.after (hostOps1 (F := Ideal)) W (Proc.devRef .tc main_v8) : S4x2048x1024.Idx → EReal)
    = shapeCast S4x2048x1024 (W (Proc.devRef .tc main_v7_0) : S8192x1024.Idx → EReal)
        shapeCasts_S8192x1024_S4x2048x1024 := by
  dsimp only [hostOps1]
  after_results
  rfl

theorem after1_v9 : (StableHlo.after (hostOps1 (F := Ideal)) W (Proc.devRef .tc main_v9) : S4x2048x1024.Idx → EReal)
    = shapeCast S4x2048x1024 (W (Proc.devRef .tc main_v7_1) : S8192x1024.Idx → EReal)
        shapeCasts_S8192x1024_S4x2048x1024 := by
  dsimp only [hostOps1]
  after_results
  rfl

theorem h1_v8 (p : Fin 4) (s : Fin 2048) (e : Fin 1024) :
    (StableHlo.after (hostOps1 (F := Ideal)) W (Proc.devRef .tc main_v8) : S4x2048x1024.Idx → EReal) (ix3 p s e)
      = (W (Proc.devRef .tc main_v7_0) : S8192x1024.Idx → EReal)
          (ix2 (⟨2048 * p.val + s.val, by have := p.isLt; have := s.isLt; omega⟩ : Fin 8192) e) :=
  (congrFun (after1_v8 W) (ix3 p s e)).trans
    (shapeCast_apply _ shapeCasts_S8192x1024_S4x2048x1024 (ix3 p s e) _ (by
      rw [Shape.rowMajor_val_three, Shape.rowMajor_val_two]
      show (2048 * p.val + s.val) * 1024 + e.val = (p.val * 2048 + s.val) * 1024 + e.val
      omega))

theorem h1_v9 (p : Fin 4) (s : Fin 2048) (e : Fin 1024) :
    (StableHlo.after (hostOps1 (F := Ideal)) W (Proc.devRef .tc main_v9) : S4x2048x1024.Idx → EReal) (ix3 p s e)
      = (W (Proc.devRef .tc main_v7_1) : S8192x1024.Idx → EReal)
          (ix2 (⟨2048 * p.val + s.val, by have := p.isLt; have := s.isLt; omega⟩ : Fin 8192) e) :=
  (congrFun (after1_v9 W) (ix3 p s e)).trans
    (shapeCast_apply _ shapeCasts_S8192x1024_S4x2048x1024 (ix3 p s e) _ (by
      rw [Shape.rowMajor_val_three, Shape.rowMajor_val_two]
      show (2048 * p.val + s.val) * 1024 + e.val = (p.val * 2048 + s.val) * 1024 + e.val
      omega))

/-! ## The second host stretch leaves what the second kernel reads besides the two views -/

theorem h1_arg0 : StableHlo.after (hostOps1 (F := Ideal)) W (Proc.devRef .tc main_arg0) = W (Proc.devRef .tc main_arg0) := by
  dsimp only [hostOps1]
  after_results

theorem h1_v1 : StableHlo.after (hostOps1 (F := Ideal)) W (Proc.devRef .tc main_v1) = W (Proc.devRef .tc main_v1) := by
  dsimp only [hostOps1]
  after_results

theorem h1_v4 : StableHlo.after (hostOps1 (F := Ideal)) W (Proc.devRef .tc main_v4) = W (Proc.devRef .tc main_v4) := by
  dsimp only [hostOps1]
  after_results

end Cert.Attn.HostFolds

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.LibMatmulNT.lean ====
/-
  A matrix product with the right operand contracted on its LAST axis, read at an index, on the extended reals.

  The product of an `[m, k]` matrix with an `[n, k]` matrix (the right operand transposed: `A · Bᵀ`), added into a
  zero accumulator, read at `(p, c)`, is the sum over `x` of the left matrix at `(p, x)` times the right matrix at
  `(c, x)`.  The dimension numbers enter only through the four facts that say which operand coordinate is the row,
  the column and the contracted one.
-/
import Idealize.ShloMosaic.Lib.Pipeline.Value
import Idealize.ShloMosaic.Lib.ValueIdx
import Idealize.ShloMosaic.PureOps.Ideal.Laws

noncomputable section

namespace Cert.LibMatmulNT

open Idealize.ShloMosaic Idealize.ShloMosaic.ValueIdx

/-- `A · Bᵀ` into a zero accumulator, read at `(p, c)`: the sum over the contracted coordinate `x` of the left
    operand at `(p, x)` times the right operand at `(c, x)`. -/
theorem matmul_nt_zero_apply {m k n : ℕ} {φ₁ φ₂ : FTy}
    (d : DotDims ⟨2, ![m, k]⟩ ⟨2, ![n, k]⟩ ⟨2, ![m, n]⟩) (prec : Option ContractPrecision)
    (lhs : FVec Ideal ⟨2, ![m, k]⟩ φ₁) (rhs : FVec Ideal ⟨2, ![n, k]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (j 1).val)
    (hr1 : ∀ (j : (⟨2, ![m, n]⟩ : Shape).Idx) (q : d.contr.Idx), (d.rhsIdx j q 1).val = (q ⟨0, by omega⟩).val)
    (p : Fin m) (c : Fin n) :
    FloatOps.matmul d prec lhs rhs (constant ⟨2, ![m, n]⟩ .f32 0x00000000#32) (ix2 p c)
      = ∑ x : Fin k, lhs (ix2 p x) * rhs (ix2 c x) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 c x := funext fun a => Fin.ext (by
    match a with
    | ⟨0, _⟩ => exact hr0 _ _
    | ⟨1, _⟩ => exact (hr1 _ _).trans hk)
  rw [el, er]

end Cert.LibMatmulNT

end
-- ==== Proof.LibRowMax.lean ====
/-
  The maximum of an `[a, b]` array along its second axis, read at an index, on the extended reals: at entry `p` it is
  the fold of `max`, from the accumulator's value, over the entries `(p, k)` of row `p`.
-/
import Idealize.ShloMosaic.Lib.Pipeline.Value
import Idealize.ShloMosaic.Lib.ValueIdx
import Idealize.ShloMosaic.PureOps.Ideal.Laws

noncomputable section

namespace Cert.LibRowMax

open Idealize.ShloMosaic Idealize.ShloMosaic.ValueIdx

/-- A maximum along the second axis of an `[a, b]` array, read at entry `p`: the fold of `max` over row `p`, from
    what the accumulator's pattern denotes. -/
theorem rowMax_apply {a b : ℕ} (src : FVec Ideal ⟨2, ![a, b]⟩ .f32) (acc : BitVec 32)
    (h : (⟨2, ![a, b]⟩ : Shape).Reduces [(1 : Fin 2)] ⟨1, ![a]⟩) (hφ : FKind.Formats .f32)
    (hacc : acc = FKind.maximumf.neutral .f32 hφ) (p : Fin a) :
    multiReduction .maximumf [(1 : Fin 2)] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (Finset.fold_congr fun k _ => congrArg src (funext fun c => Fin.ext (by
      match c with
      | ⟨0, _⟩ => rfl
      | ⟨1, _⟩ => rfl)))

end Cert.LibRowMax

end
-- ==== Proof.LibColumn.lean ====
/-
  A column broadcast over many columns, read at an index: an `[a, 1]` array broadcast to `[a, b]` reads, at
  `(p, c)`, the column's entry of row `p`.
-/
import Idealize.ShloMosaic.Lib.Pipeline.Value
import Idealize.ShloMosaic.Lib.ValueIdx

namespace Cert.LibColumn

open Idealize.ShloMosaic Idealize.ShloMosaic.ValueIdx

variable {α : Type}

/-- An `[a, 1]` array broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibUnitColumn.lean ====
/-
  A vector cast to a column, read at an index: an `[a]` array cast to `[a, 1]` reads, at `(i, u)`, the vector's
  entry `i`, whatever the unit coordinate `u`.
-/
import Idealize.ShloMosaic.Lib.Pipeline.Value
import Idealize.ShloMosaic.Lib.ValueIdx

namespace Cert.LibUnitColumn

open Idealize.ShloMosaic Idealize.ShloMosaic.ValueIdx

variable {α : Type}

/-- An `[a]` array cast to `[a, 1]` reads, at `(i, u)`, the operand at `i`: both indices have the row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibUnitColumn
-- ==== Proof.LibUnitAxis.lean ====
/-
  A leading axis of extent one, at rank three.

  A [1, a, b] block viewed as an [a, b] array reads `(p, k)` at the block's entry `(0, p, k)`, and an [a, b] array
  viewed as a [1, a, b] block reads `(z, p, q)` at the array's entry `(p, q)`: the two reshapes every block of a
  rank-3 array cut one slab at a time goes through.  Stated at coordinates, for any element type.
-/
import Idealize.ShloMosaic.Lib.Pipeline.Value
import Idealize.ShloMosaic.Lib.ValueIdx

noncomputable section

namespace Cert.LibUnitAxis

open Idealize.ShloMosaic Idealize.ShloMosaic.ValueIdx

/-- A [1, a, b] block viewed as [a, b] reads `(p, k)` at `(0, p, k)`. -/
theorem dropUnit_apply {α : Type} {a b : ℕ} (v : (⟨3, ![1, a, b]⟩ : Shape).Idx → α)
    (h : (⟨3, ![1, a, b]⟩ : Shape).ShapeCasts ⟨2, ![a, b]⟩) (p : Fin a) (k : Fin b) :
    shapeCast ⟨2, ![a, b]⟩ v h (ix2 p k) = v (ix3 0 p k) :=
  (shapeCast_dropUnit_apply ![a, b] v h (ix2 p k)).trans (congrArg v (funext fun d => by
    match d with
    | ⟨0, _⟩ => rfl
    | ⟨1, _⟩ => rfl
    | ⟨2, _⟩ => rfl))

/-- An [a, b] array viewed as a [1, a, b] block reads `(z, p, q)` at `(p, q)`. -/
theorem addUnit_apply {α : Type} {a b : ℕ} (v : (⟨2, ![a, b]⟩ : Shape).Idx → α)
    (h : (⟨2, ![a, b]⟩ : Shape).ShapeCasts ⟨3, ![1, a, b]⟩) (z : Fin 1) (p : Fin a) (q : Fin b) :
    shapeCast ⟨3, ![1, a, b]⟩ v h (ix3 z p q) = v (ix2 p q) :=
  (shapeCast_addUnit_apply ![a, b] v h (ix3 z p q)).trans (congrArg v (funext fun d => by
    match d with
    | ⟨0, _⟩ => rfl
    | ⟨1, _⟩ => rfl))

end Cert.LibUnitAxis

end
-- ==== Proof.PayKV.lean ====
import proofs.«147183_j52690658788033_2_alg».proof.Proof.Gen.KernelIdeal.Skeleton
import proofs.«147183_j52690658788033_2_alg».proof.Proof.LibRowOps
import proofs.«147183_j52690658788033_2_alg».proof.Proof.LibMatmulNT
import proofs.«147183_j52690658788033_2_alg».proof.Proof.LibRowMax
import proofs.«147183_j52690658788033_2_alg».proof.Proof.LibColumn
import proofs.«147183_j52690658788033_2_alg».proof.Proof.LibUnitColumn
import proofs.«147183_j52690658788033_2_alg».proof.Proof.LibUnitAxis
import Idealize.ShloMosaic.Lib.ValueLayout
import Idealize.ShloMosaic.PureOps.Ideal.Laws

noncomputable section

namespace Cert.Attn.PayKV

open Idealize.ShloMosaic Idealize.ShloMosaic.ValueIdx Cert.KernelIdeal Cert.KernelIdeal.Gen

/-- A product into a zero accumulator plus a row broadcast over all rows, read at `(r, e)`: the sum over the
    contracted coordinate plus the row's entry of column `e`. -/
theorem proj_apply (x : FVec Ideal S512x1024 .bf16) (w : FVec Ideal S1024x1024 .bf16) (b : FVec Ideal S1x1024 .f32)
    (r : Fin 512) (e : Fin 1024) :
    addf (matmul dot_S512x1024_S1024x1024_S512x1024_1_0_0_1_n_n none x w (constant S512x1024 .f32 0x00000000#32))
        (broadcastTo S512x1024 b broadcasts_S1x1024_S512x1024) (ix2 r e)
      = (∑ d : Fin 1024, x (ix2 r d) * w (ix2 d e)) + b (ix2 0 e) :=
  congrArg₂ (· + ·)
    (Cert.LibRowOps.matmul_zero_apply dot_S512x1024_S1024x1024_S512x1024_1_0_0_1_n_n none x w rfl rfl
      (fun _ _ => rfl) (fun _ _ => rfl) (fun _ _ => rfl) (fun _ _ => rfl) r e)
    (broadcastTo_1b_ab_apply b broadcasts_S1x1024_S512x1024 r e)

/-- The first projection written by the key/value kernel, read at `(r, e)`. -/
theorem pay2_apply (v0 : FVec Ideal S512x1024 .f32) (v3 : FVec Ideal S1024x1024 .bf16) (v6 : FVec Ideal S1x1024 .f32)
    (r : Fin 512) (e : Fin 1024) :
    k0_pay2 (F := Ideal) v0 v3 v6 (ix2 r e) = (∑ d : Fin 1024, v0 (ix2 r d) * v3 (ix2 d e)) + v6 (ix2 0 e) := by
  unfold k0_pay2 k0_pay1
  refine (proj_apply _ _ _ r e).trans ?_
  exact congrArg₂ (· + ·)
    (Finset.sum_congr rfl fun d _ => congrArg₂ (· * ·)
      (congrFun (shapeCast_self v0 shapeCasts_S512x1024_S512x1024) (ix2 r d))
      (congrFun (shapeCast_self v3 shapeCasts_S1024x1024_S1024x1024) (ix2 d e)))
    (congrFun (shapeCast_self v6 shapeCasts_S1x1024_S1x1024) (ix2 0 e))

/-- The second projection written by the key/value kernel, read at `(r, e)`. -/
theorem pay3_apply (v0 : FVec Ideal S512x1024 .f32) (v12 : FVec Ideal S1024x1024 .bf16) (v15 : FVec Ideal S1x1024 .f32)
    (r : Fin 512) (e : Fin 1024) :
    k0_pay3 (F := Ideal) v0 v12 v15 (ix2 r e) = (∑ d : Fin 1024, v0 (ix2 r d) * v12 (ix2 d e)) + v15 (ix2 0 e) := by
  unfold k0_pay3 k0_pay1
  refine (proj_apply _ _ _ r e).trans ?_
  exact congrArg₂ (· + ·)
    (Finset.sum_congr rfl fun d _ => congrArg₂ (· * ·)
      (congrFun (shapeCast_self v0 shapeCasts_S512x1024_S512x1024) (ix2 r d))
      (congrFun (shapeCast_self v12 shapeCasts_S1024x1024_S1024x1024) (ix2 d e)))
    (congrFun (shapeCast_self v15 shapeCasts_S1x1024_S1x1024) (ix2 0 e))

end Cert.Attn.PayKV

end
-- ==== Proof.ValueKV.lean ====
/-
  What the first kernel region leaves in its two output arrays.

  At grid point t the body stores, into rows 512·t … 512·t + 511 of each output array, the product of those rows of
  the flattened input with a weight matrix, plus a bias row. Each stored block is therefore the restriction to
  those rows of ONE function of the whole arrays, "row R, column e ↦ (∑ d, x R d · W d e) + b e"; the sixteen
  blocks tile the 8192 rows, so after the last point each output array is that function.
-/
import proofs.«147183_j52690658788033_2_alg».proof.Proof.IdealFrame.R0
import proofs.«147183_j52690658788033_2_alg».proof.Proof.PayKV
import Idealize.ShloMosaic.Lib.Pipeline.Value

set_option maxRecDepth 16384

noncomputable section

namespace Cert.Attn.ValueKV

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- Row R, column e of "rows of x times W, plus the row b": the function both output arrays end holding. -/
def projArr (X : S8192x1024.Idx → EReal) (W : S1024x1024.Idx → EReal) (b : S1x1024.Idx → EReal) :
    S8192x1024.Idx → EReal :=
  fun i => (∑ d : Fin 1024, X (ix2 (i 0) d) * W (ix2 d (i 1))) + b (ix2 0 (i 1))

theorem projArr_apply (X : S8192x1024.Idx → EReal) (W : S1024x1024.Idx → EReal) (b : S1x1024.Idx → EReal)
    (i : S8192x1024.Idx) :
    projArr X W b i = (∑ d : Fin 1024, X (ix2 (i 0) d) * W (ix2 d (i 1))) + b (ix2 0 (i 1)) := rfl

/-! ## The body's payloads against that function -/

/-- The first projection of three blocks, at a block index, is the function of three arrays at an array index when
    the blocks' entries the sum reads are the arrays' entries it reads. -/
theorem pay2_blk (x0 : Vec Ideal S512x1024 .f32) (x1 : Vec Ideal S1024x1024 .bf16) (x2 : Vec Ideal S1x1024 .f32)
    (X : S8192x1024.Idx → EReal) (W : S1024x1024.Idx → EReal) (b : S1x1024.Idx → EReal)
    (j : S512x1024.Idx) (i : S8192x1024.Idx)
    (hx : ∀ d : Fin 1024, x0 (ix2 (j 0) d) = X (ix2 (i 0) d))
    (hw : ∀ d : Fin 1024, x1 (ix2 d (j 1)) = W (ix2 d (i 1)))
    (hb : x2 (ix2 0 (j 1)) = b (ix2 0 (i 1))) :
    k0_pay2 (F := Ideal) x0 x1 x2 j = projArr X W b i :=
  (congrArg (k0_pay2 (F := Ideal) x0 x1 x2) (eq_ix2 j)).trans
    ((Cert.Attn.PayKV.pay2_apply x0 x1 x2 (j 0) (j 1)).trans
      (congrArg₂ (· + ·) (Finset.sum_congr rfl fun d _ => congrArg₂ (· * ·) (hx d) (hw d)) hb))

/-- The second projection likewise. -/
theorem pay3_blk (x0 : Vec Ideal S512x1024 .f32) (x1 : Vec Ideal S1024x1024 .bf16) (x2 : Vec Ideal S1x1024 .f32)
    (X : S8192x1024.Idx → EReal) (W : S1024x1024.Idx → EReal) (b : S1x1024.Idx → EReal)
    (j : S512x1024.Idx) (i : S8192x1024.Idx)
    (hx : ∀ d : Fin 1024, x0 (ix2 (j 0) d) = X (ix2 (i 0) d))
    (hw : ∀ d : Fin 1024, x1 (ix2 d (j 1)) = W (ix2 d (i 1)))
    (hb : x2 (ix2 0 (j 1)) = b (ix2 0 (i 1))) :
    k0_pay3 (F := Ideal) x0 x1 x2 j = projArr X W b i :=
  (congrArg (k0_pay3 (F := Ideal) x0 x1 x2) (eq_ix2 j)).trans
    ((Cert.Attn.PayKV.pay3_apply x0 x1 x2 (j 0) (j 1)).trans
      (congrArg₂ (· + ·) (Finset.sum_congr rfl fun d _ => congrArg₂ (· * ·) (hx d) (hw d)) hb))

/-! ## The index maps, decided once over the grid -/

/-- Windows 0, 5 and 6 move down the rows with the point; windows 1 to 4 stay on the whole array. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-! ## The input blocks, read off the arrays -/

/-- Window 0's block at point t is rows 512·t … 512·t + 511 of its array. -/
theorem iblk0_0_apply (c : Dev nD) (t : Fin cfg0.N) (y : S512x1024.Idx) (i : S8192x1024.Idx)
    (h0 : (i 0).val = 512 * t.val + (y 0).val) (h1 : (i 1).val = (y 1).val) :
    (iblk0 V c 0 t : Vec Ideal S512x1024 .f32) y = (V c main_v0 : S8192x1024.Idx → EReal) i := by
  obtain ⟨⟨e0, e1⟩, -⟩ := idx_facts t
  unfold iblk0
  rw [View.read_apply]
  show V c main_v0 _ = V c main_v0 _
  refine congrArg (V c main_v0) ?_
  funext a
  apply Fin.ext
  match a with
  | ⟨0, _⟩ => show win0_0.index t 0 * 512 + 1 * (y 0).val = (i 0).val; rw [e0, h0]; omega
  | ⟨1, _⟩ => show win0_0.index t 1 * 1024 + 1 * (y 1).val = (i 1).val; rw [e1, h1]; omega

/-- Window 1's block at any point is its whole array. -/
theorem iblk0_1_eq (c : Dev nD) (t : Fin cfg0.N) :
    (iblk0 V c 1 t : Vec Ideal S1024x1024 .bf16) = (V c main_v2 : S1024x1024.Idx → EReal) := by
  obtain ⟨-, ⟨e0, e1⟩, -⟩ := idx_facts t
  funext y
  unfold iblk0
  rw [View.read_apply]
  show V c main_v2 _ = V c main_v2 y
  refine congrArg (V c main_v2) ?_
  funext a
  apply Fin.ext
  match a with
  | ⟨0, _⟩ => show win0_1.index t 0 * 1024 + 1 * (y 0).val = (y 0).val; rw [e0]; omega
  | ⟨1, _⟩ => show win0_1.index t 1 * 1024 + 1 * (y 1).val = (y 1).val; rw [e1]; omega

/-- Window 2's block at any point is its whole array. -/
theorem iblk0_2_eq (c : Dev nD) (t : Fin cfg0.N) :
    (iblk0 V c 2 t : Vec Ideal S1x1024 .f32) = (V c main_v5 : S1x1024.Idx → EReal) := by
  obtain ⟨-, -, ⟨e0, e1⟩, -⟩ := idx_facts t
  funext y
  unfold iblk0
  rw [View.read_apply]
  show V c main_v5 _ = V c main_v5 y
  refine congrArg (V c main_v5) ?_
  funext a
  apply Fin.ext
  match a with
  | ⟨0, _⟩ => show win0_2.index t 0 * 1 + 1 * (y 0).val = (y 0).val; rw [e0]; omega
  | ⟨1, _⟩ => show win0_2.index t 1 * 1024 + 1 * (y 1).val = (y 1).val; rw [e1]; omega

/-- Window 3's block at any point is its whole array. -/
theorem iblk0_3_eq (c : Dev nD) (t : Fin cfg0.N) :
    (iblk0 V c 3 t : Vec Ideal S1024x1024 .bf16) = (V c main_v3 : S1024x1024.Idx → EReal) := by
  obtain ⟨-, -, -, ⟨e0, e1⟩, -⟩ := idx_facts t
  funext y
  unfold iblk0
  rw [View.read_apply]
  show V c main_v3 _ = V c main_v3 y
  refine congrArg (V c main_v3) ?_
  funext a
  apply Fin.ext
  match a with
  | ⟨0, _⟩ => show win0_3.index t 0 * 1024 + 1 * (y 0).val = (y 0).val; rw [e0]; omega
  | ⟨1, _⟩ => show win0_3.index t 1 * 1024 + 1 * (y 1).val = (y 1).val; rw [e1]; omega

/-- Window 4's block at any point is its whole array. -/
theorem iblk0_4_eq (c : Dev nD) (t : Fin cfg0.N) :
    (iblk0 V c 4 t : Vec Ideal S1x1024 .f32) = (V c main_v6 : S1x1024.Idx → EReal) := by
  obtain ⟨-, -, -, -, ⟨e0, e1⟩, -⟩ := idx_facts t
  funext y
  unfold iblk0
  rw [View.read_apply]
  show V c main_v6 _ = V c main_v6 y
  refine congrArg (V c main_v6) ?_
  funext a
  apply Fin.ext
  match a with
  | ⟨0, _⟩ => show win0_4.index t 0 * 1 + 1 * (y 0).val = (y 0).val; rw [e0]; omega
  | ⟨1, _⟩ => show win0_4.index t 1 * 1024 + 1 * (y 1).val = (y 1).val; rw [e1]; omega

/-! ## Output window 5 -/

/-- What point t writes back to output window 5 is block t of the function of the whole arrays. -/
theorem flushed5_eq (c : Dev nD) (t : Fin cfg0.N) :
    (dat0 V c).flushed 5 t = ((cfg0.win 5).blk t).view.read (Elt Ideal) (projArr (V c main_v0) (V c main_v2) (V c main_v5)) := by
  show (cfg0.win 5).cut (grid0.coords t) ((dat0 V c).after 5 t) = _
  rw [after0_5]
  unfold out0_5
  rw [View.canon_unit_zero hz]
  simp only [View.ld_unit_zero (S := S512x1024) hz, View.ld_unit_zero (S := S1024x1024) hz, View.ld_unit_zero (S := S1x1024) hz]
  rw [iblk0_1_eq, iblk0_2_eq]
  obtain ⟨-, -, -, -, -, ⟨e0, e1⟩, -⟩ := idx_facts t
  funext j
  show k0_pay2 (F := Ideal) (iblk0 V c 0 t) (V c main_v2) (V c main_v5) j
    = projArr (V c main_v0) (V c main_v2) (V c main_v5) (((cfg0.win 5).blk t).view.emb j)
  have c0 : ((((cfg0.win 5).blk t).view.emb j) 0).val = 512 * t.val + (j 0).val := by
    show win0_5.index t 0 * 512 + 1 * (j 0).val = _; rw [e0]; omega
  have c1 : ((((cfg0.win 5).blk t).view.emb j) 1).val = (j 1).val := by
    show win0_5.index t 1 * 1024 + 1 * (j 1).val = _; rw [e1]; omega
  have q1 : (j 1 : Fin 1024) = ((((cfg0.win 5).blk t).view.emb j) 1 : Fin 1024) := Fin.ext c1.symm
  refine pay2_blk _ _ _ _ _ _ j _ (fun d => ?_) (fun d => ?_) ?_
  · exact iblk0_0_apply V c t _ _ c0 rfl
  · exact congrArg (fun q : Fin 1024 => (V c main_v2 : S1024x1024.Idx → EReal) (ix2 d q)) q1
  · exact congrArg (fun q : Fin 1024 => (V c main_v5 : S1x1024.Idx → EReal) (ix2 0 q)) q1

/-- An index of the array is in point t's block of window 5 iff each coordinate is in the block's range. -/
theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v7_0).slice (win0_5.rect t)).set ↔ _
  rw [View.set_slice_whole, Rect.mem_set_unit]
  exact Iff.rfl

/-- Row R of the array is in the block of the point R / 512, and every point writes its block back. -/
theorem cover5 (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by omega⟩, rfl⟩
  obtain ⟨-, -, -, -, -, ⟨e0, e1⟩, -⟩ := idx_facts t
  refine ⟨t, flush0_5 t, ?_⟩
  rw [mem_blk5]
  intro a
  match a with
  | ⟨0, _⟩ => show win0_5.index t 0 * 512 ≤ (i 0).val ∧ (i 0).val < win0_5.index t 0 * 512 + 512; rw [e0, ht]; omega
  | ⟨1, _⟩ => show win0_5.index t 1 * 1024 ≤ (i 1).val ∧ (i 1).val < win0_5.index t 1 * 1024 + 1024; rw [e1]; omega

/-- After the region, output window 5's array: row R, column e is (∑ d, x R d · W d e) + b e of the arrays the
    region found. -/
theorem final0_5 (c : Dev nD) : (dat0 V c).arrAt 5 cfg0.N
    = projArr (V c main_v0) (V c main_v2) (V c main_v5) :=
  (dat0 V c).arrAt_eq_of_cover 5 (projArr (V c main_v0) (V c main_v2) (V c main_v5)) (fun t _ => flushed5_eq V c t) cover5

/-- The same at row R and column e, with the three arrays the region found named. -/
theorem final0_5_apply (c : Dev nD) (X : S8192x1024.Idx → EReal) (W : S1024x1024.Idx → EReal) (b : S1x1024.Idx → EReal)
    (hX : V c main_v0 = X) (hW : V c main_v2 = W) (hb : V c main_v5 = b) (R : Fin 8192) (e : Fin 1024) :
    ((dat0 V c).arrAt 5 cfg0.N : S8192x1024.Idx → EReal) (ix2 R e)
      = (∑ d : Fin 1024, X (ix2 R d) * W (ix2 d e)) + b (ix2 0 e) := by
  subst hX hW hb
  exact congrFun (final0_5 V c) (ix2 R e)

/-! ## Output window 6 -/

/-- What point t writes back to output window 6 is block t of the function of the whole arrays. -/
theorem flushed6_eq (c : Dev nD) (t : Fin cfg0.N) :
    (dat0 V c).flushed 6 t = ((cfg0.win 6).blk t).view.read (Elt Ideal) (projArr (V c main_v0) (V c main_v3) (V c main_v6)) := by
  show (cfg0.win 6).cut (grid0.coords t) ((dat0 V c).after 6 t) = _
  rw [after0_6]
  unfold out0_6
  rw [View.canon_unit_zero hz]
  simp only [View.ld_unit_zero (S := S512x1024) hz, View.ld_unit_zero (S := S1024x1024) hz, View.ld_unit_zero (S := S1x1024) hz]
  rw [iblk0_3_eq, iblk0_4_eq]
  obtain ⟨-, -, -, -, -, -, ⟨e0, e1⟩⟩ := idx_facts t
  funext j
  show k0_pay3 (F := Ideal) (iblk0 V c 0 t) (V c main_v3) (V c main_v6) j
    = projArr (V c main_v0) (V c main_v3) (V c main_v6) (((cfg0.win 6).blk t).view.emb j)
  have c0 : ((((cfg0.win 6).blk t).view.emb j) 0).val = 512 * t.val + (j 0).val := by
    show win0_6.index t 0 * 512 + 1 * (j 0).val = _; rw [e0]; omega
  have c1 : ((((cfg0.win 6).blk t).view.emb j) 1).val = (j 1).val := by
    show win0_6.index t 1 * 1024 + 1 * (j 1).val = _; rw [e1]; omega
  have q1 : (j 1 : Fin 1024) = ((((cfg0.win 6).blk t).view.emb j) 1 : Fin 1024) := Fin.ext c1.symm
  refine pay3_blk _ _ _ _ _ _ j _ (fun d => ?_) (fun d => ?_) ?_
  · exact iblk0_0_apply V c t _ _ c0 rfl
  · exact congrArg (fun q : Fin 1024 => (V c main_v3 : S1024x1024.Idx → EReal) (ix2 d q)) q1
  · exact congrArg (fun q : Fin 1024 => (V c main_v6 : S1x1024.Idx → EReal) (ix2 0 q)) q1

/-- An index of the array is in point t's block of window 6 iff each coordinate is in the block's range. -/
theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v7_1).slice (win0_6.rect t)).set ↔ _
  rw [View.set_slice_whole, Rect.mem_set_unit]
  exact Iff.rfl

/-- Row R of the array is in the block of the point R / 512, and every point writes its block back. -/
theorem cover6 (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by omega⟩, rfl⟩
  obtain ⟨-, -, -, -, -, -, ⟨e0, e1⟩⟩ := idx_facts t
  refine ⟨t, flush0_6 t, ?_⟩
  rw [mem_blk6]
  intro a
  match a with
  | ⟨0, _⟩ => show win0_6.index t 0 * 512 ≤ (i 0).val ∧ (i 0).val < win0_6.index t 0 * 512 + 512; rw [e0, ht]; omega
  | ⟨1, _⟩ => show win0_6.index t 1 * 1024 ≤ (i 1).val ∧ (i 1).val < win0_6.index t 1 * 1024 + 1024; rw [e1]; omega

/-- After the region, output window 6's array: row R, column e is (∑ d, x R d · W d e) + b e of the arrays the
    region found. -/
theorem final0_6 (c : Dev nD) : (dat0 V c).arrAt 6 cfg0.N
    = projArr (V c main_v0) (V c main_v3) (V c main_v6) :=
  (dat0 V c).arrAt_eq_of_cover 6 (projArr (V c main_v0) (V c main_v3) (V c main_v6)) (fun t _ => flushed6_eq V c t) cover6

/-- The same at row R and column e, with the three arrays the region found named. -/
theorem final0_6_apply (c : Dev nD) (X : S8192x1024.Idx → EReal) (W : S1024x1024.Idx → EReal) (b : S1x1024.Idx → EReal)
    (hX : V c main_v0 = X) (hW : V c main_v3 = W) (hb : V c main_v6 = b) (R : Fin 8192) (e : Fin 1024) :
    ((dat0 V c).arrAt 6 cfg0.N : S8192x1024.Idx → EReal) (ix2 R e)
      = (∑ d : Fin 1024, X (ix2 R d) * W (ix2 d e)) + b (ix2 0 e) := by
  subst hX hW hb
  exact congrFun (final0_6 V c) (ix2 R e)

end Cert.Attn.ValueKV

end
-- ==== Proof.EntryFacts.lean ====
import proofs.«147183_j52690658788033_2_alg».proof.Proof.IdealFrame.Run
import proofs.«147183_j52690658788033_2_alg».proof.Proof.HostFolds
import proofs.«147183_j52690658788033_2_alg».proof.Proof.ValueKV
import proofs.«147183_j52690658788033_2_alg».proof.Proof.Spec
import proofs.«147183_j52690658788033_2_alg».proof.Proof.LibVariance

/-
  What the attention region finds in its five input arrays, as functions of the program's seven arguments.

  The input batch, the query weights and the query bias reach the region as launched (no host operation and no
  region before it writes them; the narrowing of the weights to a shorter float format is exact on the extended
  reals, and the bias is only viewed as a one-row matrix). The key and the value arrays are the two arrays the
  projection region left, viewed one slab per batch entry: entry `(p, s, e)` is entry `(2048 p + s, e)` of the flat
  projection, which is row `2048 p + s` of the flattened input times the weights plus the bias, and row
  `2048 p + s` of the flattened input is row `s` of batch entry `p`. With real arguments every term is real, so
  the sum of products of extended reals is the real projection.
-/

set_option maxRecDepth 16384

noncomputable section

namespace Cert.Attn.EntryFacts

open Cert.KernelIdeal Cert.KernelIdeal.Gen Cert.KernelIdeal.Fr
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- A sum of products of real numbers plus a real number, computed on the extended reals, is the real one. -/
theorem coe_dot_add (f g : Fin 1024 → ℝ) (b : ℝ) :
    (∑ d : Fin 1024, ((f d : ℝ) : EReal) * ((g d : ℝ) : EReal)) + ((b : ℝ) : EReal)
      = (((∑ d : Fin 1024, f d * g d) + b : ℝ) : EReal) := by
  rw [EReal.coe_add, ← Cert.LibVariance.coe_sum]
  exact congrArg (· + ((b : ℝ) : EReal)) (Finset.sum_congr rfl fun d _ => (EReal.coe_mul _ _).symm)

/-! ## After the first host stretch -/

/-- Row `2048 a + b` of the flattened input is row `b` of batch entry `a`. -/
theorem v1_v0 (x : Arr3) (h0 : m ((c : Thread nD τ).loc main_arg0) = up3 x) (a : Fin 4) (b : Fin 2048) (R : Fin 8192)
    (hR : R.val = 2048 * a.val + b.val) (d : Fin 1024) :
    (V1 m ρ c main_v0 : S8192x1024.Idx → EReal) (ix2 R d) = ((x a b d : ℝ) : EReal) := by
  have ea : (⟨R.val / 2048, by have := R.isLt; omega⟩ : Fin 4) = a :=
    Fin.ext (by show R.val / 2048 = a.val; have := b.isLt; omega)
  have eb : (⟨R.val % 2048, by omega⟩ : Fin 2048) = b :=
    Fin.ext (by show R.val % 2048 = b.val; have := b.isLt; omega)
  refine (Cert.Attn.HostFolds.h0_v0 (W0 m ρ c) R d).trans ?_
  rw [ea, eb]
  exact congrFun h0 (ix3 a b d)

theorem v1_v1 (Wq : Mat) (h1 : m ((c : Thread nD τ).loc main_arg1) = up2 Wq) (d e : Fin 1024) :
    (V1 m ρ c main_v1 : S1024x1024.Idx → EReal) (ix2 d e) = ((Wq d e : ℝ) : EReal) :=
  (Cert.Attn.HostFolds.h0_v1 (W0 m ρ c) d e).trans (congrFun h1 (ix2 d e))

theorem v1_v2 (Wk : Mat) (h3 : m ((c : Thread nD τ).loc main_arg3) = up2 Wk) (d e : Fin 1024) :
    (V1 m ρ c main_v2 : S1024x1024.Idx → EReal) (ix2 d e) = ((Wk d e : ℝ) : EReal) :=
  (Cert.Attn.HostFolds.h0_v2 (W0 m ρ c) d e).trans (congrFun h3 (ix2 d e))

theorem v1_v3 (Wv : Mat) (h5 : m ((c : Thread nD τ).loc main_arg5) = up2 Wv) (d e : Fin 1024) :
    (V1 m ρ c main_v3 : S1024x1024.Idx → EReal) (ix2 d e) = ((Wv d e : ℝ) : EReal) :=
  (Cert.Attn.HostFolds.h0_v3 (W0 m ρ c) d e).trans (congrFun h5 (ix2 d e))

theorem v1_v4 (bq : Vec1) (h2 : m ((c : Thread nD τ).loc main_arg2) = up1 bq) (e : Fin 1024) :
    (V1 m ρ c main_v4 : S1x1024.Idx → EReal) (ix2 (0 : Fin 1) e) = ((bq e : ℝ) : EReal) :=
  (Cert.Attn.HostFolds.h0_v4 (W0 m ρ c) e).trans (congrFun h2 (ix1 e))

theorem v1_v5 (bk : Vec1) (h4 : m ((c : Thread nD τ).loc main_arg4) = up1 bk) (e : Fin 1024) :
    (V1 m ρ c main_v5 : S1x1024.Idx → EReal) (ix2 (0 : Fin 1) e) = ((bk e : ℝ) : EReal) :=
  (Cert.Attn.HostFolds.h0_v5 (W0 m ρ c) e).trans (congrFun h4 (ix1 e))

theorem v1_v6 (bv : Vec1) (h6 : m ((c : Thread nD τ).loc main_arg6) = up1 bv) (e : Fin 1024) :
    (V1 m ρ c main_v6 : S1x1024.Idx → EReal) (ix2 (0 : Fin 1) e) = ((bv e : ℝ) : EReal) :=
  (Cert.Attn.HostFolds.h0_v6 (W0 m ρ c) e).trans (congrFun h6 (ix1 e))

/-! ## What the projection region leaves -/

/-- The first output array of the projection region at row `2048 a + b`: the key projection of row `b` of batch
    entry `a`. -/
theorem kv5 (x : Arr3) (Wk : Mat) (bk : Vec1) (h0 : m ((c : Thread nD τ).loc main_arg0) = up3 x)
    (h3 : m ((c : Thread nD τ).loc main_arg3) = up2 Wk) (h4 : m ((c : Thread nD τ).loc main_arg4) = up1 bk)
    (a : Fin 4) (b : Fin 2048) (R : Fin 8192) (hR : R.val = 2048 * a.val + b.val) (e : Fin 1024) :
    ((dat0 (V1 m ρ) c).arrAt 5 cfg0.N : S8192x1024.Idx → EReal) (ix2 R e) = ((proj x Wk bk a b e : ℝ) : EReal) := by
  refine (Cert.Attn.ValueKV.final0_5_apply (V1 m ρ) c (V1 m ρ c main_v0 : S8192x1024.Idx → EReal)
    (V1 m ρ c main_v2 : S1024x1024.Idx → EReal) (V1 m ρ c main_v5 : S1x1024.Idx → EReal) rfl rfl rfl R e).trans ?_
  refine (congrArg₂ (fun u v : EReal => u + v)
    (Finset.sum_congr rfl fun d _ => congrArg₂ (fun u v : EReal => u * v) (v1_v0 m ρ c x h0 a b R hR d) (v1_v2 m ρ c Wk h3 d e))
    (v1_v5 m ρ c bk h4 e)).trans ?_
  exact coe_dot_add (fun d => x a b d) (fun d => Wk d e) (bk e)

/-- The second output array of the projection region at row `2048 a + b`: the value projection. -/
theorem kv6 (x : Arr3) (Wv : Mat) (bv : Vec1) (h0 : m ((c : Thread nD τ).loc main_arg0) = up3 x)
    (h5 : m ((c : Thread nD τ).loc main_arg5) = up2 Wv) (h6 : m ((c : Thread nD τ).loc main_arg6) = up1 bv)
    (a : Fin 4) (b : Fin 2048) (R : Fin 8192) (hR : R.val = 2048 * a.val + b.val) (e : Fin 1024) :
    ((dat0 (V1 m ρ) c).arrAt 6 cfg0.N : S8192x1024.Idx → EReal) (ix2 R e) = ((proj x Wv bv a b e : ℝ) : EReal) := by
  refine (Cert.Attn.ValueKV.final0_6_apply (V1 m ρ) c (V1 m ρ c main_v0 : S8192x1024.Idx → EReal)
    (V1 m ρ c main_v3 : S1024x1024.Idx → EReal) (V1 m ρ c main_v6 : S1x1024.Idx → EReal) rfl rfl rfl R e).trans ?_
  refine (congrArg₂ (fun u v : EReal => u + v)
    (Finset.sum_congr rfl fun d _ => congrArg₂ (fun u v : EReal => u * v) (v1_v0 m ρ c x h0 a b R hR d) (v1_v3 m ρ c Wv h5 d e))
    (v1_v6 m ρ c bv h6 e)).trans ?_
  exact coe_dot_add (fun d => x a b d) (fun d => Wv d e) (bv e)

/-! ## At the attention region's entry -/

/-- The input batch is as launched. -/
theorem e_arg0 (x : Arr3) (h0 : m ((c : Thread nD τ).loc main_arg0) = up3 x) :
    (V3 m ρ c main_arg0 : SX.Idx → EReal) = up3 x :=
  (Cert.Attn.HostFolds.h1_arg0 (W2 m ρ c)).trans
    ((W2_of_ne m ρ c main_arg0 (by decide)).trans ((Cert.Attn.HostFolds.h0_arg0 (W0 m ρ c)).trans h0))

/-- The query weights. -/
theorem e_v1 (Wq : Mat) (h1 : m ((c : Thread nD τ).loc main_arg1) = up2 Wq) (d e : Fin 1024) :
    (V3 m ρ c main_v1 : S1024x1024.Idx → EReal) (ix2 d e) = ((Wq d e : ℝ) : EReal) :=
  (congrFun ((Cert.Attn.HostFolds.h1_v1 (W2 m ρ c)).trans (W2_of_ne m ρ c main_v1 (by decide))) (ix2 d e)).trans
    (v1_v1 m ρ c Wq h1 d e)

/-- The query bias. -/
theorem e_v4 (bq : Vec1) (h2 : m ((c : Thread nD τ).loc main_arg2) = up1 bq) (e : Fin 1024) :
    (V3 m ρ c main_v4 : S1x1024.Idx → EReal) (ix2 (0 : Fin 1) e) = ((bq e : ℝ) : EReal) :=
  (congrFun ((Cert.Attn.HostFolds.h1_v4 (W2 m ρ c)).trans (W2_of_ne m ρ c main_v4 (by decide))) (ix2 (0 : Fin 1) e)).trans
    (v1_v4 m ρ c bq h2 e)

/-- The key array is the key projection. -/
theorem e_v8 (x : Arr3) (Wk : Mat) (bk : Vec1) (h0 : m ((c : Thread nD τ).loc main_arg0) = up3 x)
    (h3 : m ((c : Thread nD τ).loc main_arg3) = up2 Wk) (h4 : m ((c : Thread nD τ).loc main_arg4) = up1 bk)
    (p : Fin 4) (s : Fin 2048) (e : Fin 1024) :
    (V3 m ρ c main_v8 : S4x2048x1024.Idx → EReal) (ix3 p s e) = ((proj x Wk bk p s e : ℝ) : EReal) :=
  (Cert.Attn.HostFolds.h1_v8 (W2 m ρ c) p s e).trans
    ((congrFun (W2_arr m ρ c 5) _).trans
      (kv5 m ρ c x Wk bk h0 h3 h4 p s ⟨2048 * p.val + s.val, by have := p.isLt; have := s.isLt; omega⟩ rfl e))

/-- The value array is the value projection. -/
theorem e_v9 (x : Arr3) (Wv : Mat) (bv : Vec1) (h0 : m ((c : Thread nD τ).loc main_arg0) = up3 x)
    (h5 : m ((c : Thread nD τ).loc main_arg5) = up2 Wv) (h6 : m ((c : Thread nD τ).loc main_arg6) = up1 bv)
    (p : Fin 4) (s : Fin 2048) (e : Fin 1024) :
    (V3 m ρ c main_v9 : S4x2048x1024.Idx → EReal) (ix3 p s e) = ((proj x Wv bv p s e : ℝ) : EReal) :=
  (Cert.Attn.HostFolds.h1_v9 (W2 m ρ c) p s e).trans
    ((congrFun (W2_arr m ρ c 6) _).trans
      (kv6 m ρ c x Wv bv h0 h5 h6 p s ⟨2048 * p.val + s.val, by have := p.isLt; have := s.isLt; omega⟩ rfl e))

end Cert.Attn.EntryFacts

end
-- ==== Proof.IdealFrame.Pieces.lean ====
/-
  What the tiled-attention body's runs leave, read as values: every store of the body is of a whole buffer, so each
  buffer ends at the payload of its last store, and a load that follows a store into the same buffer reads that
  store's payload. Hence, in terms of the body's pure arithmetic (the skeleton's payloads):
  at the first key tile the query scratch ends at the scaled projection of the loads, and the other three scratch
  buffers at one tile's update of (initial maximum, zero, zero); at a later tile at the update of what they held;
  at the last tile the output block is the updated accumulator divided by the updated normaliser.
-/
import proofs.«147183_j52690658788033_2_alg».proof.Proof.IdealFrame.R1RunA
import proofs.«147183_j52690658788033_2_alg».proof.Proof.IdealFrame.R1RunB
import proofs.«147183_j52690658788033_2_alg».proof.Proof.IdealFrame.R1RunC
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

section A
variable (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond1_0 i) (hc1 : ¬cond1_1 i) (x0 : Vec F S1x512x1024 .f32) (x1 : Vec F S1024x1024 .bf16) (x2 : Vec F S1x1024 .f32) (x3 : Vec F S1x512x1024 .bf16) (x4 : Vec F S1x512x1024 .bf16)

theorem piecesA_0 : View.canon (kernelRun1_A (F := F) c i arg3 harg3 arg4 harg4 arg5 harg5 arg6 harg6 arg7 harg7 arg8 harg8 arg9 harg9 arg10 harg10 arg11 harg11 arg12 harg12 hc0 hc1 x0 x1 x2 x3 x4).1 = k1_pay7 x0 x1 x2 := by
  unfold kernelRun1_A
  dsimp only
  sl_unfold_words
  first
    | (refine (View.canon_cons_unit_zero hz2 _ _ _).trans ?_)
    | (refine (View.canon_cons_unit_zero hz3 _ _ _).trans ?_)
  simp only [View.readAt_eq_ld, Memref.IsWhole.read_unread, View.readCov_unit_zero (S := S512x1024) _ hz2, View.readCov_unit_zero (S := S512x1) _ hz2, View.ld_unit_zero (S := S512x1024) hz2, View.ld_unit_zero (S := S1024x1024) hz2, View.ld_unit_zero (S := S1x1024) hz2, View.ld_unit_zero (S := S512x1) hz2, View.ld_unit_zero (S := S1x512x1024) hz3]
  try rfl
theorem piecesA_1 : View.canon (kernelRun1_A (F := F) c i arg3 harg3 arg4 harg4 arg5 harg5 arg6 harg6 arg7 harg7 arg8 harg8 arg9 harg9 arg10 harg10 arg11 harg11 arg12 harg12 hc0 hc1 x0 x1 x2 x3 x4).2.1 = k1_pay2 (k1_pay10 (k1_pay7 x0 x1 x2) x3 k1_pay4) := by
  unfold kernelRun1_A
  dsimp only
  sl_unfold_words
  first
    | (refine (View.canon_cons_unit_zero hz2 _ _ _).trans ?_)
    | (refine (View.canon_cons_unit_zero hz3 _ _ _).trans ?_)
  simp only [View.readAt_eq_ld, Memref.IsWhole.read_unread, View.readCov_unit_zero (S := S512x1024) _ hz2, View.readCov_unit_zero (S := S512x1) _ hz2, View.ld_unit_zero (S := S512x1024) hz2, View.ld_unit_zero (S := S1024x1024) hz2, View.ld_unit_zero (S := S1x1024) hz2, View.ld_unit_zero (S := S512x1) hz2, View.ld_unit_zero (S := S1x512x1024) hz3]
  try rfl
theorem piecesA_2 : View.canon (kernelRun1_A (F := F) c i arg3 harg3 arg4 harg4 arg5 harg5 arg6 harg6 arg7 harg7 arg8 harg8 arg9 harg9 arg10 harg10 arg11 harg11 arg12 harg12 hc0 hc1 x0 x1 x2 x3 x4).2.2.1 = k1_pay13 (k1_pay7 x0 x1 x2) x3 k1_pay4 k1_pay4 k1_pay5 := by
  unfold kernelRun1_A
  dsimp only
  sl_unfold_words
  first
    | (refine (View.canon_cons_unit_zero hz2 _ _ _).trans ?_)
    | (refine (View.canon_cons_unit_zero hz3 _ _ _).trans ?_)
  simp only [View.readAt_eq_ld, Memref.IsWhole.read_unread, View.readCov_unit_zero (S := S512x1024) _ hz2, View.readCov_unit_zero (S := S512x1) _ hz2, View.ld_unit_zero (S := S512x1024) hz2, View.ld_unit_zero (S := S1024x1024) hz2, View.ld_unit_zero (S := S1x1024) hz2, View.ld_unit_zero (S := S512x1) hz2, View.ld_unit_zero (S := S1x512x1024) hz3]
  try rfl
theorem piecesA_3 : View.canon (kernelRun1_A (F := F) c i arg3 harg3 arg4 harg4 arg5 harg5 arg6 harg6 arg7 harg7 arg8 harg8 arg9 harg9 arg10 harg10 arg11 harg11 arg12 harg12 hc0 hc1 x0 x1 x2 x3 x4).2.2.2.1
    = k1_pay1 (k1_pay8 x4) (k1_pay14 (k1_pay7 x0 x1 x2) x3 k1_pay4 k1_pay4 k1_pay6) (k1_pay15 (k1_pay7 x0 x1 x2) x3 k1_pay4) (constant S512x1024 .f32 0x00000000#32) := by
  unfold kernelRun1_A
  dsimp only
  sl_unfold_words
  first
    | (refine (View.canon_cons_unit_zero hz2 _ _ _).trans ?_)
    | (refine (View.canon_cons_unit_zero hz3 _ _ _).trans ?_)
  simp only [View.readAt_eq_ld, Memref.IsWhole.read_unread, View.readCov_unit_zero (S := S512x1024) _ hz2, View.readCov_unit_zero (S := S512x1) _ hz2, View.ld_unit_zero (S := S512x1024) hz2, View.ld_unit_zero (S := S1024x1024) hz2, View.ld_unit_zero (S := S1x1024) hz2, View.ld_unit_zero (S := S512x1) hz2, View.ld_unit_zero (S := S1x512x1024) hz3]
  try rfl
end A

section BC
variable (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (x0 : Vec F S1x512x1024 .f32) (x1 : Vec F S1024x1024 .bf16) (x2 : Vec F S1x1024 .f32) (x3 : Vec F S1x512x1024 .bf16) (x4 : Vec F S1x512x1024 .bf16) (xs0 : Vec F S512x1024 .bf16) (xs1 : Vec F S512x1 .f32) (xs2 : Vec F S512x1 .f32) (xs3 : Vec F S512x1024 .f32)

theorem piecesB_1 (hc0 : ¬cond1_0 i) (hc1 : ¬cond1_1 i) : View.canon (kernelRun1_B (F := F) c i arg3 harg3 arg4 harg4 arg5 harg5 arg6 harg6 arg7 harg7 arg8 harg8 arg9 harg9 arg10 harg10 arg11 harg11 arg12 harg12 hc0 hc1 x0 x1 x2 x3 x4 xs0 xs1 xs2 xs3).1 = k1_pay2 (k1_pay10 xs0 x3 xs1) := by
  unfold kernelRun1_B
  dsimp only
  sl_unfold_words
  first
    | (refine (View.canon_cons_unit_zero hz2 _ _ _).trans ?_)
    | (refine (View.canon_cons_unit_zero hz3 _ _ _).trans ?_)
  simp only [View.readAt_eq_ld, Memref.IsWhole.read_unread, View.readCov_unit_zero (S := S512x1024) _ hz2, View.readCov_unit_zero (S := S512x1) _ hz2, View.ld_unit_zero (S := S512x1024) hz2, View.ld_unit_zero (S := S1024x1024) hz2, View.ld_unit_zero (S := S1x1024) hz2, View.ld_unit_zero (S := S512x1) hz2, View.ld_unit_zero (S := S1x512x1024) hz3]
  try rfl
theorem piecesB_2 (hc0 : ¬cond1_0 i) (hc1 : ¬cond1_1 i) : View.canon (kernelRun1_B (F := F) c i arg3 harg3 arg4 harg4 arg5 harg5 arg6 harg6 arg7 harg7 arg8 harg8 arg9 harg9 arg10 harg10 arg11 harg11 arg12 harg12 hc0 hc1 x0 x1 x2 x3 x4 xs0 xs1 xs2 xs3).2.1 = k1_pay13 xs0 x3 xs1 xs1 xs2 := by
  unfold kernelRun1_B
  dsimp only
  sl_unfold_words
  first
    | (refine (View.canon_cons_unit_zero hz2 _ _ _).trans ?_)
    | (refine (View.canon_cons_unit_zero hz3 _ _ _).trans ?_)
  simp only [View.readAt_eq_ld, Memref.IsWhole.read_unread, View.readCov_unit_zero (S := S512x1024) _ hz2, View.readCov_unit_zero (S := S512x1) _ hz2, View.ld_unit_zero (S := S512x1024) hz2, View.ld_unit_zero (S := S1024x1024) hz2, View.ld_unit_zero (S := S1x1024) hz2, View.ld_unit_zero (S := S512x1) hz2, View.ld_unit_zero (S := S1x512x1024) hz3]
  try rfl
theorem piecesB_3 (hc0 : ¬cond1_0 i) (hc1 : ¬cond1_1 i) : View.canon (kernelRun1_B (F := F) c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1
    = k1_pay1 (k1_pay8 x4) (k1_pay14 xs0 x3 xs1 xs1 xs3) (k1_pay15 xs0 x3 xs1) (constant S512x1024 .f32 0x00000000#32) := by
  unfold kernelRun1_B
  dsimp only
  sl_unfold_words
  first
    | (refine (View.canon_cons_unit_zero hz2 _ _ _).trans ?_)
    | (refine (View.canon_cons_unit_zero hz3 _ _ _).trans ?_)
  simp only [View.readAt_eq_ld, Memref.IsWhole.read_unread, View.readCov_unit_zero (S := S512x1024) _ hz2, View.readCov_unit_zero (S := S512x1) _ hz2, View.ld_unit_zero (S := S512x1024) hz2, View.ld_unit_zero (S := S1024x1024) hz2, View.ld_unit_zero (S := S1x1024) hz2, View.ld_unit_zero (S := S512x1) hz2, View.ld_unit_zero (S := S1x512x1024) hz3]
  try rfl

theorem piecesC_1 (hc0 : ¬cond1_0 i) (hc1 : cond1_1 i) : View.canon (kernelRun1_C (F := F) c i arg3 harg3 arg4 harg4 arg5 harg5 arg6 harg6 arg7 harg7 arg8 harg8 arg9 harg9 arg10 harg10 arg11 harg11 arg12 harg12 hc0 hc1 x0 x1 x2 x3 x4 xs0 xs1 xs2 xs3).2.1 = k1_pay2 (k1_pay10 xs0 x3 xs1) := by
  unfold kernelRun1_C
  dsimp only
  sl_unfold_words
  first
    | (refine (View.canon_cons_unit_zero hz2 _ _ _).trans ?_)
    | (refine (View.canon_cons_unit_zero hz3 _ _ _).trans ?_)
  simp only [View.readAt_eq_ld, Memref.IsWhole.read_unread, View.readCov_unit_zero (S := S512x1024) _ hz2, View.readCov_unit_zero (S := S512x1) _ hz2, View.ld_unit_zero (S := S512x1024) hz2, View.ld_unit_zero (S := S1024x1024) hz2, View.ld_unit_zero (S := S1x1024) hz2, View.ld_unit_zero (S := S512x1) hz2, View.ld_unit_zero (S := S1x512x1024) hz3]
  try rfl
theorem piecesC_2 (hc0 : ¬cond1_0 i) (hc1 : cond1_1 i) : View.canon (kernelRun1_C (F := F) c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1 = k1_pay13 xs0 x3 xs1 xs1 xs2 := by
  unfold kernelRun1_C
  dsimp only
  sl_unfold_words
  first
    | (refine (View.canon_cons_unit_zero hz2 _ _ _).trans ?_)
    | (refine (View.canon_cons_unit_zero hz3 _ _ _).trans ?_)
  simp only [View.readAt_eq_ld, Memref.IsWhole.read_unread, View.readCov_unit_zero (S := S512x1024) _ hz2, View.readCov_unit_zero (S := S512x1) _ hz2, View.ld_unit_zero (S := S512x1024) hz2, View.ld_unit_zero (S := S1024x1024) hz2, View.ld_unit_zero (S := S1x1024) hz2, View.ld_unit_zero (S := S512x1) hz2, View.ld_unit_zero (S := S1x512x1024) hz3]
  try rfl
theorem piecesC_3 (hc0 : ¬cond1_0 i) (hc1 : cond1_1 i) : View.canon (kernelRun1_C (F := F) c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1
    = k1_pay1 (k1_pay8 x4) (k1_pay14 xs0 x3 xs1 xs1 xs3) (k1_pay15 xs0 x3 xs1) (constant S512x1024 .f32 0x00000000#32) := by
  unfold kernelRun1_C
  dsimp only
  sl_unfold_words
  first
    | (refine (View.canon_cons_unit_zero hz2 _ _ _).trans ?_)
    | (refine (View.canon_cons_unit_zero hz3 _ _ _).trans ?_)
  simp only [View.readAt_eq_ld, Memref.IsWhole.read_unread, View.readCov_unit_zero (S := S512x1024) _ hz2, View.readCov_unit_zero (S := S512x1) _ hz2, View.ld_unit_zero (S := S512x1024) hz2, View.ld_unit_zero (S := S1024x1024) hz2, View.ld_unit_zero (S := S1x1024) hz2, View.ld_unit_zero (S := S512x1) hz2, View.ld_unit_zero (S := S1x512x1024) hz3]
  try rfl
theorem piecesC_5 (hc0 : ¬cond1_0 i) (hc1 : cond1_1 i) : View.canon (kernelRun1_C (F := F) c i arg3 harg3 arg4 harg4 arg5 harg5 arg6 harg6 arg7 harg7 arg8 harg8 arg9 harg9 arg10 harg10 arg11 harg11 arg12 harg12 hc0 hc1 x0 x1 x2 x3 x4 xs0 xs1 xs2 xs3).1
    = k1_pay3 (k1_pay1 (k1_pay8 x4) (k1_pay14 xs0 x3 xs1 xs1 xs3) (k1_pay15 xs0 x3 xs1) (constant S512x1024 .f32 0x00000000#32)) (k1_pay13 xs0 x3 xs1 xs1 xs2) := by
  unfold kernelRun1_C
  dsimp only
  sl_unfold_words
  first
    | (refine (View.canon_cons_unit_zero hz2 _ _ _).trans ?_)
    | (refine (View.canon_cons_unit_zero hz3 _ _ _).trans ?_)
  simp only [View.readAt_eq_ld, Memref.IsWhole.read_unread, View.readCov_unit_zero (S := S512x1024) _ hz2, View.readCov_unit_zero (S := S512x1) _ hz2, View.ld_unit_zero (S := S512x1024) hz2, View.ld_unit_zero (S := S1024x1024) hz2, View.ld_unit_zero (S := S1x1024) hz2, View.ld_unit_zero (S := S512x1) hz2, View.ld_unit_zero (S := S1x512x1024) hz3]
  try rfl
end BC

end Cert.KernelIdeal.Fr

end
-- ==== Proof.LibSumRuns.lean ====
/-
  A finite sum cut into consecutive runs.

  A sum over `n + n + n + n` terms is the sum of its four consecutive runs of `n` terms, added left to right. Only
  associativity and commutativity of addition are used, so the law holds in any additive commutative monoid — on the
  extended reals with no finiteness asked of the terms. It is what joins a contraction computed in four column pieces
  (four partial products accumulated left to right) to the contraction over the whole axis.
-/
import Mathlib.Algebra.BigOperators.Fin

open scoped BigOperators

namespace Cert.LibSumRuns

/-- A sum over `n + n + n + n` terms is the sum of its four consecutive runs of `n`, added left to right: run `g`
    holds the terms `g·n … g·n + n − 1`. -/
theorem sum_four_runs {M : Type*} [AddCommMonoid M] {N : Nat} (n : Nat) (hN : N = n + n + n + n) (f : Fin N → M) :
    ∑ k : Fin N, f k =
      (((∑ k : Fin n, f ⟨k.val, by omega⟩) + ∑ k : Fin n, f ⟨n + k.val, by omega⟩)
        + ∑ k : Fin n, f ⟨n + n + k.val, by omega⟩) + ∑ k : Fin n, f ⟨n + n + n + k.val, by omega⟩ := by
  subst hN
  rw [Fin.sum_univ_add, Fin.sum_univ_add, Fin.sum_univ_add]
  rfl

end Cert.LibSumRuns
-- ==== Proof.Online.lean ====
/-
  A softmax-weighted average computed tile by tile with a running maximum is the plain weighted average.

  The key rows are walked in 4 consecutive tiles of 512 rows.  The walk keeps a running maximum m, a
  normaliser l and an accumulator a.  One tile with scores sc and values vv replaces (m, l, a) by
      m' = max m (max_t sc t),
      l' = exp (m - m') · l + ∑_t exp (sc t - m'),
      a' = exp (m - m') · a + ∑_t exp (sc t - m') · vv t.
  The invariant is that  l · exp m  and  a · exp m  are the sums of  exp (score)  and of  exp (score) · value
  over the rows walked so far:  exp (m - m') · l · exp m' = l · exp m  and  exp (s - m') · exp m' = exp s.
  After the 4 tiles the quotient a / l is therefore the plain quotient of the two sums over all 2048 rows,
  whatever real number the running maximum started from.

  The second part carries real arithmetic through the operations on extended reals: on real arguments
  max, -, ·, +, exp and a division by a nonzero real return the real result, a fold of max from -∞ over
  the 512 reals of a tile is their maximum, and three single-precision patterns denote real numbers.
-/
import Idealize.ShloMosaic.PureOps.Ideal
import proofs.«147183_j52690658788033_2_alg».proof.Proof.LibSumRuns

open scoped BigOperators

noncomputable section

namespace Cert.Attn.Online

/-- One tile's update of the running maximum. sc t is the score of key row t of the tile. -/
def mNext (m : ℝ) (sc : Fin 512 → ℝ) : ℝ := max m (Finset.univ.sup' Finset.univ_nonempty sc)

/-- One tile's update of the normaliser. -/
def lNext (m l : ℝ) (sc : Fin 512 → ℝ) : ℝ :=
  Real.exp (m - mNext m sc) * l + ∑ t : Fin 512, Real.exp (sc t - mNext m sc)

/-- One tile's update of the accumulator. vv t is the value entry of row t in the output column at hand. -/
def aNext (m a : ℝ) (sc vv : Fin 512 → ℝ) : ℝ :=
  Real.exp (m - mNext m sc) * a + ∑ t : Fin 512, Real.exp (sc t - mNext m sc) * vv t

/-- The state (m, l, a) after the first n tiles (n ≤ 4), from (m0, 0, 0). -/
def state (m0 : ℝ) (sc vv : Fin 4 → Fin 512 → ℝ) : ℕ → ℝ × ℝ × ℝ
  | 0 => (m0, 0, 0)
  | n + 1 => if h : n < 4 then
      let s := state m0 sc vv n
      (mNext s.1 (sc ⟨n, h⟩), lNext s.1 s.2.1 (sc ⟨n, h⟩), aNext s.1 s.2.2 (sc ⟨n, h⟩) (vv ⟨n, h⟩))
    else state m0 sc vv n

theorem state_zero (m0 : ℝ) (sc vv : Fin 4 → Fin 512 → ℝ) : state m0 sc vv 0 = (m0, 0, 0) := rfl

/-- The state after one more tile. -/
theorem state_succ (m0 : ℝ) (sc vv : Fin 4 → Fin 512 → ℝ) (n : ℕ) (h : n < 4) :
    state m0 sc vv (n + 1) =
      (mNext (state m0 sc vv n).1 (sc ⟨n, h⟩),
       lNext (state m0 sc vv n).1 (state m0 sc vv n).2.1 (sc ⟨n, h⟩),
       aNext (state m0 sc vv n).1 (state m0 sc vv n).2.2 (sc ⟨n, h⟩) (vv ⟨n, h⟩)) := by
  rw [state, dif_pos h]

/-- The new normaliser times the exponential of the new maximum: the old product plus the tile's sum. -/
theorem lNext_mul_exp (m l : ℝ) (sc : Fin 512 → ℝ) :
    lNext m l sc * Real.exp (mNext m sc) = l * Real.exp m + ∑ t : Fin 512, Real.exp (sc t) := by
  unfold lNext
  rw [add_mul, Finset.sum_mul]
  congr 1
  · rw [mul_right_comm, ← Real.exp_add, sub_add_cancel, mul_comm]
  · exact Finset.sum_congr rfl fun t _ => by rw [← Real.exp_add, sub_add_cancel]

/-- The new accumulator times the exponential of the new maximum: the old product plus the tile's weighted sum. -/
theorem aNext_mul_exp (m a : ℝ) (sc vv : Fin 512 → ℝ) :
    aNext m a sc vv * Real.exp (mNext m sc) = a * Real.exp m + ∑ t : Fin 512, Real.exp (sc t) * vv t := by
  unfold aNext
  rw [add_mul, Finset.sum_mul]
  congr 1
  · rw [mul_right_comm, ← Real.exp_add, sub_add_cancel, mul_comm]
  · exact Finset.sum_congr rfl fun t _ => by rw [mul_right_comm, ← Real.exp_add, sub_add_cancel]

/-- The sum of the first n + 1 of four terms is the sum of the first n plus the term n. -/
theorem sum_lt_succ (f : Fin 4 → ℝ) (n : ℕ) (h : n < 4) :
    (∑ j : Fin 4, (if j.val < n + 1 then f j else 0)) = (∑ j : Fin 4, (if j.val < n then f j else 0)) + f ⟨n, h⟩ := by
  have key : ∀ j : Fin 4, (if j.val < n + 1 then f j else 0)
      = (if j.val < n then f j else 0) + (if j = ⟨n, h⟩ then f j else 0) := by
    intro j
    by_cases h1 : j.val < n
    · have h2 : j ≠ ⟨n, h⟩ := fun e => by rw [e] at h1; exact lt_irrefl _ h1
      rw [if_pos h1, if_pos (Nat.lt_succ_of_lt h1), if_neg h2, add_zero]
    · by_cases h2 : j = ⟨n, h⟩
      · have h3 : j.val < n + 1 := by rw [h2]; exact Nat.lt_succ_self n
        rw [if_neg h1, if_pos h3, if_pos h2, zero_add]
      · have h3 : ¬ j.val < n + 1 := fun h3 => h2 (Fin.ext (by show j.val = n; omega))
        rw [if_neg h1, if_neg h3, if_neg h2, add_zero]
  rw [Finset.sum_congr rfl fun j _ => key j, Finset.sum_add_distrib, Finset.sum_ite_eq' Finset.univ ⟨n, h⟩ f,
    if_pos (Finset.mem_univ _)]

/-- The invariant: after n tiles, l · exp m and a · exp m are the sums over the rows of the first n tiles. -/
theorem state_inv (m0 : ℝ) (sc vv : Fin 4 → Fin 512 → ℝ) (n : ℕ) (hn : n ≤ 4) :
    (state m0 sc vv n).2.1 * Real.exp (state m0 sc vv n).1
        = ∑ j : Fin 4, (if j.val < n then ∑ t : Fin 512, Real.exp (sc j t) else 0)
    ∧ (state m0 sc vv n).2.2 * Real.exp (state m0 sc vv n).1
        = ∑ j : Fin 4, (if j.val < n then ∑ t : Fin 512, Real.exp (sc j t) * vv j t else 0) := by
  induction n with
  | zero => simp [state]
  | succ n ih =>
    have h : n < 4 := hn
    obtain ⟨ihl, iha⟩ := ih (Nat.le_of_lt h)
    rw [state_succ m0 sc vv n h]
    refine ⟨?_, ?_⟩
    · show lNext _ _ _ * Real.exp (mNext _ _) = _
      rw [lNext_mul_exp, ihl, sum_lt_succ (fun j => ∑ t : Fin 512, Real.exp (sc j t)) n h]
    · show aNext _ _ _ _ * Real.exp (mNext _ _) = _
      rw [aNext_mul_exp, iha, sum_lt_succ (fun j => ∑ t : Fin 512, Real.exp (sc j t) * vv j t) n h]

/-- After the 4 tiles, l · exp m is the sum of the exponentials of all scores. -/
theorem state_l_four (m0 : ℝ) (sc vv : Fin 4 → Fin 512 → ℝ) :
    (state m0 sc vv 4).2.1 * Real.exp (state m0 sc vv 4).1 = ∑ j : Fin 4, ∑ t : Fin 512, Real.exp (sc j t) :=
  (state_inv m0 sc vv 4 le_rfl).1.trans (Finset.sum_congr rfl fun j _ => if_pos j.isLt)

/-- After the 4 tiles, a · exp m is the sum of the exponentials of all scores times the values. -/
theorem state_a_four (m0 : ℝ) (sc vv : Fin 4 → Fin 512 → ℝ) :
    (state m0 sc vv 4).2.2 * Real.exp (state m0 sc vv 4).1
      = ∑ j : Fin 4, ∑ t : Fin 512, Real.exp (sc j t) * vv j t :=
  (state_inv m0 sc vv 4 le_rfl).2.trans (Finset.sum_congr rfl fun j _ => if_pos j.isLt)

/-- The normaliser after the 4 tiles is positive. -/
theorem state_pos (m0 : ℝ) (sc vv : Fin 4 → Fin 512 → ℝ) : 0 < (state m0 sc vv 4).2.1 := by
  have hS : 0 < ∑ j : Fin 4, ∑ t : Fin 512, Real.exp (sc j t) :=
    Finset.sum_pos (fun j _ => Finset.sum_pos (fun t _ => Real.exp_pos _) Finset.univ_nonempty)
      Finset.univ_nonempty
  rw [← state_l_four m0 sc vv] at hS
  exact (mul_pos_iff_of_pos_right (Real.exp_pos _)).mp hS

/-- The result of the tiled scheme is the plain weighted average over the rows of the 4 tiles. -/
theorem tiled_eq_tiles (m0 : ℝ) (sc vv : Fin 4 → Fin 512 → ℝ) :
    (state m0 sc vv 4).2.2 / (state m0 sc vv 4).2.1
      = (∑ j : Fin 4, ∑ t : Fin 512, Real.exp (sc j t) * vv j t) / (∑ j : Fin 4, ∑ t : Fin 512, Real.exp (sc j t)) := by
  rw [← state_l_four m0 sc vv, ← state_a_four m0 sc vv]
  exact (mul_div_mul_right _ _ (Real.exp_pos _).ne').symm

/-- A sum over the 2048 rows, taken tile by tile: row 512·j + t is row t of tile j. -/
theorem sum_tiles (F : Fin 2048 → ℝ) :
    (∑ j : Fin 4, ∑ t : Fin 512, F ⟨512 * j.val + t.val, by omega⟩) = ∑ T : Fin 2048, F T := by
  rw [Cert.LibSumRuns.sum_four_runs 512 rfl F, Fin.sum_univ_four]
  refine congrArg₂ (· + ·) (congrArg₂ (· + ·) (congrArg₂ (· + ·) ?_ ?_) ?_) ?_ <;>
    exact Finset.sum_congr rfl fun t _ => congrArg F (Fin.ext (by simp))

/-- The result of the tiled scheme is the plain weighted average over all 2048 key rows (row T = 512·j + t). -/
theorem tiled_eq (m0 : ℝ) (S : Fin 2048 → ℝ) (V : Fin 2048 → ℝ) :
    (state m0 (fun j t => S ⟨512 * j.val + t.val, by omega⟩) (fun j t => V ⟨512 * j.val + t.val, by omega⟩) 4).2.2
      / (state m0 (fun j t => S ⟨512 * j.val + t.val, by omega⟩) (fun j t => V ⟨512 * j.val + t.val, by omega⟩) 4).2.1
    = (∑ T : Fin 2048, Real.exp (S T) * V T) / (∑ T : Fin 2048, Real.exp (S T)) := by
  rw [tiled_eq_tiles, ← sum_tiles (fun T => Real.exp (S T) * V T), ← sum_tiles (fun T => Real.exp (S T))]

end Cert.Attn.Online

namespace Cert.Attn.OnlineE

open Idealize.ShloMosaic Cert.Attn.Online

/-! ## Real arithmetic carried through the operations on extended reals -/

theorem max_coe (a b : ℝ) : max (a : EReal) (b : EReal) = ((max a b : ℝ) : EReal) :=
  (EReal.coe_strictMono.monotone.map_max (a := a) (b := b)).symm

theorem sub_coe (a b : ℝ) : (a : EReal) - (b : EReal) = ((a - b : ℝ) : EReal) := (EReal.coe_sub a b).symm

theorem mul_coe (a b : ℝ) : (a : EReal) * (b : EReal) = ((a * b : ℝ) : EReal) := (EReal.coe_mul a b).symm

theorem add_coe (a b : ℝ) : (a : EReal) + (b : EReal) = ((a + b : ℝ) : EReal) := (EReal.coe_add a b).symm

theorem exp_coe (a : ℝ) : Ideal.exp (a : EReal) = ((Real.exp a : ℝ) : EReal) := rfl

/-- A quotient of reals by a nonzero real. -/
theorem div_coe (a b : ℝ) (hb : b ≠ 0) : Ideal.div (a : EReal) (b : EReal) = ((a / b : ℝ) : EReal) := by
  rw [Ideal.div_coe hb, ← EReal.coe_mul, mul_one_div]

/-- The fold of max from -∞ over finitely many reals (at least one) is their maximum. -/
theorem fold_max_coe {ι : Type*} (s : Finset ι) (hs : s.Nonempty) (f : ι → ℝ) :
    s.fold max (⊥ : EReal) (fun t => ((f t : ℝ) : EReal)) = ((s.sup' hs f : ℝ) : EReal) := by
  rw [Finset.comp_sup'_eq_sup'_comp hs (fun r : ℝ => (r : EReal)) (fun a b => (max_coe a b).symm), Finset.sup'_eq_sup]
  rfl

/-- The fold of max from -∞ over the 512 scores of a tile is their maximum. -/
theorem fold_max_tile (sc : Fin 512 → ℝ) :
    (Finset.univ : Finset (Fin 512)).fold max (⊥ : EReal) (fun t => ((sc t : ℝ) : EReal))
      = ((Finset.univ.sup' Finset.univ_nonempty sc : ℝ) : EReal) :=
  fold_max_coe Finset.univ Finset.univ_nonempty sc

/-- The running maximum joined with a tile's maximum is the next running maximum. -/
theorem max_fold_tile (m : ℝ) (sc : Fin 512 → ℝ) :
    max (m : EReal) ((Finset.univ : Finset (Fin 512)).fold max (⊥ : EReal) (fun t => ((sc t : ℝ) : EReal)))
      = ((mNext m sc : ℝ) : EReal) := by
  rw [fold_max_tile, max_coe]
  rfl

/-! ## Single-precision patterns as extended reals -/

/-- The pattern with sign bit, all exponent bits set and no fraction bits denotes -∞. -/
theorem ofBits_neg_inf : Ideal.ofBits .f32 0xFF800000#32 = ⊥ := by
  simp [Ideal.ofBits, Ideal.ieee]

/-- The pattern of sign 1, exponent 254 and fraction 0x333332 denotes the real -(2^23 + 3355442) · 2^104. -/
theorem ofBits_mask : Ideal.ofBits .f32 0xFF333332#32 = ((-(11744050 * 2 ^ 104) : ℝ) : EReal) := by
  simp [Ideal.ofBits, Ideal.ieee, -EReal.coe_mul]

/-- That pattern denotes a real number. -/
theorem ofBits_mask_real : ∃ r : ℝ, Ideal.ofBits .f32 0xFF333332#32 = (r : EReal) := ⟨_, ofBits_mask⟩

/-- The all-zero pattern denotes 0. -/
theorem ofBits_zero : Ideal.ofBits .f32 0x00000000#32 = 0 := by
  simp [Ideal.ofBits, Ideal.ieee]

/-- The pattern of exponent 122 and no fraction bits denotes 2^(-5) = 1/32. -/
theorem ofBits_inv32 : Ideal.ofBits .f32 0x3D000000#32 = ((1 / 32 : ℝ) : EReal) := by
  simp [Ideal.ofBits, Ideal.ieee, -EReal.coe_mul]; norm_num

end Cert.Attn.OnlineE

end
-- ==== Proof.PayFlash.lean ====
import proofs.«147183_j52690658788033_2_alg».proof.Proof.Gen.KernelIdeal.Skeleton
import proofs.«147183_j52690658788033_2_alg».proof.Proof.LibRowOps
import proofs.«147183_j52690658788033_2_alg».proof.Proof.LibMatmulNT
import proofs.«147183_j52690658788033_2_alg».proof.Proof.LibRowMax
import proofs.«147183_j52690658788033_2_alg».proof.Proof.LibColumn
import proofs.«147183_j52690658788033_2_alg».proof.Proof.LibUnitColumn
import proofs.«147183_j52690658788033_2_alg».proof.Proof.LibUnitAxis
import Idealize.ShloMosaic.Lib.ValueLayout
import Idealize.ShloMosaic.PureOps.Ideal.Laws

noncomputable section

namespace Cert.Attn.PayFlash

open Idealize.ShloMosaic Idealize.ShloMosaic.ValueIdx Cert.KernelIdeal Cert.KernelIdeal.Gen

/-- A product into a zero accumulator plus a row broadcast over all rows, read at `(r, e)`: the sum over the
    contracted coordinate plus the row's entry of column `e`. -/
theorem proj_apply (x : FVec Ideal S512x1024 .bf16) (w : FVec Ideal S1024x1024 .bf16) (b : FVec Ideal S1x1024 .f32)
    (r : Fin 512) (e : Fin 1024) :
    addf (matmul dot_S512x1024_S1024x1024_S512x1024_1_0_0_1_n_n none x w (constant S512x1024 .f32 0x00000000#32))
        (broadcastTo S512x1024 b broadcasts_S1x1024_S512x1024) (ix2 r e)
      = (∑ d : Fin 1024, x (ix2 r d) * w (ix2 d e)) + b (ix2 0 e) :=
  congrArg₂ (· + ·)
    (Cert.LibRowOps.matmul_zero_apply dot_S512x1024_S1024x1024_S512x1024_1_0_0_1_n_n none x w rfl rfl
      (fun _ _ => rfl) (fun _ _ => rfl) (fun _ _ => rfl) (fun _ _ => rfl) r e)
    (broadcastTo_1b_ab_apply b broadcasts_S1x1024_S512x1024 r e)

/-- The score tile: the query tile times the transposed key tile, read at `(r, t)`. -/
theorem pay9_apply (v3 : FVec Ideal S512x1024 .bf16) (v4 : FVec Ideal S1x512x1024 .bf16) (r t : Fin 512) :
    k1_pay9 (F := Ideal) v3 v4 (ix2 r t) = ∑ d : Fin 1024, v3 (ix2 r d) * v4 (ix3 0 t d) := by
  unfold k1_pay9
  refine (Cert.LibMatmulNT.matmul_nt_zero_apply dot_S512x1024_S512x1024_S512x512_1_1_0_0_n_n none v3 _ rfl rfl
    (fun _ _ => rfl) (fun _ _ => rfl) (fun _ _ => rfl) (fun _ _ => rfl) r t).trans ?_
  exact Finset.sum_congr rfl fun d _ => congrArg (v3 (ix2 r d) * ·) (Cert.LibUnitAxis.dropUnit_apply v4 _ t d)

/-- The scaled query projection, read at `(r, e)`. -/
theorem pay7_apply (v54 : FVec Ideal S1x512x1024 .f32) (v57 : FVec Ideal S1024x1024 .bf16) (v60 : FVec Ideal S1x1024 .f32)
    (r : Fin 512) (e : Fin 1024) :
    k1_pay7 (F := Ideal) v54 v57 v60 (ix2 r e)
      = ((∑ d : Fin 1024, v54 (ix3 0 r d) * v57 (ix2 d e)) + v60 (ix2 0 e)) * Ideal.ofBits .f32 0x3D000000#32 := by
  unfold k1_pay7
  refine (congrFun (shapeCast_self _ shapeCasts_S512x1024_S512x1024) (ix2 r e)).trans ?_
  refine congrArg (· * Ideal.ofBits .f32 0x3D000000#32) ((proj_apply _ _ _ r e).trans ?_)
  exact congrArg₂ (· + ·)
    (Finset.sum_congr rfl fun d _ => congrArg₂ (· * ·)
      (Cert.LibUnitAxis.dropUnit_apply v54 shapeCasts_S1x512x1024_S512x1024 r d)
      (congrFun (shapeCast_self v57 shapeCasts_S1024x1024_S1024x1024) (ix2 d e)))
    (congrFun (shapeCast_self v60 shapeCasts_S1x1024_S1x1024) (ix2 0 e))

/-- The accumulator update: the rescaled accumulator plus the weight tile times the value tile, read at `(r, e)`. -/
theorem pay1_apply (v7 : FVec Ideal S512x1024 .bf16) (v29 : FVec Ideal S512x1024 .f32) (v30 : FVec Ideal S512x512 .bf16)
    (r : Fin 512) (e : Fin 1024) :
    k1_pay1 (F := Ideal) v7 v29 v30 (constant S512x1024 .f32 0x00000000#32) (ix2 r e)
      = v29 (ix2 r e) + ∑ t : Fin 512, v30 (ix2 r t) * v7 (ix2 t e) := by
  unfold k1_pay1
  refine (congrFun (shapeCast_self _ shapeCasts_S512x1024_S512x1024) (ix2 r e)).trans ?_
  exact congrArg (v29 (ix2 r e) + ·)
    (Cert.LibRowOps.matmul_zero_apply dot_S512x512_S512x1024_S512x1024_1_0_0_1_n_n none v30 v7 rfl rfl
      (fun _ _ => rfl) (fun _ _ => rfl) (fun _ _ => rfl) (fun _ _ => rfl) r e)

/-- The output block: the accumulator divided by the row's normaliser, read at `(0, r, e)`. -/
theorem pay3_apply (v42 : FVec Ideal S512x1024 .f32) (v43 : FVec Ideal S512x1 .f32) (r : Fin 512) (e : Fin 1024) :
    k1_pay3 (F := Ideal) v42 v43 (ix3 0 r e) = Ideal.div (v42 (ix2 r e)) (v43 (ix2 r 0)) := by
  unfold k1_pay3
  refine (Cert.LibUnitAxis.addUnit_apply _ shapeCasts_S512x1024_S1x512x1024 0 r e).trans ?_
  exact congrArg (Ideal.div (v42 (ix2 r e))) (Cert.LibColumn.broadcastTo_a1_ab_apply v43 broadcasts_S512x1_S512x1024 r e)

/-- The single-precision pattern with the sign bit and all exponent bits set and no fraction bits denotes −∞. -/
theorem ofBits_neg_inf : Ideal.ofBits .f32 0xFF800000#32 = ⊥ := by
  simp [Ideal.ofBits, Ideal.ieee]

/-- The running maximum after the tile, read at row `r`: the maximum of the carried maximum and the row's largest
    score of the tile, the latter as the fold of `max` from −∞ over the tile's columns. -/
theorem pay10_apply (v3 : FVec Ideal S512x1024 .bf16) (v4 : FVec Ideal S1x512x1024 .bf16) (v9 : FVec Ideal S512x1 .f32)
    (r : Fin 512) :
    k1_pay10 (F := Ideal) v3 v4 v9 (ix2 r 0)
      = max (v9 (ix2 r 0))
          ((Finset.univ : Finset (Fin 512)).fold max ⊥ (fun t => k1_pay9 (F := Ideal) v3 v4 (ix2 r t))) := by
  unfold k1_pay10
  refine congrArg (max (v9 (ix2 r 0))) ?_
  refine (Cert.LibUnitColumn.shapeCast_a_a1_apply _ shapeCasts_S512_S512x1 r 0).trans ?_
  refine (Cert.LibRowMax.rowMax_apply (k1_pay9 (F := Ideal) v3 v4) 0xFF800000#32 reduces_S512x512_S512 _ _ r).trans ?_
  exact congrArg (fun z => (Finset.univ : Finset (Fin 512)).fold max z (fun t => k1_pay9 (F := Ideal) v3 v4 (ix2 r t)))
    ofBits_neg_inf

/-- The rescaling factor of the carried sums, read at row `r`. -/
theorem pay11_apply (v3 : FVec Ideal S512x1024 .bf16) (v4 : FVec Ideal S1x512x1024 .bf16) (v9 v13 : FVec Ideal S512x1 .f32)
    (r : Fin 512) :
    k1_pay11 (F := Ideal) v3 v4 v9 v13 (ix2 r 0)
      = Ideal.exp (v13 (ix2 r 0) - k1_pay10 (F := Ideal) v3 v4 v9 (ix2 r 0)) := rfl

/-- The tile's unnormalised weights, read at `(r, t)`. -/
theorem pay12_apply (v3 : FVec Ideal S512x1024 .bf16) (v4 : FVec Ideal S1x512x1024 .bf16) (v9 : FVec Ideal S512x1 .f32)
    (r t : Fin 512) :
    k1_pay12 (F := Ideal) v3 v4 v9 (ix2 r t)
      = Ideal.exp (k1_pay9 (F := Ideal) v3 v4 (ix2 r t) - k1_pay10 (F := Ideal) v3 v4 v9 (ix2 r 0)) := by
  unfold k1_pay12
  exact congrArg (fun z => Ideal.exp (k1_pay9 (F := Ideal) v3 v4 (ix2 r t) - z))
    (Cert.LibColumn.broadcastTo_a1_ab_apply (k1_pay10 (F := Ideal) v3 v4 v9) broadcasts_S512x1_S512x512 r t)

/-- The running normaliser after the tile, read at row `r`. -/
theorem pay13_apply (v3 : FVec Ideal S512x1024 .bf16) (v4 : FVec Ideal S1x512x1024 .bf16)
    (v9 v13 v19 : FVec Ideal S512x1 .f32) (r : Fin 512) :
    k1_pay13 (F := Ideal) v3 v4 v9 v13 v19 (ix2 r 0)
      = k1_pay11 (F := Ideal) v3 v4 v9 v13 (ix2 r 0) * v19 (ix2 r 0)
        + ∑ t : Fin 512, k1_pay12 (F := Ideal) v3 v4 v9 (ix2 r t) := by
  unfold k1_pay13
  refine (congrFun (shapeCast_self _ shapeCasts_S512x1_S512x1) (ix2 r 0)).trans ?_
  refine congrArg (k1_pay11 (F := Ideal) v3 v4 v9 v13 (ix2 r 0) * v19 (ix2 r 0) + ·) ?_
  refine (Cert.LibUnitColumn.shapeCast_a_a1_apply _ shapeCasts_S512_S512x1 r 0).trans ?_
  exact Cert.LibRowOps.rowSum_apply (k1_pay12 (F := Ideal) v3 v4 v9) reduces_S512x512_S512 _ _ r

/-- The rescaled accumulator, read at `(r, e)`. -/
theorem pay14_apply (v3 : FVec Ideal S512x1024 .bf16) (v4 : FVec Ideal S1x512x1024 .bf16) (v9 v13 : FVec Ideal S512x1 .f32)
    (v27 : FVec Ideal S512x1024 .f32) (r : Fin 512) (e : Fin 1024) :
    k1_pay14 (F := Ideal) v3 v4 v9 v13 v27 (ix2 r e)
      = k1_pay11 (F := Ideal) v3 v4 v9 v13 (ix2 r 0) * v27 (ix2 r e) := by
  unfold k1_pay14
  exact congrArg (· * v27 (ix2 r e))
    (Cert.LibColumn.broadcastTo_a1_ab_apply (k1_pay11 (F := Ideal) v3 v4 v9 v13) broadcasts_S512x1_S512x1024 r e)

/-- The weights handed to the matrix unit are the weights: the narrowing is exact on the extended reals. -/
theorem pay15_apply (v3 : FVec Ideal S512x1024 .bf16) (v4 : FVec Ideal S1x512x1024 .bf16) (v9 : FVec Ideal S512x1 .f32)
    (r t : Fin 512) :
    k1_pay15 (F := Ideal) v3 v4 v9 (ix2 r t) = k1_pay12 (F := Ideal) v3 v4 v9 (ix2 r t) := rfl

/-- The value tile as a matrix, read at `(t, e)`. -/
theorem pay8_apply (v6 : FVec Ideal S1x512x1024 .bf16) (t : Fin 512) (e : Fin 1024) :
    k1_pay8 (F := Ideal) v6 (ix2 t e) = v6 (ix3 0 t e) := by
  unfold k1_pay8
  exact Cert.LibUnitAxis.dropUnit_apply v6 shapeCasts_S1x512x1024_S512x1024 t e

/-- The stored running maximum is the running maximum. -/
theorem pay2_eq (v12 : FVec Ideal S512x1 .f32) : k1_pay2 (F := Ideal) v12 = v12 := by
  unfold k1_pay2
  exact shapeCast_self v12 shapeCasts_S512x1_S512x1

/-- The initial running maximum, read at row `r`. -/
theorem pay4_apply (r : Fin 512) : k1_pay4 (F := Ideal) (ix2 r 0) = Ideal.ofBits .f32 0xFF333332#32 := by
  unfold k1_pay4
  exact congrFun (shapeCast_self _ shapeCasts_S512x1_S512x1) (ix2 r 0)

/-- The initial running normaliser, read at row `r`. -/
theorem pay5_apply (r : Fin 512) : k1_pay5 (F := Ideal) (ix2 r 0) = Ideal.ofBits .f32 0x00000000#32 := by
  unfold k1_pay5
  exact congrFun (shapeCast_self _ shapeCasts_S512x1_S512x1) (ix2 r 0)

/-- The initial accumulator, read at `(r, e)`. -/
theorem pay6_apply (r : Fin 512) (e : Fin 1024) : k1_pay6 (F := Ideal) (ix2 r e) = Ideal.ofBits .f32 0x00000000#32 := by
  unfold k1_pay6
  exact congrFun (shapeCast_self _ shapeCasts_S512x1024_S512x1024) (ix2 r e)

end Cert.Attn.PayFlash

end
-- ==== Proof.TileStep.lean ====
/-
  One tile of the running-maximum softmax on real data.

  When the query tile, the key tile, the value tile and the carried state (running maximum, normaliser,
  accumulator) of the tile computation hold real numbers read as extended reals, every intermediate of the
  tile computation is again a real number read as an extended real: the scores are the real inner products,
  the new maximum is the real maximum, the exponentials, products and sums are the real ones.  Hence the new
  state is the real update (mNext, lNext, aNext) of the carried state, the first state is (m0, 0, 0) for a real
  m0, the final quotient is the real quotient when the normaliser is not zero, and the scaled query projection
  is the real affine map times 1/32.
-/
import proofs.«147183_j52690658788033_2_alg».proof.Proof.Gen.KernelIdeal.Skeleton
import proofs.«147183_j52690658788033_2_alg».proof.Proof.Online
import proofs.«147183_j52690658788033_2_alg».proof.Proof.PayFlash
import proofs.«147183_j52690658788033_2_alg».proof.Proof.LibVariance

open scoped BigOperators

noncomputable section

namespace Cert.Attn.TileStep

open Idealize.ShloMosaic Idealize.ShloMosaic.ValueIdx Cert.KernelIdeal Cert.KernelIdeal.Gen
open Cert.Attn.Online Cert.Attn.OnlineE Cert.Attn.PayFlash

/-- The scores of query row r of the tile against the key rows of the tile: the inner products. -/
def tileScore (q k : Fin 512 → Fin 1024 → ℝ) (r : Fin 512) : Fin 512 → ℝ :=
  fun t => ∑ d : Fin 1024, q r d * k t d

theorem tileScore_apply (q k : Fin 512 → Fin 1024 → ℝ) (r t : Fin 512) :
    tileScore q k r t = ∑ d : Fin 1024, q r d * k t d := rfl

/-- The real number the initial running maximum's pattern denotes. -/
def m0 : ℝ := -(11744050 * 2 ^ 104)

section step

variable (v3 : FVec Ideal S512x1024 .bf16) (v4 : FVec Ideal S1x512x1024 .bf16) (v6 : FVec Ideal S1x512x1024 .bf16)
  (v9 v13 v19 : FVec Ideal S512x1 .f32) (v27 : FVec Ideal S512x1024 .f32)
  (q k v : Fin 512 → Fin 1024 → ℝ) (m l : Fin 512 → ℝ) (acc : Fin 512 → Fin 1024 → ℝ)

/-- The score tile on real data: the real inner products. -/
theorem score_real (hq : ∀ r d, v3 (ix2 r d) = ((q r d : ℝ) : EReal))
    (hk : ∀ t d, v4 (ix3 0 t d) = ((k t d : ℝ) : EReal)) (r t : Fin 512) :
    k1_pay9 (F := Ideal) v3 v4 (ix2 r t) = ((tileScore q k r t : ℝ) : EReal) :=
  (pay9_apply v3 v4 r t).trans
    ((Finset.sum_congr rfl fun d _ => by rw [hq r d, hk t d, ← EReal.coe_mul]).trans
      (Cert.LibVariance.coe_sum Finset.univ fun d => q r d * k t d))

/-- The new running maximum on real data. -/
theorem step_m (hq : ∀ r d, v3 (ix2 r d) = ((q r d : ℝ) : EReal))
    (hk : ∀ t d, v4 (ix3 0 t d) = ((k t d : ℝ) : EReal))
    (h9 : ∀ r, v9 (ix2 r 0) = ((m r : ℝ) : EReal)) (r : Fin 512) :
    k1_pay10 (F := Ideal) v3 v4 v9 (ix2 r 0) = ((mNext (m r) (tileScore q k r) : ℝ) : EReal) := by
  rw [pay10_apply, h9 r, funext (score_real v3 v4 q k hq hk r)]
  exact max_fold_tile (m r) (tileScore q k r)

/-- The rescaling factor on real data. -/
theorem alpha_real (hq : ∀ r d, v3 (ix2 r d) = ((q r d : ℝ) : EReal))
    (hk : ∀ t d, v4 (ix3 0 t d) = ((k t d : ℝ) : EReal))
    (h9 : ∀ r, v9 (ix2 r 0) = ((m r : ℝ) : EReal)) (h13 : ∀ r, v13 (ix2 r 0) = ((m r : ℝ) : EReal)) (r : Fin 512) :
    k1_pay11 (F := Ideal) v3 v4 v9 v13 (ix2 r 0)
      = ((Real.exp (m r - mNext (m r) (tileScore q k r)) : ℝ) : EReal) := by
  rw [pay11_apply, h13 r, step_m v3 v4 v9 q k m hq hk h9 r, sub_coe, exp_coe]

/-- The tile's weights on real data. -/
theorem p_real (hq : ∀ r d, v3 (ix2 r d) = ((q r d : ℝ) : EReal))
    (hk : ∀ t d, v4 (ix3 0 t d) = ((k t d : ℝ) : EReal))
    (h9 : ∀ r, v9 (ix2 r 0) = ((m r : ℝ) : EReal)) (r t : Fin 512) :
    k1_pay12 (F := Ideal) v3 v4 v9 (ix2 r t)
      = ((Real.exp (tileScore q k r t - mNext (m r) (tileScore q k r)) : ℝ) : EReal) := by
  rw [pay12_apply, score_real v3 v4 q k hq hk r t, step_m v3 v4 v9 q k m hq hk h9 r, sub_coe, exp_coe]

/-- The new normaliser on real data. -/
theorem step_l (hq : ∀ r d, v3 (ix2 r d) = ((q r d : ℝ) : EReal))
    (hk : ∀ t d, v4 (ix3 0 t d) = ((k t d : ℝ) : EReal))
    (h9 : ∀ r, v9 (ix2 r 0) = ((m r : ℝ) : EReal)) (h13 : ∀ r, v13 (ix2 r 0) = ((m r : ℝ) : EReal))
    (h19 : ∀ r, v19 (ix2 r 0) = ((l r : ℝ) : EReal)) (r : Fin 512) :
    k1_pay13 (F := Ideal) v3 v4 v9 v13 v19 (ix2 r 0)
      = ((lNext (m r) (l r) (tileScore q k r) : ℝ) : EReal) := by
  rw [pay13_apply, alpha_real v3 v4 v9 v13 q k m hq hk h9 h13 r, h19 r, mul_coe,
    funext (p_real v3 v4 v9 q k m hq hk h9 r), Cert.LibVariance.coe_sum, add_coe]
  rfl

/-- The new accumulator on real data. -/
theorem step_a (hq : ∀ r d, v3 (ix2 r d) = ((q r d : ℝ) : EReal))
    (hk : ∀ t d, v4 (ix3 0 t d) = ((k t d : ℝ) : EReal))
    (hv : ∀ t e, v6 (ix3 0 t e) = ((v t e : ℝ) : EReal))
    (h9 : ∀ r, v9 (ix2 r 0) = ((m r : ℝ) : EReal)) (h13 : ∀ r, v13 (ix2 r 0) = ((m r : ℝ) : EReal))
    (h27 : ∀ r e, v27 (ix2 r e) = ((acc r e : ℝ) : EReal)) (r : Fin 512) (e : Fin 1024) :
    k1_pay1 (F := Ideal) (k1_pay8 v6) (k1_pay14 v3 v4 v9 v13 v27) (k1_pay15 v3 v4 v9)
        (constant S512x1024 .f32 0x00000000#32) (ix2 r e)
      = ((aNext (m r) (acc r e) (tileScore q k r) (fun t => v t e) : ℝ) : EReal) := by
  rw [pay1_apply, pay14_apply, alpha_real v3 v4 v9 v13 q k m hq hk h9 h13 r, h27 r e, mul_coe]
  have hterm : ∀ t : Fin 512, k1_pay15 (F := Ideal) v3 v4 v9 (ix2 r t) * k1_pay8 (F := Ideal) v6 (ix2 t e)
      = ((Real.exp (tileScore q k r t - mNext (m r) (tileScore q k r)) * v t e : ℝ) : EReal) := fun t => by
    rw [pay15_apply, p_real v3 v4 v9 q k m hq hk h9 r t, pay8_apply, hv t e, mul_coe]
  rw [Finset.sum_congr rfl fun t _ => hterm t, Cert.LibVariance.coe_sum, add_coe]
  rfl

end step

/-- The output block on real data: the real quotient, when the normaliser is not zero. -/
theorem step_o (v42 : FVec Ideal S512x1024 .f32) (v43 : FVec Ideal S512x1 .f32)
    (acc : Fin 512 → Fin 1024 → ℝ) (l : Fin 512 → ℝ)
    (h42 : ∀ r e, v42 (ix2 r e) = ((acc r e : ℝ) : EReal)) (h43 : ∀ r, v43 (ix2 r 0) = ((l r : ℝ) : EReal))
    (r : Fin 512) (e : Fin 1024) (hl : l r ≠ 0) :
    k1_pay3 (F := Ideal) v42 v43 (ix3 0 r e) = ((acc r e / l r : ℝ) : EReal) := by
  rw [pay3_apply, h42 r e, h43 r]
  exact div_coe (acc r e) (l r) hl

/-- The first running maximum is the real m0. -/
theorem init_m (r : Fin 512) : k1_pay4 (F := Ideal) (ix2 r 0) = ((m0 : ℝ) : EReal) :=
  (pay4_apply r).trans ofBits_mask

/-- The first normaliser is 0. -/
theorem init_l (r : Fin 512) : k1_pay5 (F := Ideal) (ix2 r 0) = (((0 : ℝ)) : EReal) :=
  (pay5_apply r).trans (Cert.Attn.OnlineE.ofBits_zero.trans EReal.coe_zero.symm)

/-- The first accumulator is 0. -/
theorem init_a (r : Fin 512) (e : Fin 1024) : k1_pay6 (F := Ideal) (ix2 r e) = (((0 : ℝ)) : EReal) :=
  (pay6_apply r e).trans (Cert.Attn.OnlineE.ofBits_zero.trans EReal.coe_zero.symm)

/-- The scaled query projection on real data: the real affine map times 1/32. -/
theorem proj_q (v54 : FVec Ideal S1x512x1024 .f32) (v57 : FVec Ideal S1024x1024 .bf16) (v60 : FVec Ideal S1x1024 .f32)
    (x : Fin 512 → Fin 1024 → ℝ) (W : Fin 1024 → Fin 1024 → ℝ) (b : Fin 1024 → ℝ)
    (h54 : ∀ r d, v54 (ix3 0 r d) = ((x r d : ℝ) : EReal)) (h57 : ∀ d e, v57 (ix2 d e) = ((W d e : ℝ) : EReal))
    (h60 : ∀ e, v60 (ix2 0 e) = ((b e : ℝ) : EReal)) (r : Fin 512) (e : Fin 1024) :
    k1_pay7 (F := Ideal) v54 v57 v60 (ix2 r e)
      = ((((∑ d : Fin 1024, x r d * W d e) + b e) * (1 / 32) : ℝ) : EReal) := by
  rw [pay7_apply, ofBits_inv32, h60 e,
    Finset.sum_congr rfl fun d _ => show v54 (ix3 0 r d) * v57 (ix2 d e) = ((x r d * W d e : ℝ) : EReal) by
      rw [h54 r d, h57 d e, mul_coe],
    Cert.LibVariance.coe_sum, add_coe, mul_coe]

end Cert.Attn.TileStep

end
-- ==== Proof.TileChain.lean ====
/-
  The four key tiles chained.

  The tile computation keeps four buffers: the scaled query projection, the running maximum, the normaliser and
  the accumulator.  It starts from the projection, the initial maximum and zeros, applies one update per key tile
  (4 tiles of 512 key rows) and finally divides the accumulator by the normaliser.  On real data every buffer holds,
  at every stage, real numbers: after n tiles, at query row r and output column e, the running maximum, the
  normaliser and the accumulator are the three components of the real recursion of the tiled softmax run on the
  scores of row r against the key rows and on column e of the value rows.  After the 4 tiles the quotient is
  therefore the plain softmax-weighted average of column e of the value rows over all 2048 key rows, with the score
  of key row T the inner product of the projected query row with key row T times 1/32.
-/
import proofs.«147183_j52690658788033_2_alg».proof.Proof.TileStep
import proofs.«147183_j52690658788033_2_alg».proof.Proof.Online
import proofs.«147183_j52690658788033_2_alg».proof.Proof.Spec

open scoped BigOperators

noncomputable section

namespace Cert.Attn.TileChain

open Idealize.ShloMosaic Idealize.ShloMosaic.ValueIdx Cert.KernelIdeal Cert.KernelIdeal.Gen
open Cert.Attn.Online Cert.Attn.TileStep Cert.Attn.PayFlash

/-- The four buffers: scaled query projection, running maximum, normaliser, accumulator. -/
abbrev Sc : Type :=
  FVec Ideal S512x1024 .bf16 × FVec Ideal S512x1 .f32 × FVec Ideal S512x1 .f32 × FVec Ideal S512x1024 .f32

/-- The buffers before the first key tile: the projection just stored, the initial maximum, zeros. -/
def initSt (x0 : FVec Ideal S1x512x1024 .f32) (x1 : FVec Ideal S1024x1024 .bf16) (x2 : FVec Ideal S1x1024 .f32) : Sc :=
  (k1_pay7 x0 x1 x2, k1_pay4, k1_pay5, k1_pay6)

/-- One key tile: key block x3, value block x4. -/
def stepSt (x3 x4 : FVec Ideal S1x512x1024 .bf16) (p : Sc) : Sc :=
  (p.1, k1_pay2 (k1_pay10 p.1 x3 p.2.1), k1_pay13 p.1 x3 p.2.1 p.2.1 p.2.2.1,
   k1_pay1 (k1_pay8 x4) (k1_pay14 p.1 x3 p.2.1 p.2.1 p.2.2.2) (k1_pay15 p.1 x3 p.2.1)
     (constant S512x1024 .f32 0x00000000#32))

/-- The output block stored after the last tile. -/
def outSt (p : Sc) : FVec Ideal S1x512x1024 .f32 := k1_pay3 p.2.2.2 p.2.2.1

/-- The buffers after the first n key tiles (n ≤ 4), from p0. -/
def chainSt (K V : Fin 4 → FVec Ideal S1x512x1024 .bf16) (p0 : Sc) : ℕ → Sc
  | 0 => p0
  | n + 1 => if h : n < 4 then stepSt (K ⟨n, h⟩) (V ⟨n, h⟩) (chainSt K V p0 n) else chainSt K V p0 n

theorem chainSt_zero (K V : Fin 4 → FVec Ideal S1x512x1024 .bf16) (p0 : Sc) : chainSt K V p0 0 = p0 := rfl

theorem chainSt_succ (K V : Fin 4 → FVec Ideal S1x512x1024 .bf16) (p0 : Sc) (n : ℕ) (h : n < 4) :
    chainSt K V p0 (n + 1) = stepSt (K ⟨n, h⟩) (V ⟨n, h⟩) (chainSt K V p0 n) := by
  rw [chainSt, dif_pos h]

/-- The four tiles written out. -/
theorem chainSt_four (K V : Fin 4 → FVec Ideal S1x512x1024 .bf16) (p0 : Sc) :
    chainSt K V p0 4
      = stepSt (K 3) (V 3) (stepSt (K 2) (V 2) (stepSt (K 1) (V 1) (stepSt (K 0) (V 0) p0))) := rfl

/-- No tile changes the query projection. -/
theorem chainSt_fst (K V : Fin 4 → FVec Ideal S1x512x1024 .bf16) (p0 : Sc) (n : ℕ) :
    (chainSt K V p0 n).1 = p0.1 := by
  induction n with
  | zero => rfl
  | succ n ih =>
    by_cases h : n < 4
    · rw [chainSt_succ K V p0 n h]; exact ih
    · rw [chainSt, dif_neg h]; exact ih

/-! ## The real data -/

/-- The scaled query projection: the affine map times 1/32. -/
def qs (x : Fin 512 → Fin 1024 → ℝ) (Wq : Fin 1024 → Fin 1024 → ℝ) (bq : Fin 1024 → ℝ) : Fin 512 → Fin 1024 → ℝ :=
  fun r d => ((∑ d' : Fin 1024, x r d' * Wq d' d) + bq d) * (1 / 32)

/-- Key tile j: rows 512·j … 512·j + 511 of the key rows. -/
def keyTile (kk : Fin 2048 → Fin 1024 → ℝ) (j : Fin 4) : Fin 512 → Fin 1024 → ℝ :=
  fun t d => kk ⟨512 * j.val + t.val, by omega⟩ d

/-- The scores of query row r, tile by tile. -/
def scT (x : Fin 512 → Fin 1024 → ℝ) (Wq : Fin 1024 → Fin 1024 → ℝ) (bq : Fin 1024 → ℝ)
    (kk : Fin 2048 → Fin 1024 → ℝ) (r : Fin 512) : Fin 4 → Fin 512 → ℝ :=
  fun j => tileScore (qs x Wq bq) (keyTile kk j) r

/-- Column e of the value rows, tile by tile. -/
def valT (vv : Fin 2048 → Fin 1024 → ℝ) (e : Fin 1024) : Fin 4 → Fin 512 → ℝ :=
  fun j t => vv ⟨512 * j.val + t.val, by omega⟩ e

/-- The real state (maximum, normaliser, accumulator) of row r and column e after n tiles. -/
def st (x : Fin 512 → Fin 1024 → ℝ) (Wq : Fin 1024 → Fin 1024 → ℝ) (bq : Fin 1024 → ℝ)
    (kk vv : Fin 2048 → Fin 1024 → ℝ) (r : Fin 512) (e : Fin 1024) (n : ℕ) : ℝ × ℝ × ℝ :=
  state TileStep.m0 (scT x Wq bq kk r) (valT vv e) n

/-- The score of query row r against key row T: the inner product of the projected row with the key row, times 1/32. -/
def scoreRow (x : Fin 512 → Fin 1024 → ℝ) (Wq : Fin 1024 → Fin 1024 → ℝ) (bq : Fin 1024 → ℝ)
    (kk : Fin 2048 → Fin 1024 → ℝ) (r : Fin 512) (T : Fin 2048) : ℝ :=
  (∑ d : Fin 1024, ((∑ d' : Fin 1024, x r d' * Wq d' d) + bq d) * kk T d) * (1 / 32)

theorem scoreRow_apply (x : Fin 512 → Fin 1024 → ℝ) (Wq : Fin 1024 → Fin 1024 → ℝ) (bq : Fin 1024 → ℝ)
    (kk : Fin 2048 → Fin 1024 → ℝ) (r : Fin 512) (T : Fin 2048) :
    scoreRow x Wq bq kk r T
      = (∑ d : Fin 1024, ((∑ d' : Fin 1024, x r d' * Wq d' d) + bq d) * kk T d) * (1 / 32) := rfl

/-- The score with the factor 1/32 folded into the query row is the score. -/
theorem sum_qs_mul (x : Fin 512 → Fin 1024 → ℝ) (Wq : Fin 1024 → Fin 1024 → ℝ) (bq : Fin 1024 → ℝ)
    (kk : Fin 2048 → Fin 1024 → ℝ) (r : Fin 512) (T : Fin 2048) :
    (∑ d : Fin 1024, qs x Wq bq r d * kk T d) = scoreRow x Wq bq kk r T := by
  rw [scoreRow, Finset.sum_mul]
  exact Finset.sum_congr rfl fun d _ => by unfold qs; ring

/-! ## The invariant -/

/-- After n tiles the three carried buffers hold, at row r and column e, the real state of row r and column e. -/
theorem chain_inv (x : Fin 512 → Fin 1024 → ℝ) (Wq : Fin 1024 → Fin 1024 → ℝ) (bq : Fin 1024 → ℝ)
    (kk vv : Fin 2048 → Fin 1024 → ℝ)
    (x0 : FVec Ideal S1x512x1024 .f32) (x1 : FVec Ideal S1024x1024 .bf16) (x2 : FVec Ideal S1x1024 .f32)
    (K V : Fin 4 → FVec Ideal S1x512x1024 .bf16)
    (hx : ∀ r d, x0 (ix3 0 r d) = ((x r d : ℝ) : EReal)) (hW : ∀ d e, x1 (ix2 d e) = ((Wq d e : ℝ) : EReal))
    (hb : ∀ e, x2 (ix2 0 e) = ((bq e : ℝ) : EReal))
    (hK : ∀ (j : Fin 4) (t : Fin 512) (d : Fin 1024),
      K j (ix3 0 t d) = ((kk ⟨512 * j.val + t.val, by omega⟩ d : ℝ) : EReal))
    (hV : ∀ (j : Fin 4) (t : Fin 512) (e : Fin 1024),
      V j (ix3 0 t e) = ((vv ⟨512 * j.val + t.val, by omega⟩ e : ℝ) : EReal))
    (n : ℕ) (hn : n ≤ 4) : ∀ (r : Fin 512) (e : Fin 1024),
    (chainSt K V (initSt x0 x1 x2) n).2.1 (ix2 r 0) = (((st x Wq bq kk vv r e n).1 : ℝ) : EReal)
    ∧ (chainSt K V (initSt x0 x1 x2) n).2.2.1 (ix2 r 0) = (((st x Wq bq kk vv r e n).2.1 : ℝ) : EReal)
    ∧ (chainSt K V (initSt x0 x1 x2) n).2.2.2 (ix2 r e) = (((st x Wq bq kk vv r e n).2.2 : ℝ) : EReal) := by
  induction n with
  | zero =>
    intro r e
    exact ⟨init_m r, init_l r, init_a r e⟩
  | succ n ih =>
    intro r e
    have h : n < 4 := hn
    have ihn := ih (Nat.le_of_lt h)
    have hp1 : (chainSt K V (initSt x0 x1 x2) n).1 = k1_pay7 (F := Ideal) x0 x1 x2 :=
      chainSt_fst K V (initSt x0 x1 x2) n
    have hq : ∀ r d, (chainSt K V (initSt x0 x1 x2) n).1 (ix2 r d) = ((qs x Wq bq r d : ℝ) : EReal) := fun r d => by
      rw [hp1]; exact proj_q x0 x1 x2 x Wq bq hx hW hb r d
    have hk : ∀ t d, K ⟨n, h⟩ (ix3 0 t d) = ((keyTile kk ⟨n, h⟩ t d : ℝ) : EReal) := fun t d => hK ⟨n, h⟩ t d
    have hv : ∀ t e, V ⟨n, h⟩ (ix3 0 t e) = (((fun t e => valT vv e ⟨n, h⟩ t) t e : ℝ) : EReal) :=
      fun t e => hV ⟨n, h⟩ t e
    have h9 : ∀ r', (chainSt K V (initSt x0 x1 x2) n).2.1 (ix2 r' 0)
        = (((fun r' => (st x Wq bq kk vv r' e n).1) r' : ℝ) : EReal) := fun r' => (ihn r' e).1
    have h19 : ∀ r', (chainSt K V (initSt x0 x1 x2) n).2.2.1 (ix2 r' 0)
        = (((fun r' => (st x Wq bq kk vv r' e n).2.1) r' : ℝ) : EReal) := fun r' => (ihn r' e).2.1
    have h27 : ∀ r' e', (chainSt K V (initSt x0 x1 x2) n).2.2.2 (ix2 r' e')
        = (((fun r' e' => (st x Wq bq kk vv r' e' n).2.2) r' e' : ℝ) : EReal) := fun r' e' => (ihn r' e').2.2
    have hs : st x Wq bq kk vv r e (n + 1)
        = (mNext (st x Wq bq kk vv r e n).1 (scT x Wq bq kk r ⟨n, h⟩),
           lNext (st x Wq bq kk vv r e n).1 (st x Wq bq kk vv r e n).2.1 (scT x Wq bq kk r ⟨n, h⟩),
           aNext (st x Wq bq kk vv r e n).1 (st x Wq bq kk vv r e n).2.2 (scT x Wq bq kk r ⟨n, h⟩)
             (valT vv e ⟨n, h⟩)) :=
      state_succ TileStep.m0 (scT x Wq bq kk r) (valT vv e) n h
    rw [chainSt_succ K V (initSt x0 x1 x2) n h, hs]
    refine ⟨?_, ?_, ?_⟩
    · show k1_pay2 (F := Ideal) (k1_pay10 _ _ _) (ix2 r 0) = _
      rw [pay2_eq]
      exact step_m _ _ _ (qs x Wq bq) (keyTile kk ⟨n, h⟩) _ hq hk h9 r
    · exact step_l _ _ _ _ _ (qs x Wq bq) (keyTile kk ⟨n, h⟩) _ _ hq hk h9 h9 h19 r
    · exact step_a _ _ _ _ _ _ (qs x Wq bq) (keyTile kk ⟨n, h⟩) (fun t e => valT vv e ⟨n, h⟩ t) _ _
        hq hk hv h9 h9 h27 r e

/-! ## The result -/

/-- The output block after the four key tiles is the plain softmax-weighted average over all 2048 key rows. -/
theorem chain_eq (x : Fin 512 → Fin 1024 → ℝ) (Wq : Fin 1024 → Fin 1024 → ℝ) (bq : Fin 1024 → ℝ)
    (kk vv : Fin 2048 → Fin 1024 → ℝ)
    (x0 : FVec Ideal S1x512x1024 .f32) (x1 : FVec Ideal S1024x1024 .bf16) (x2 : FVec Ideal S1x1024 .f32)
    (K V : Fin 4 → FVec Ideal S1x512x1024 .bf16)
    (hx : ∀ r d, x0 (ix3 0 r d) = ((x r d : ℝ) : EReal)) (hW : ∀ d e, x1 (ix2 d e) = ((Wq d e : ℝ) : EReal))
    (hb : ∀ e, x2 (ix2 0 e) = ((bq e : ℝ) : EReal))
    (hK : ∀ (j : Fin 4) (t : Fin 512) (d : Fin 1024),
      K j (ix3 0 t d) = ((kk ⟨512 * j.val + t.val, by omega⟩ d : ℝ) : EReal))
    (hV : ∀ (j : Fin 4) (t : Fin 512) (e : Fin 1024),
      V j (ix3 0 t e) = ((vv ⟨512 * j.val + t.val, by omega⟩ e : ℝ) : EReal))
    (r : Fin 512) (e : Fin 1024) :
    outSt (stepSt (K 3) (V 3) (stepSt (K 2) (V 2) (stepSt (K 1) (V 1) (stepSt (K 0) (V 0) (initSt x0 x1 x2)))))
        (ix3 0 r e)
      = (((∑ T : Fin 2048, Real.exp (scoreRow x Wq bq kk r T) * vv T e)
          / (∑ T : Fin 2048, Real.exp (scoreRow x Wq bq kk r T)) : ℝ) : EReal) := by
  rw [← chainSt_four K V (initSt x0 x1 x2)]
  have inv := chain_inv x Wq bq kk vv x0 x1 x2 K V hx hW hb hK hV 4 le_rfl
  have h42 : ∀ r' e', (chainSt K V (initSt x0 x1 x2) 4).2.2.2 (ix2 r' e')
      = (((fun r' e' => (st x Wq bq kk vv r' e' 4).2.2) r' e' : ℝ) : EReal) := fun r' e' => (inv r' e').2.2
  have h43 : ∀ r', (chainSt K V (initSt x0 x1 x2) 4).2.2.1 (ix2 r' 0)
      = (((fun r' => (st x Wq bq kk vv r' e 4).2.1) r' : ℝ) : EReal) := fun r' => (inv r' e).2.1
  have hl : (fun r' => (st x Wq bq kk vv r' e 4).2.1) r ≠ 0 :=
    (state_pos TileStep.m0 (scT x Wq bq kk r) (valT vv e)).ne'
  refine (step_o _ _ _ _ h42 h43 r e hl).trans (congrArg _ ?_)
  refine (tiled_eq TileStep.m0 (fun T => ∑ d : Fin 1024, qs x Wq bq r d * kk T d) (fun T => vv T e)).trans ?_
  simp only [sum_qs_mul]

end Cert.Attn.TileChain

end
-- ==== Proof.Blocks1.lean ====
/-
  The blocks of the tiled-attention region, read at an index, and where its output blocks land.

  The region's grid is 4 × 4 × 4 — batch `p`, query tile `qi`, key tile `ki` — and point `t` of its 64 points has
  `p = t / 16`, `qi = (t / 4) % 4`, `ki = t % 4`. A block's element sits in its array, on each axis, at the block index
  times the block's size plus the coordinate inside the block. So:

  * window 0's block at `t` is rows `512 · qi … 512 · qi + 511` of batch `p` of the activations;
  * windows 1 and 2 (a weight matrix and a bias row) have one block, the whole array;
  * windows 3 and 4's blocks are rows `512 · ki … 512 · ki + 511` of batch `p` of their arrays;
  * the output window's block at `t` is the indices of batch `p` whose row lies in query tile `qi`; it is written
    back exactly when `ki = 3`, and every index `(p, s, e)` of the output array lies in the block of the writing point
    `16 · p + 4 · (s / 512) + 3`. Hence, when each writing point writes back its block of one array `G`, the output
    array ends holding `G`.
-/
import proofs.«147183_j52690658788033_2_alg».proof.Proof.IdealFrame.R1Base
import Idealize.ShloMosaic.Lib.Pipeline.Value
import Idealize.ShloMosaic.Lib.ValueIdx

noncomputable section

namespace Cert.Attn.Blocks1

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-! ## The index maps, decided once over the grid -/

/-- The block indices of the five input windows and of the output window at point `t` of the 4 × 4 × 4 grid:
    the batch is `t / 16`, the query tile `(t / 4) % 4`, the key tile `t % 4`. -/
theorem idx_facts : ∀ t : Fin cfg1.N,
    win1_0.index t (0 : Fin 3) = t.val / 16 ∧ win1_0.index t (1 : Fin 3) = (t.val / 4) % 4 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val / 16 ∧ win1_3.index t (1 : Fin 3) = t.val % 4 ∧ win1_3.index t (2 : Fin 3) = 0
    ∧ win1_4.index t (0 : Fin 3) = t.val / 16 ∧ win1_4.index t (1 : Fin 3) = t.val % 4 ∧ win1_4.index t (2 : Fin 3) = 0
    ∧ win1_5.index t (0 : Fin 3) = t.val / 16 ∧ win1_5.index t (1 : Fin 3) = (t.val / 4) % 4 ∧ win1_5.index t (2 : Fin 3) = 0 :=
  (by decide +kernel : ∀ t : Fin grid1.N, _)

/-- The grid has 64 points. -/
theorem tlt (t : Fin cfg1.N) : t.val < 64 := by
  have h : t.val < grid1.N := t.isLt
  rw [N_1] at h; exact h

/-! ## The input blocks, read at an index -/

/-- Window 0 (the activations, by query tile): row `r` of the block at `t` is row `512 · qi + r` of batch `p`. -/
theorem blk0 (c : Dev nD) (t : Fin cfg1.N) (r : Fin 512) (d : Fin 1024) :
    (iblk1 V c 0 t : S1x512x1024.Idx → Elt F .f32) (ix3 0 r d)
      = (V c main_arg0 : S4x2048x1024.Idx → Elt F .f32)
          (ix3 (⟨t.val / 16, by have := tlt t; omega⟩ : Fin 4)
            (⟨512 * ((t.val / 4) % 4) + r.val, by have := r.isLt; omega⟩ : Fin 2048) d) := by
  obtain ⟨e0, e1, e2, -⟩ := idx_facts t
  unfold iblk1
  rw [View.read_apply]
  show V c main_arg0 _ = V c main_arg0 _
  congr 1
  funext a
  apply Fin.ext
  match a with
  | ⟨0, _⟩ => show win1_0.index t (0 : Fin 3) * 1 + 1 * 0 = t.val / 16; omega
  | ⟨1, _⟩ => show win1_0.index t (1 : Fin 3) * 512 + 1 * r.val = 512 * ((t.val / 4) % 4) + r.val; omega
  | ⟨2, _⟩ => show win1_0.index t (2 : Fin 3) * 1024 + 1 * d.val = d.val; omega

/-- Window 1 (a weight matrix): its one block is the whole array. -/
theorem blk1 (c : Dev nD) (t : Fin cfg1.N) (d e : Fin 1024) :
    (iblk1 V c 1 t : S1024x1024.Idx → Elt F .bf16) (ix2 d e)
      = (V c main_v1 : S1024x1024.Idx → Elt F .bf16) (ix2 d e) := by
  obtain ⟨-, -, -, e0, e1, -⟩ := idx_facts t
  unfold iblk1
  rw [View.read_apply]
  show V c main_v1 _ = V c main_v1 _
  congr 1
  funext a
  apply Fin.ext
  match a with
  | ⟨0, _⟩ => show win1_1.index t (0 : Fin 2) * 1024 + 1 * d.val = d.val; omega
  | ⟨1, _⟩ => show win1_1.index t (1 : Fin 2) * 1024 + 1 * e.val = e.val; omega

/-- Window 2 (a bias row): its one block is the whole array. -/
theorem blk2 (c : Dev nD) (t : Fin cfg1.N) (e : Fin 1024) :
    (iblk1 V c 2 t : S1x1024.Idx → Elt F .f32) (ix2 0 e)
      = (V c main_v4 : S1x1024.Idx → Elt F .f32) (ix2 0 e) := by
  obtain ⟨-, -, -, -, -, e0, e1, -⟩ := idx_facts t
  unfold iblk1
  rw [View.read_apply]
  show V c main_v4 _ = V c main_v4 _
  congr 1
  funext a
  apply Fin.ext
  match a with
  | ⟨0, _⟩ => show win1_2.index t (0 : Fin 2) * 1 + 1 * 0 = 0; omega
  | ⟨1, _⟩ => show win1_2.index t (1 : Fin 2) * 1024 + 1 * e.val = e.val; omega

/-- Window 3 (by key tile): row `r` of the block at `t` is row `512 · ki + r` of batch `p`. -/
theorem blk3 (c : Dev nD) (t : Fin cfg1.N) (r : Fin 512) (d : Fin 1024) :
    (iblk1 V c 3 t : S1x512x1024.Idx → Elt F .bf16) (ix3 0 r d)
      = (V c main_v8 : S4x2048x1024.Idx → Elt F .bf16)
          (ix3 (⟨t.val / 16, by have := tlt t; omega⟩ : Fin 4)
            (⟨512 * (t.val % 4) + r.val, by have := r.isLt; omega⟩ : Fin 2048) d) := by
  obtain ⟨-, -, -, -, -, -, -, e0, e1, e2, -⟩ := idx_facts t
  unfold iblk1
  rw [View.read_apply]
  show V c main_v8 _ = V c main_v8 _
  congr 1
  funext a
  apply Fin.ext
  match a with
  | ⟨0, _⟩ => show win1_3.index t (0 : Fin 3) * 1 + 1 * 0 = t.val / 16; omega
  | ⟨1, _⟩ => show win1_3.index t (1 : Fin 3) * 512 + 1 * r.val = 512 * (t.val % 4) + r.val; omega
  | ⟨2, _⟩ => show win1_3.index t (2 : Fin 3) * 1024 + 1 * d.val = d.val; omega

/-- Window 4 (by key tile), likewise. -/
theorem blk4 (c : Dev nD) (t : Fin cfg1.N) (r : Fin 512) (d : Fin 1024) :
    (iblk1 V c 4 t : S1x512x1024.Idx → Elt F .bf16) (ix3 0 r d)
      = (V c main_v9 : S4x2048x1024.Idx → Elt F .bf16)
          (ix3 (⟨t.val / 16, by have := tlt t; omega⟩ : Fin 4)
            (⟨512 * (t.val % 4) + r.val, by have := r.isLt; omega⟩ : Fin 2048) d) := by
  obtain ⟨-, -, -, -, -, -, -, -, -, -, e0, e1, e2, -⟩ := idx_facts t
  unfold iblk1
  rw [View.read_apply]
  show V c main_v9 _ = V c main_v9 _
  congr 1
  funext a
  apply Fin.ext
  match a with
  | ⟨0, _⟩ => show win1_4.index t (0 : Fin 3) * 1 + 1 * 0 = t.val / 16; omega
  | ⟨1, _⟩ => show win1_4.index t (1 : Fin 3) * 512 + 1 * r.val = 512 * (t.val % 4) + r.val; omega
  | ⟨2, _⟩ => show win1_4.index t (2 : Fin 3) * 1024 + 1 * d.val = d.val; omega

/-! ## Where the output blocks land -/

/-- An index of the output array is in point `t`'s block iff each coordinate is in the block's range on its axis. -/
theorem mem_blk5_axes (t : Fin cfg1.N) (i : S4x2048x1024.Idx) :
    i ∈ ((cfg1.win 5).blk t).view.set
      ↔ ∀ a : Fin 3, win1_5.index t a * S1x512x1024.size a ≤ (i a).val
          ∧ (i a).val < win1_5.index t a * S1x512x1024.size a + S1x512x1024.size a := by
  show i ∈ ((View.whole main_v10).slice (win1_5.rect t)).set ↔ _
  rw [View.set_slice_whole, Rect.mem_set_unit]
  exact Iff.rfl

/-- The same by the grid's arithmetic: the batch is the point's, and the row lies in the point's query tile. -/
theorem mem_blk5 (t : Fin cfg1.N) (i : S4x2048x1024.Idx) :
    i ∈ ((cfg1.win 5).blk t).view.set ↔ (i 0).val = t.val / 16 ∧ (i 1).val / 512 = (t.val / 4) % 4 := by
  rw [mem_blk5_axes]
  obtain ⟨-, -, -, -, -, -, -, -, -, -, -, -, -, e0, e1, e2⟩ := idx_facts t
  have h2 : (i 2).val < 1024 := (i 2).isLt
  constructor
  · intro h
    have b0 : win1_5.index t (0 : Fin 3) * 1 ≤ (i 0).val ∧ (i 0).val < win1_5.index t (0 : Fin 3) * 1 + 1 := h 0
    have b1 : win1_5.index t (1 : Fin 3) * 512 ≤ (i 1).val ∧ (i 1).val < win1_5.index t (1 : Fin 3) * 512 + 512 := h 1
    omega
  · intro h a
    match a with
    | ⟨0, _⟩ => show win1_5.index t (0 : Fin 3) * 1 ≤ (i 0).val ∧ (i 0).val < win1_5.index t (0 : Fin 3) * 1 + 1; omega
    | ⟨1, _⟩ => show win1_5.index t (1 : Fin 3) * 512 ≤ (i 1).val ∧ (i 1).val < win1_5.index t (1 : Fin 3) * 512 + 512; omega
    | ⟨2, _⟩ => show win1_5.index t (2 : Fin 3) * 1024 ≤ (i 2).val ∧ (i 2).val < win1_5.index t (2 : Fin 3) * 1024 + 1024; omega

/-- Every index of the output array is in the block of a point that writes back: the last key tile of its
    batch and query tile. -/
theorem cover5 (i : S4x2048x1024.Idx) :
    ∃ t : Fin cfg1.N, (cfg1.win 5).flush t = true ∧ i ∈ ((cfg1.win 5).blk t).view.set := by
  have h0 : (i 0).val < 4 := (i 0).isLt
  have h1 : (i 1).val < 2048 := (i 1).isLt
  refine ⟨⟨16 * (i 0).val + 4 * ((i 1).val / 512) + 3, by show _ < grid1.N; rw [N_1]; omega⟩, ?_, ?_⟩
  · rw [flush1_5]; show (16 * (i 0).val + 4 * ((i 1).val / 512) + 3) % 4 = 3; omega
  · rw [mem_blk5]
    show (i 0).val = (16 * (i 0).val + 4 * ((i 1).val / 512) + 3) / 16
      ∧ (i 1).val / 512 = ((16 * (i 0).val + 4 * ((i 1).val / 512) + 3) / 4) % 4
    omega

/-- The output array after the run: when every point at the last key tile writes back its block of one array `G`,
    the array ends holding `G`. -/
theorem final_of_flushed {c : Dev nD} (dat : Dat τ (Elt F) Unit ℕ (UR sig nD τ) ℕ cfg1 c)
    (G : S4x2048x1024.Idx → Elt F .f32)
    (hfl : ∀ t : Fin cfg1.N, t.val % 4 = 3 → dat.flushed 5 t = ((cfg1.win 5).blk t).view.read (Elt F) G) :
    dat.arrAt 5 cfg1.N = G :=
  dat.arrAt_eq_of_cover 5 G (fun t hf => hfl t ((flush1_5 t).mp hf)) cover5

end Cert.Attn.Blocks1

end
-- ==== Proof.Blocks1b.lean ====
/-
  The output window of the tiled-attention region: what a point writes back, from the entries of its staging buffer.

  What a point writes back is the part of the staging buffer's contents that the transfer moves; here the block lies
  inside the array, so that part is the whole block. Element `(0, r, e)` of the block at point `t` sits in the array
  at batch `t / 16`, row `512 · ((t / 4) % 4) + r`, column `e`. So when the staging buffer after the point holds, entry
  by entry, a whole-array function `G` at those places, the point writes back its block of `G`; and when this holds at
  every point of the last key tile, the output array ends holding `G`.
-/
import proofs.«147183_j52690658788033_2_alg».proof.Proof.Blocks1

noncomputable section

namespace Cert.Attn.Blocks1

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable {F : FTy → Type} [FloatOps F]

/-- What a point writes back of the output window is its block of a whole-array function `G`, as soon as the staging
    buffer's entry `(0, r, e)` after the point is `G` at batch `p`, row `512 · qi + r`, column `e`: the block is not cut
    (it lies inside the array), and its element `(0, r, e)` sits in the array at `(p, 512 · qi + r, e)`. -/
theorem flushed5_of_after {c : Dev nD} (dat : Dat τ (Elt F) Unit ℕ (UR sig nD τ) ℕ cfg1 c) (t : Fin cfg1.N)
    (G : S4x2048x1024.Idx → Elt F .f32)
    (h : ∀ (r : Fin 512) (e : Fin 1024), (dat.after 5 t : S1x512x1024.Idx → Elt F .f32) (ix3 0 r e)
      = G (ix3 (⟨t.val / 16, by have := tlt t; omega⟩ : Fin 4)
            (⟨512 * ((t.val / 4) % 4) + r.val, by have := r.isLt; omega⟩ : Fin 2048) e)) :
    dat.flushed 5 t = ((cfg1.win 5).blk t).view.read (Elt F) G := by
  obtain ⟨-, -, -, -, -, -, -, -, -, -, -, -, -, e0, e1, e2⟩ := idx_facts t
  funext y
  have hy0 : (y 0).val = 0 := by have h0 : (y 0).val < 1 := (y 0).isLt; omega
  have hy1 : (y 1).val < 512 := (y 1).isLt
  have hy2 : (y 2).val < 1024 := (y 2).isLt
  have hx : (cfg1.win 5).xinj (grid1.coords t) y = (ix3 0 ⟨(y 1).val, hy1⟩ ⟨(y 2).val, hy2⟩ : S1x512x1024.Idx) := by
    funext a; apply Fin.ext
    match a with
    | ⟨0, _⟩ => exact hy0
    | ⟨1, _⟩ => rfl
    | ⟨2, _⟩ => rfl
  show dat.after 5 t ((cfg1.win 5).xinj (grid1.coords t) y) = _
  rw [hx, View.read_apply]
  refine (h ⟨(y 1).val, hy1⟩ ⟨(y 2).val, hy2⟩).trans ?_
  show G _ = G _
  congr 1
  funext a
  apply Fin.ext
  match a with
  | ⟨0, _⟩ => show t.val / 16 = win1_5.index t (0 : Fin 3) * 1 + 1 * (y 0).val; omega
  | ⟨1, _⟩ => show 512 * ((t.val / 4) % 4) + (y 1).val = win1_5.index t (1 : Fin 3) * 512 + 1 * (y 1).val; omega
  | ⟨2, _⟩ => show (y 2).val = win1_5.index t (2 : Fin 3) * 1024 + 1 * (y 2).val; omega

/-- The output array after the run, from the staging buffer's entries at the points of the last key tile. -/
theorem final5_of_after {c : Dev nD} (dat : Dat τ (Elt F) Unit ℕ (UR sig nD τ) ℕ cfg1 c)
    (G : S4x2048x1024.Idx → Elt F .f32)
    (h : ∀ t : Fin cfg1.N, t.val % 4 = 3 → ∀ (r : Fin 512) (e : Fin 1024),
      (dat.after 5 t : S1x512x1024.Idx → Elt F .f32) (ix3 0 r e)
        = G (ix3 (⟨t.val / 16, by have := tlt t; omega⟩ : Fin 4)
              (⟨512 * ((t.val / 4) % 4) + r.val, by have := r.isLt; omega⟩ : Fin 2048) e)) :
    dat.arrAt 5 cfg1.N = G :=
  final_of_flushed dat G fun t ht => flushed5_of_after dat t G (h t ht)

end Cert.Attn.Blocks1

end
-- ==== Proof.ValueFlash.lean ====
/-
  What the attention region leaves in the result array.

  The region's 64 points are 16 groups of 4: a group is one batch and one query tile, its 4 points the 4 key tiles in
  order. At the first point of a group the body stores the scaled query projection, the initial maximum and zeros
  into its four scratch buffers and applies one tile update; at each later point it applies one tile update to what
  the point before left; at the last point it also stores the accumulator divided by the normaliser into the output
  block. So the output block of a group is the four updates chained from the initial buffers and then divided, and
  on real data that quotient is the softmax-weighted average over all 2048 key rows. The output blocks of the 16
  groups tile the result array.
-/
import proofs.«147183_j52690658788033_2_alg».proof.Proof.IdealFrame.R1
import proofs.«147183_j52690658788033_2_alg».proof.Proof.IdealFrame.Pieces
import proofs.«147183_j52690658788033_2_alg».proof.Proof.TileChain
import proofs.«147183_j52690658788033_2_alg».proof.Proof.Blocks1
import proofs.«147183_j52690658788033_2_alg».proof.Proof.Blocks1b
import proofs.«147183_j52690658788033_2_alg».proof.Proof.Spec

set_option maxRecDepth 16384

noncomputable section

namespace Cert.Attn.ValueFlash

open Cert.KernelIdeal Cert.KernelIdeal.Gen Cert.KernelIdeal.Fr
open Idealize.ShloMosaic Idealize.ShloMosaic.TcCoe Idealize.ShloMosaic.ValueIdx Idealize.SL.Sem
open Cert.Attn Cert.Attn.TileChain Cert.Attn.Blocks1

variable (V : (c : Dev nD) → (b : Ref sig .tc) → Buf (Elt Ideal) ((c : Thread nD τ).loc b))

/-! ## What each case leaves in each buffer, as the body's arithmetic of the point's blocks -/

theorem soutA_0 (c : Dev nD) (t : Fin cfg1.N) (h0 : t.val % 4 = 0) (h1 : ¬t.val % 4 = 3) :
    sout1_A_0 V c t h0 h1 = k1_pay7 (F := Ideal) (iblk1 V c 0 t) (iblk1 V c 1 t) (iblk1 V c 2 t) := by
  unfold sout1_A_0
  rw [View.read_writes_eq_canon _ _ _ (scover1_A_0 V c t h0 h1)]
  unfold runA
  exact piecesA_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)

theorem soutA_1 (c : Dev nD) (t : Fin cfg1.N) (h0 : t.val % 4 = 0) (h1 : ¬t.val % 4 = 3) :
    sout1_A_1 V c t h0 h1 = k1_pay2 (F := Ideal) (k1_pay10 (k1_pay7 (F := Ideal) (iblk1 V c 0 t) (iblk1 V c 1 t) (iblk1 V c 2 t)) (iblk1 V c 3 t) (k1_pay4 (F := Ideal))) := by
  unfold sout1_A_1
  rw [View.read_writes_eq_canon _ _ _ (scover1_A_1 V c t h0 h1)]
  unfold runA
  exact piecesA_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)

theorem soutA_2 (c : Dev nD) (t : Fin cfg1.N) (h0 : t.val % 4 = 0) (h1 : ¬t.val % 4 = 3) :
    sout1_A_2 V c t h0 h1 = k1_pay13 (F := Ideal) (k1_pay7 (F := Ideal) (iblk1 V c 0 t) (iblk1 V c 1 t) (iblk1 V c 2 t)) (iblk1 V c 3 t) (k1_pay4 (F := Ideal)) (k1_pay4 (F := Ideal)) (k1_pay5 (F := Ideal)) := by
  unfold sout1_A_2
  rw [View.read_writes_eq_canon _ _ _ (scover1_A_2 V c t h0 h1)]
  unfold runA
  exact piecesA_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)

theorem soutA_3 (c : Dev nD) (t : Fin cfg1.N) (h0 : t.val % 4 = 0) (h1 : ¬t.val % 4 = 3) :
    sout1_A_3 V c t h0 h1 = k1_pay1 (F := Ideal) (k1_pay8 (iblk1 V c 4 t)) (k1_pay14 (k1_pay7 (F := Ideal) (iblk1 V c 0 t) (iblk1 V c 1 t) (iblk1 V c 2 t)) (iblk1 V c 3 t) (k1_pay4 (F := Ideal)) (k1_pay4 (F := Ideal)) (k1_pay6 (F := Ideal))) (k1_pay15 (k1_pay7 (F := Ideal) (iblk1 V c 0 t) (iblk1 V c 1 t) (iblk1 V c 2 t)) (iblk1 V c 3 t) (k1_pay4 (F := Ideal))) (constant S512x1024 .f32 0x00000000#32) := by
  unfold sout1_A_3
  rw [View.read_writes_eq_canon _ _ _ (scover1_A_3 V c t h0 h1)]
  unfold runA
  exact piecesA_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)

theorem soutB_1 (c : Dev nD) (t : Fin cfg1.N) (h0 : ¬t.val % 4 = 0) (h1 : ¬t.val % 4 = 3) (p : Vec Ideal S512x1024 .bf16 × Vec Ideal S512x1 .f32 × Vec Ideal S512x1 .f32 × Vec Ideal S512x1024 .f32) :
    sout1_B_1 V c t h0 h1 p = k1_pay2 (F := Ideal) (k1_pay10 p.1 (iblk1 V c 3 t) p.2.1) := by
  unfold sout1_B_1
  rw [View.read_writes_eq_canon _ _ _ (scover1_B_1 V c t h0 h1 p)]
  unfold runB
  exact piecesB_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) p.1 p.2.1 p.2.2.1 p.2.2.2 (fun h => h0 ((hcond1_0 t).mp h)) (fun h => h1 ((hcond1_1 t).mp h))

theorem soutB_2 (c : Dev nD) (t : Fin cfg1.N) (h0 : ¬t.val % 4 = 0) (h1 : ¬t.val % 4 = 3) (p : Vec Ideal S512x1024 .bf16 × Vec Ideal S512x1 .f32 × Vec Ideal S512x1 .f32 × Vec Ideal S512x1024 .f32) :
    sout1_B_2 V c t h0 h1 p = k1_pay13 (F := Ideal) p.1 (iblk1 V c 3 t) p.2.1 p.2.1 p.2.2.1 := by
  unfold sout1_B_2
  rw [View.read_writes_eq_canon _ _ _ (scover1_B_2 V c t h0 h1 p)]
  unfold runB
  exact piecesB_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) p.1 p.2.1 p.2.2.1 p.2.2.2 (fun h => h0 ((hcond1_0 t).mp h)) (fun h => h1 ((hcond1_1 t).mp h))

theorem soutB_3 (c : Dev nD) (t : Fin cfg1.N) (h0 : ¬t.val % 4 = 0) (h1 : ¬t.val % 4 = 3) (p : Vec Ideal S512x1024 .bf16 × Vec Ideal S512x1 .f32 × Vec Ideal S512x1 .f32 × Vec Ideal S512x1024 .f32) :
    sout1_B_3 V c t h0 h1 p = k1_pay1 (F := Ideal) (k1_pay8 (iblk1 V c 4 t)) (k1_pay14 p.1 (iblk1 V c 3 t) p.2.1 p.2.1 p.2.2.2) (k1_pay15 p.1 (iblk1 V c 3 t) p.2.1) (constant S512x1024 .f32 0x00000000#32) := by
  unfold sout1_B_3
  rw [View.read_writes_eq_canon _ _ _ (scover1_B_3 V c t h0 h1 p)]
  unfold runB
  exact piecesB_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) p.1 p.2.1 p.2.2.1 p.2.2.2 (fun h => h0 ((hcond1_0 t).mp h)) (fun h => h1 ((hcond1_1 t).mp h))

theorem soutC_1 (c : Dev nD) (t : Fin cfg1.N) (h0 : ¬t.val % 4 = 0) (h1 : t.val % 4 = 3) (p : Vec Ideal S512x1024 .bf16 × Vec Ideal S512x1 .f32 × Vec Ideal S512x1 .f32 × Vec Ideal S512x1024 .f32) :
    sout1_C_1 V c t h0 h1 p = k1_pay2 (F := Ideal) (k1_pay10 p.1 (iblk1 V c 3 t) p.2.1) := by
  unfold sout1_C_1
  rw [View.read_writes_eq_canon _ _ _ (scover1_C_1 V c t h0 h1 p)]
  unfold runC
  exact piecesC_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) p.1 p.2.1 p.2.2.1 p.2.2.2 (fun h => h0 ((hcond1_0 t).mp h)) ((hcond1_1 t).mpr h1)

theorem soutC_2 (c : Dev nD) (t : Fin cfg1.N) (h0 : ¬t.val % 4 = 0) (h1 : t.val % 4 = 3) (p : Vec Ideal S512x1024 .bf16 × Vec Ideal S512x1 .f32 × Vec Ideal S512x1 .f32 × Vec Ideal S512x1024 .f32) :
    sout1_C_2 V c t h0 h1 p = k1_pay13 (F := Ideal) p.1 (iblk1 V c 3 t) p.2.1 p.2.1 p.2.2.1 := by
  unfold sout1_C_2
  rw [View.read_writes_eq_canon _ _ _ (scover1_C_2 V c t h0 h1 p)]
  unfold runC
  exact piecesC_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) p.1 p.2.1 p.2.2.1 p.2.2.2 (fun h => h0 ((hcond1_0 t).mp h)) ((hcond1_1 t).mpr h1)

theorem soutC_3 (c : Dev nD) (t : Fin cfg1.N) (h0 : ¬t.val % 4 = 0) (h1 : t.val % 4 = 3) (p : Vec Ideal S512x1024 .bf16 × Vec Ideal S512x1 .f32 × Vec Ideal S512x1 .f32 × Vec Ideal S512x1024 .f32) :
    sout1_C_3 V c t h0 h1 p = k1_pay1 (F := Ideal) (k1_pay8 (iblk1 V c 4 t)) (k1_pay14 p.1 (iblk1 V c 3 t) p.2.1 p.2.1 p.2.2.2) (k1_pay15 p.1 (iblk1 V c 3 t) p.2.1) (constant S512x1024 .f32 0x00000000#32) := by
  unfold sout1_C_3
  rw [View.read_writes_eq_canon _ _ _ (scover1_C_3 V c t h0 h1 p)]
  unfold runC
  exact piecesC_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) p.1 p.2.1 p.2.2.1 p.2.2.2 (fun h => h0 ((hcond1_0 t).mp h)) ((hcond1_1 t).mpr h1)

theorem outC_5 (c : Dev nD) (t : Fin cfg1.N) (h0 : ¬t.val % 4 = 0) (h1 : t.val % 4 = 3) (p : Vec Ideal S512x1024 .bf16 × Vec Ideal S512x1 .f32 × Vec Ideal S512x1 .f32 × Vec Ideal S512x1024 .f32) :
    out1_C_5 V c t h0 h1 p = k1_pay3 (F := Ideal) (k1_pay1 (F := Ideal) (k1_pay8 (iblk1 V c 4 t)) (k1_pay14 p.1 (iblk1 V c 3 t) p.2.1 p.2.1 p.2.2.2) (k1_pay15 p.1 (iblk1 V c 3 t) p.2.1) (constant S512x1024 .f32 0x00000000#32)) (k1_pay13 (F := Ideal) p.1 (iblk1 V c 3 t) p.2.1 p.2.1 p.2.2.1) := by
  unfold out1_C_5
  rw [View.read_writes_eq_canon _ _ _ (cover1_C_5 V c t h0 h1 p)]
  unfold runC
  exact piecesC_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) p.1 p.2.1 p.2.2.1 p.2.2.2 (fun h => h0 ((hcond1_0 t).mp h)) ((hcond1_1 t).mpr h1)

/-! ## The scratch buffers after a point, as one tile update -/

/-- After a point of the first key tile: one update of the initial buffers. -/
theorem stA_snd (c : Dev nD) (t : Fin cfg1.N) (h0 : t.val % 4 = 0) (h1 : ¬t.val % 4 = 3) :
    (stA V c t h0 h1).2 = stepSt (iblk1 V c 3 t) (iblk1 V c 4 t) (initSt (iblk1 V c 0 t) (iblk1 V c 1 t) (iblk1 V c 2 t)) := by
  show (sout1_A_0 V c t h0 h1, sout1_A_1 V c t h0 h1, sout1_A_2 V c t h0 h1, sout1_A_3 V c t h0 h1) = _
  rw [soutA_0, soutA_1, soutA_2, soutA_3]
  rfl

/-- After a point of a middle key tile: one update of what the point before left. -/
theorem stB_snd (c : Dev nD) (t : Fin cfg1.N) (h0 : ¬t.val % 4 = 0) (h1 : ¬t.val % 4 = 3) (p : Vec Ideal S512x1024 .bf16 × Vec Ideal S512x1 .f32 × Vec Ideal S512x1 .f32 × Vec Ideal S512x1024 .f32) :
    (stB V c t h0 h1 p).2 = stepSt (iblk1 V c 3 t) (iblk1 V c 4 t) p := by
  show (p.1, sout1_B_1 V c t h0 h1 p, sout1_B_2 V c t h0 h1 p, sout1_B_3 V c t h0 h1 p) = _
  rw [soutB_1, soutB_2, soutB_3]
  rfl

/-- After a point of the last key tile: one update of what the point before left, -/
theorem stC_snd (c : Dev nD) (t : Fin cfg1.N) (h0 : ¬t.val % 4 = 0) (h1 : t.val % 4 = 3) (p : Vec Ideal S512x1024 .bf16 × Vec Ideal S512x1 .f32 × Vec Ideal S512x1 .f32 × Vec Ideal S512x1024 .f32) :
    (stC V c t h0 h1 p).2 = stepSt (iblk1 V c 3 t) (iblk1 V c 4 t) p := by
  show (p.1, sout1_C_1 V c t h0 h1 p, sout1_C_2 V c t h0 h1 p, sout1_C_3 V c t h0 h1 p) = _
  rw [soutC_1, soutC_2, soutC_3]
  rfl

/-- and the output block is the updated accumulator divided by the updated normaliser. -/
theorem stC_fst (c : Dev nD) (t : Fin cfg1.N) (h0 : ¬t.val % 4 = 0) (h1 : t.val % 4 = 3) (p : Vec Ideal S512x1024 .bf16 × Vec Ideal S512x1 .f32 × Vec Ideal S512x1 .f32 × Vec Ideal S512x1024 .f32) :
    (stC V c t h0 h1 p).1 = outSt (stepSt (iblk1 V c 3 t) (iblk1 V c 4 t) p) := by
  unfold stC
  dsimp only
  rw [outC_5]
  rfl

/-! ## The buffers after each point, by position -/

/-- The grid has 64 points. -/
theorem N64 : cfg1.N = 64 := N_1

/-- After the first point of a group the scratch buffers are one update of the initial buffers. -/
theorem scr_first (c : Dev nD) (n : ℕ) (hn : n < cfg1.N) (h0 : n % 4 = 0) :
    (outsAt1 V c n hn).2
      = stepSt (iblk1 V c 3 ⟨n, hn⟩) (iblk1 V c 4 ⟨n, hn⟩)
          (initSt (iblk1 V c 0 ⟨n, hn⟩) (iblk1 V c 1 ⟨n, hn⟩) (iblk1 V c 2 ⟨n, hn⟩)) :=
  have h1 : ¬(⟨n, hn⟩ : Fin cfg1.N).val % 4 = 3 := by show ¬n % 4 = 3; omega
  (congrArg Prod.snd (outsAt1_A V c ⟨n, hn⟩ h0 h1)).trans (stA_snd V c ⟨n, hn⟩ h0 h1)

/-- After a later point they are one update of what the point before left. -/
theorem scr_next (c : Dev nD) (n : ℕ) (hn : n + 1 < cfg1.N) (h0 : ¬(n + 1) % 4 = 0) :
    (outsAt1 V c (n + 1) hn).2
      = stepSt (iblk1 V c 3 ⟨n + 1, hn⟩) (iblk1 V c 4 ⟨n + 1, hn⟩) (outsAt1 V c n (Nat.lt_of_succ_lt hn)).2 := by
  by_cases h1 : (n + 1) % 4 = 3
  · exact (congrArg Prod.snd (outsAt1_C V c ⟨n + 1, hn⟩ h0 h1)).trans (stC_snd V c ⟨n + 1, hn⟩ h0 h1 _)
  · exact (congrArg Prod.snd (outsAt1_B V c ⟨n + 1, hn⟩ h0 h1)).trans (stB_snd V c ⟨n + 1, hn⟩ h0 h1 _)

/-- The output block after the last point of a group. -/
theorem out_last (c : Dev nD) (n : ℕ) (hn : n + 1 < cfg1.N) (h1 : (n + 1) % 4 = 3) :
    (outsAt1 V c (n + 1) hn).1
      = outSt (stepSt (iblk1 V c 3 ⟨n + 1, hn⟩) (iblk1 V c 4 ⟨n + 1, hn⟩) (outsAt1 V c n (Nat.lt_of_succ_lt hn)).2) :=
  have h0 : ¬(⟨n + 1, hn⟩ : Fin cfg1.N).val % 4 = 0 := by show ¬(n + 1) % 4 = 0; omega
  (congrArg Prod.fst (outsAt1_C V c ⟨n + 1, hn⟩ h0 h1)).trans (stC_fst V c ⟨n + 1, hn⟩ h0 h1 _)

/-- The key and value blocks of the four points of the group that starts at position n0. -/
def keyBlk (c : Dev nD) (n0 : ℕ) (h : n0 + 3 < cfg1.N) : Fin 4 → FVec Ideal S1x512x1024 .bf16 :=
  fun j => iblk1 V c 3 ⟨n0 + j.val, by have := j.isLt; omega⟩
def valBlk (c : Dev nD) (n0 : ℕ) (h : n0 + 3 < cfg1.N) : Fin 4 → FVec Ideal S1x512x1024 .bf16 :=
  fun j => iblk1 V c 4 ⟨n0 + j.val, by have := j.isLt; omega⟩

/-- The output block of a group: the four updates chained from the initial buffers, then divided. -/
theorem out_four (c : Dev nD) (n0 : ℕ) (h0 : n0 % 4 = 0) (h : n0 + 3 < cfg1.N) :
    (outsAt1 V c (n0 + 3) h).1
      = outSt (stepSt (keyBlk V c n0 h 3) (valBlk V c n0 h 3)
          (stepSt (keyBlk V c n0 h 2) (valBlk V c n0 h 2)
            (stepSt (keyBlk V c n0 h 1) (valBlk V c n0 h 1)
              (stepSt (keyBlk V c n0 h 0) (valBlk V c n0 h 0)
                (initSt (iblk1 V c 0 ⟨n0, by omega⟩) (iblk1 V c 1 ⟨n0, by omega⟩) (iblk1 V c 2 ⟨n0, by omega⟩)))))) := by
  have e3 := out_last V c (n0 + 2) h (by omega)
  have e2 := scr_next V c (n0 + 1) (by omega) (by omega)
  have e1 := scr_next V c n0 (by omega) (by omega)
  have e0 := scr_first V c n0 (by omega) h0
  exact e3.trans (congrArg (fun p => outSt (stepSt (keyBlk V c n0 h 3) (valBlk V c n0 h 3) p))
    (e2.trans (congrArg (fun p => stepSt (keyBlk V c n0 h 2) (valBlk V c n0 h 2) p)
      (e1.trans (congrArg (fun p => stepSt (keyBlk V c n0 h 1) (valBlk V c n0 h 1) p) e0)))))

/-! ## The entries of a group's output block on real data -/

/-- A buffer known entry by entry as the reals of an array, read at coordinates equal to given ones. -/
theorem read3_at (f : S4x2048x1024.Idx → EReal) (g : Arr3)
    (hf : ∀ (p : Fin 4) (s : Fin 2048) (e : Fin 1024), f (ix3 p s e) = ((g p s e : ℝ) : EReal))
    (p p' : Fin 4) (s s' : Fin 2048) (e : Fin 1024) (hp : p.val = p'.val) (hs : s.val = s'.val) :
    f (ix3 p s e) = ((g p' s' e : ℝ) : EReal) := by
  obtain rfl : p = p' := Fin.ext hp
  obtain rfl : s = s' := Fin.ext hs
  exact hf p s e

/-- Entry (r, e) of the output block of the group that starts at position n0 is the softmax-weighted average of
    column e of the value rows of the group's batch, for the query row 512·(query tile) + r. -/
theorem tile_entry (c : Dev nD) (x : Arr3) (Wq : Mat) (bq : Vec1) (kk vv : Arr3)
    (h0 : (V c main_arg0 : S4x2048x1024.Idx → EReal) = up3 x)
    (h1 : ∀ d e : Fin 1024, (V c main_v1 : S1024x1024.Idx → EReal) (ix2 d e) = ((Wq d e : ℝ) : EReal))
    (h4 : ∀ e : Fin 1024, (V c main_v4 : S1x1024.Idx → EReal) (ix2 0 e) = ((bq e : ℝ) : EReal))
    (h8 : ∀ (p : Fin 4) (s : Fin 2048) (e : Fin 1024), (V c main_v8 : S4x2048x1024.Idx → EReal) (ix3 p s e) = ((kk p s e : ℝ) : EReal))
    (h9 : ∀ (p : Fin 4) (s : Fin 2048) (e : Fin 1024), (V c main_v9 : S4x2048x1024.Idx → EReal) (ix3 p s e) = ((vv p s e : ℝ) : EReal))
    (n0 : ℕ) (hn0 : n0 % 4 = 0) (h : n0 + 3 < cfg1.N) (r : Fin 512) (e : Fin 1024) :
    ((outsAt1 V c (n0 + 3) h).1 : S1x512x1024.Idx → EReal) (ix3 0 r e)
      = ((wavg (score (proj x Wq bq) kk) vv (⟨n0 / 16, by have := N64; omega⟩ : Fin 4)
          (⟨512 * ((n0 / 4) % 4) + r.val, by have := r.isLt; omega⟩ : Fin 2048) e : ℝ) : EReal) := by
  have hN := N64
  have hx0 : ∀ (p : Fin 4) (s : Fin 2048) (d : Fin 1024),
      (V c main_arg0 : S4x2048x1024.Idx → EReal) (ix3 p s d) = ((x p s d : ℝ) : EReal) :=
    fun p s d => congrFun h0 (ix3 p s d)
  rw [out_four V c n0 hn0 h]
  refine (chain_eq
    (fun r d => x ⟨n0 / 16, by omega⟩ ⟨512 * ((n0 / 4) % 4) + r.val, by have := r.isLt; omega⟩ d) Wq bq
    (fun T d => kk ⟨n0 / 16, by omega⟩ T d) (fun T e => vv ⟨n0 / 16, by omega⟩ T e)
    (iblk1 V c 0 ⟨n0, by omega⟩) (iblk1 V c 1 ⟨n0, by omega⟩) (iblk1 V c 2 ⟨n0, by omega⟩)
    (keyBlk V c n0 h) (valBlk V c n0 h) ?_ ?_ ?_ ?_ ?_ r e).trans ?_
  · intro r d
    exact (blk0 V c ⟨n0, by omega⟩ r d).trans (read3_at _ x hx0 _ _ _ _ d rfl rfl)
  · intro d e
    exact (blk1 V c ⟨n0, by omega⟩ d e).trans (h1 d e)
  · intro e
    exact (blk2 V c ⟨n0, by omega⟩ e).trans (h4 e)
  · intro j t d
    have hj := j.isLt
    exact (blk3 V c ⟨n0 + j.val, by omega⟩ t d).trans (read3_at _ kk h8 _ _ _ _ d
      (by show (n0 + j.val) / 16 = n0 / 16; omega)
      (by show 512 * ((n0 + j.val) % 4) + t.val = 512 * j.val + t.val; omega))
  · intro j t e
    have hj := j.isLt
    exact (blk4 V c ⟨n0 + j.val, by omega⟩ t e).trans (read3_at _ vv h9 _ _ _ _ e
      (by show (n0 + j.val) / 16 = n0 / 16; omega)
      (by show 512 * ((n0 + j.val) % 4) + t.val = 512 * j.val + t.val; omega))
  · rfl

/-! ## The result array -/

/-- After the region the result array is the softmax attention of the projected queries against the given key and
    value rows. -/
theorem final1 (V : (c : Dev nD) → (b : Ref sig .tc) → Buf (Elt Ideal) ((c : Thread nD τ).loc b)) (c : Dev nD)
    (x : Arr3) (Wq : Mat) (bq : Vec1) (kk vv : Arr3)
    (h0 : (V c main_arg0 : S4x2048x1024.Idx → EReal) = up3 x)
    (h1 : ∀ d e : Fin 1024, (V c main_v1 : S1024x1024.Idx → EReal) (ix2 d e) = ((Wq d e : ℝ) : EReal))
    (h4 : ∀ e : Fin 1024, (V c main_v4 : S1x1024.Idx → EReal) (ix2 0 e) = ((bq e : ℝ) : EReal))
    (h8 : ∀ (p : Fin 4) (s : Fin 2048) (e : Fin 1024), (V c main_v8 : S4x2048x1024.Idx → EReal) (ix3 p s e) = ((kk p s e : ℝ) : EReal))
    (h9 : ∀ (p : Fin 4) (s : Fin 2048) (e : Fin 1024), (V c main_v9 : S4x2048x1024.Idx → EReal) (ix3 p s e) = ((vv p s e : ℝ) : EReal)) :
    (dat1 V c).arrAt 5 cfg1.N = up3 (wavg (score (proj x Wq bq) kk) vv) := by
  refine final5_of_after (dat1 V c) (up3 (wavg (score (proj x Wq bq) kk) vv)) fun t ht r e => ?_
  have hN := N64
  obtain ⟨n, hn⟩ := t
  have ht' : n % 4 = 3 := ht
  obtain ⟨n0, rfl⟩ : ∃ n0, n = n0 + 3 := ⟨n - 3, by omega⟩
  have hn0 : n0 % 4 = 0 := by omega
  refine (congrFun (after1_5 V c ⟨n0 + 3, hn⟩) (ix3 0 r e)).trans ?_
  refine (tile_entry V c x Wq bq kk vv h0 h1 h4 h8 h9 n0 hn0 hn r e).trans ?_
  exact (read3_at (up3 (wavg (score (proj x Wq bq) kk) vv)) (wavg (score (proj x Wq bq) kk) vv) (fun _ _ _ => rfl)
    _ _ _ _ e (by show (n0 + 3) / 16 = n0 / 16; omega)
    (by show 512 * (((n0 + 3) / 4) % 4) + r.val = 512 * ((n0 / 4) % 4) + r.val; omega)).symm

end Cert.Attn.ValueFlash

end
-- ==== Proof.Claims.lean ====
/-
  The five claims.

  Both programs run to the end without fault and leave their seven argument arrays as launched; the kernel's
  idealization rewrote no operation.  At exact arithmetic the two programs compute the same array: under the
  precondition every entry of the seven argument arrays is a real number, so the arrays are the images of real
  arrays x, Wq, bq, Wk, bk, Wv, bv.  The kernel's result array, read entry by entry, is the softmax-weighted average
  of the value projection with scores the scaled inner products of the query projection with the key projection
  (the tiled running-maximum scheme computes the plain quotient); the reference's result term is the same average
  (a softmax that first subtracts the row maximum is the same quotient).  Both are the image of the real array
  out x Wq bq Wk bk Wv bv, which is the common result.
-/
import proofs.«147183_j52690658788033_2_alg».proof.Defs
import proofs.«147183_j52690658788033_2_alg».proof.Proof.Gen.Kernel
import proofs.«147183_j52690658788033_2_alg».proof.Proof.Gen.KernelIdeal
import proofs.«147183_j52690658788033_2_alg».proof.Proof.Gen.ReferenceIdeal
import proofs.«147183_j52690658788033_2_alg».proof.Proof.Gen.ReferenceIdeal.Run
import proofs.«147183_j52690658788033_2_alg».proof.Proof.Gen.ReferenceIdeal.Read
import proofs.«147183_j52690658788033_2_alg».proof.Proof.Gen.Pre_finite_inputs
import proofs.«147183_j52690658788033_2_alg».proof.Proof.IdealFrame.Run
import proofs.«147183_j52690658788033_2_alg».proof.Proof.WordFrame.Run
import proofs.«147183_j52690658788033_2_alg».proof.Proof.Finite
import proofs.«147183_j52690658788033_2_alg».proof.Proof.RefSpec
import proofs.«147183_j52690658788033_2_alg».proof.Proof.Spec
import proofs.«147183_j52690658788033_2_alg».proof.Proof.EntryFacts
import proofs.«147183_j52690658788033_2_alg».proof.Proof.ValueFlash

noncomputable section

namespace Cert.Attn.Claims

open Idealize.ShloMosaic Idealize.ShloMosaic.TcCoe Idealize.ShloMosaic.ValueIdx Idealize.SL.Sem Cert.Attn

/-! ## The runs -/

theorem frame_p : Cert.frame_Kernel := fun m ρ _ => Cert.Kernel.Fr.frame (F := Bits) m ρ

theorem frame_pi : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-! ## The arguments are real arrays -/

/-- Under the precondition the seven argument buffers of every device are the images of real arrays. -/
theorem reals (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ (x : Arr3) (Wq : Mat) (bq : Vec1) (Wk : Mat) (bk : Vec1) (Wv : Mat) (bv : Vec1),
      m ((c.tc : Thread Cert.KernelIdeal.nD Cert.KernelIdeal.τ).loc Cert.KernelIdeal.main_arg0) = up3 x
      ∧ m ((c.tc : Thread Cert.KernelIdeal.nD Cert.KernelIdeal.τ).loc Cert.KernelIdeal.main_arg1) = up2 Wq
      ∧ m ((c.tc : Thread Cert.KernelIdeal.nD Cert.KernelIdeal.τ).loc Cert.KernelIdeal.main_arg2) = up1 bq
      ∧ m ((c.tc : Thread Cert.KernelIdeal.nD Cert.KernelIdeal.τ).loc Cert.KernelIdeal.main_arg3) = up2 Wk
      ∧ m ((c.tc : Thread Cert.KernelIdeal.nD Cert.KernelIdeal.τ).loc Cert.KernelIdeal.main_arg4) = up1 bk
      ∧ m ((c.tc : Thread Cert.KernelIdeal.nD Cert.KernelIdeal.τ).loc Cert.KernelIdeal.main_arg5) = up2 Wv
      ∧ m ((c.tc : Thread Cert.KernelIdeal.nD Cert.KernelIdeal.τ).loc Cert.KernelIdeal.main_arg6) = up1 bv :=
  Cert.Attn.Finite.reals_of_pre _ _ _ _ _ _ _ (hpre c)

/-! ## The reference's result -/

section ref

open Cert.ReferenceIdeal

/-- The reference, run from real arguments, ends with the specification's array in its result. -/
theorem ref_value (m' : (ℓ : Loc nD τ sig) → Buf (Elt Ideal) ℓ) (ρ' : Dev nD → PrngReg)
    (x : Dev nD → Arr3) (Wq : Dev nD → Mat) (bq : Dev nD → Vec1) (Wk : Dev nD → Mat) (bk : Dev nD → Vec1)
    (Wv : Dev nD → Mat) (bv : Dev nD → Vec1)
    (h : ∀ c : Dev nD,
      m' ((c.tc : Thread nD τ).loc main_arg0) = up3 (x c) ∧ m' ((c.tc : Thread nD τ).loc main_arg1) = up2 (Wq c)
      ∧ m' ((c.tc : Thread nD τ).loc main_arg2) = up1 (bq c) ∧ m' ((c.tc : Thread nD τ).loc main_arg3) = up2 (Wk c)
      ∧ m' ((c.tc : Thread nD τ).loc main_arg4) = up1 (bk c) ∧ m' ((c.tc : Thread nD τ).loc main_arg5) = up2 (Wv c)
      ∧ m' ((c.tc : Thread nD τ).loc main_arg6) = up1 (bv c)) :
    θ_run (defs (F := Ideal)) (onTc (τ := τ) (main (F := Ideal))) ⟨m', fun _ => 0, ρ'⟩ (fun r => ∀ c : Dev nD,
      r.2.mem ((c.tc : Thread nD τ).loc main_v28) = up3 (out (x c) (Wq c) (bq c) (Wk c) (bk c) (Wv c) (bv c))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)) := by
  refine (θ_run defs _ _).mono (fun _ hr c => ⟨(hr c).1.trans ?_, (hr c).2⟩)
    (Cert.ReferenceIdeal.Value.run (F := Ideal) m' ρ')
  obtain ⟨h0, h1, h2, h3, h4, h5, h6⟩ := h c
  rw [Cert.ReferenceIdeal.Read.val_main_v28_eq, h0, h1, h2, h3, h4, h5, h6]
  exact Cert.Attn.Ref.reference_eq _ _ _ _ _ _ _

end ref

/-! ## The kernel's result -/

section kernel

open Cert.KernelIdeal Cert.KernelIdeal.Gen Cert.KernelIdeal.Fr Cert.Attn.EntryFacts

/-- The kernel, run from real arguments, ends with the specification's array in its result. -/
theorem kernel_value (m : (ℓ : Loc nD τ sig) → Buf (Elt Ideal) ℓ) (ρ : Dev nD → PrngReg)
    (x : Dev nD → Arr3) (Wq : Dev nD → Mat) (bq : Dev nD → Vec1) (Wk : Dev nD → Mat) (bk : Dev nD → Vec1)
    (Wv : Dev nD → Mat) (bv : Dev nD → Vec1)
    (h : ∀ c : Dev nD,
      m ((c.tc : Thread nD τ).loc main_arg0) = up3 (x c) ∧ m ((c.tc : Thread nD τ).loc main_arg1) = up2 (Wq c)
      ∧ m ((c.tc : Thread nD τ).loc main_arg2) = up1 (bq c) ∧ m ((c.tc : Thread nD τ).loc main_arg3) = up2 (Wk c)
      ∧ m ((c.tc : Thread nD τ).loc main_arg4) = up1 (bk c) ∧ m ((c.tc : Thread nD τ).loc main_arg5) = up2 (Wv c)
      ∧ m ((c.tc : Thread nD τ).loc main_arg6) = up1 (bv c)) :
    θ_run (defs (F := Ideal)) (onTc (τ := τ) (main (F := Ideal))) ⟨m, fun _ => 0, ρ⟩ (fun r => ∀ c : Dev nD,
      r.2.mem ((c.tc : Thread nD τ).loc main_v10) = up3 (out (x c) (Wq c) (bq c) (Wk c) (bk c) (Wv c) (bv c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun _ hr c => ⟨(hr c).1.trans ?_, (hr c).2⟩) (Cert.KernelIdeal.Fr.run (F := Ideal) m ρ)
  obtain ⟨h0, h1, h2, h3, h4, h5, h6⟩ := h c
  exact Cert.Attn.ValueFlash.final1 (V3 m ρ) c (x c) (Wq c) (bq c) (proj (x c) (Wk c) (bk c)) (proj (x c) (Wv c) (bv c))
    (e_arg0 m ρ c (x c) h0) (e_v1 m ρ c (Wq c) h1) (e_v4 m ρ c (bq c) h2)
    (e_v8 m ρ c (x c) (Wk c) (bk c) h0 h3 h4) (e_v9 m ρ c (x c) (Wv c) (bv c) h0 h5 h6)

end kernel

/-! ## Equal results -/

theorem algebraic : Cert.algebraic_KernelIdeal_ReferenceIdeal := by
  intro m ρ m' ρ' hpre hagree
  choose x Wq bq Wk bk Wv bv hm using reals m hpre
  refine ⟨fun c => up3 (out (x c) (Wq c) (bq c) (Wk c) (bk c) (Wv c) (bv c)),
    kernel_value m ρ x Wq bq Wk bk Wv bv hm, ?_⟩
  refine ref_value m' ρ' x Wq bq Wk bk Wv bv fun c => ?_
  obtain ⟨a0, a1, a2, a3, a4, a5, a6⟩ := hagree c
  obtain ⟨h0, h1, h2, h3, h4, h5, h6⟩ := hm c
  exact ⟨a0.trans h0, a1.trans h1, a2.trans h2, a3.trans h3, a4.trans h4, a5.trans h5, a6.trans h6⟩

end Cert.Attn.Claims

end
-- ==== Proof.lean ====
/-
  Tiled softmax attention against plain softmax attention, at the ideal instance.

  The kernel program: two projections K = x·Wk + bk and V = x·Wv + bv by a first kernel over 16 row tiles; then, per
  batch and per tile of 512 query rows, a second kernel forms the scaled query projection q = (x·Wq + bq)/32 once and
  walks the 4 tiles of 512 key rows keeping, per query row, a running maximum m of the scores seen, the normaliser
  l = ∑ exp (score − m) and the accumulator acc = ∑ exp (score − m) · V, rescaling l and acc by exp (m_old − m_new)
  at each tile; after the last tile it stores acc / l. The reference computes scores = (q·kᵀ)/√1024, subtracts each row's
  maximum, exponentiates, normalises and multiplies by V.

  Under the precondition every input entry is a real number, so every intermediate value of both programs is a real
  number and the algebra is that of ℝ: √1024 = 32; scaling the query before or after the contraction is
  distributivity; and a softmax that subtracts ANY real from a row's scores — the row maximum, or the running
  maximum started from a large negative number — is ∑ exp (sₜ) vₜ / ∑ exp (sₜ), because exp (s − M) = exp s · exp (−M)
  with exp (−M) a nonzero real that cancels in the quotient. Both programs therefore compute Cert.Attn.out.

  The three frame claims: each kernel program is run region by region (its two host stretches, the projection
  region, the attention region whose four scratch buffers are carried from grid point to grid point at named
  contents), with every unscoped buffer's contents named at the end; the reference program is a straight line of
  host operations. The idealization rewrote nothing, so the preservation claim is trivial.
-/
import proofs.«147183_j52690658788033_2_alg».proof.Defs
import proofs.«147183_j52690658788033_2_alg».proof.Proof.Gen.Kernel
import proofs.«147183_j52690658788033_2_alg».proof.Proof.Gen.KernelIdeal
import proofs.«147183_j52690658788033_2_alg».proof.Proof.Gen.ReferenceIdeal
import proofs.«147183_j52690658788033_2_alg».proof.Proof.Gen.Pre_finite_inputs
import proofs.«147183_j52690658788033_2_alg».proof.Proof.Claims

noncomputable section

namespace Cert.Proof

theorem claim : Cert.Claim := ⟨Cert.Kernel.Gen.facts, Cert.KernelIdeal.Gen.facts, Cert.ReferenceIdeal.Gen.facts, Cert.Pre_finite_inputs.Gen.facts,
  Cert.Attn.Claims.frame_p, Cert.Attn.Claims.frame_pi, Cert.Attn.Claims.frame_ri, trivial, Cert.Attn.Claims.algebraic⟩

end Cert.Proof

end
